-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S96x40 : Shape := ⟨2, ![96, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S32 .f32) (main_arg8 : FVec F S96x40 .f32) (main_arg9 : FVec F S40 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S96x40 .f32 := Host.absf main_arg8
  let main_cst_14 : FVec F S_ .f32 := constant S_ .f32 0x7F800000#32
  let main_v40 : FVec F S96x40 .f32 := broadcastInDim S96x40 ![] bcast_S_S96x40 main_cst_14
  let main_v41 : IVec S96x40 1 := cmpf .olt main_v39 main_v40
  let main_c_15 : IVec S_ 1 := constantI S_ 1 1#1
  let main_v42 : IVec S_ 1 := (fun x v => Host.reduce IntOp.andi x v reducesTo_S96x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S32x32 .f32) (main_arg5 : FVec F S32 .f32) (main_arg6 : FVec F S32x32 .f32) (main_arg7 : FVec F S32 .f32) (main_arg8 : FVec F S96x40 .f32) (main_arg9 : FVec F S40 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S96x40 .f32) (main_arg9 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S96x40 : Shape := ⟨2, ![96, 40]⟩
abbrev S40 : Shape := ⟨1, ![40]⟩
abbrev S1x32 : Shape := ⟨2, ![1, 32]⟩
abbrev S10000x32 : Shape := ⟨2, ![10000, 32]⟩
abbrev S80x10000 : Shape := ⟨2, ![80, 10000]⟩
abbrev S80x32 : Shape := ⟨2, ![80, 32]⟩
abbrev S1x40 : Shape := ⟨2, ![1, 40]⟩
abbrev S10000x40 : Shape := ⟨2, ![10000, 40]⟩
abbrev S80x40 : Shape := ⟨2, ![80, 40]⟩
abbrev S32x40 : Shape := ⟨2, ![32, 40]⟩
abbrev S80 : Shape := ⟨1, ![80]⟩
abbrev S80x1 : Shape := ⟨2, ![80, 1]⟩

abbrev nBuf : Space → Nat
  | .hbm => 18
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S96x40, .f32⟩
  | .hbm, ⟨9, _⟩ => ⟨S40, .f32⟩
  | .hbm, ⟨10, _⟩ => ⟨S1x32, .f32⟩
  | .hbm, ⟨11, _⟩ => ⟨S10000x32, .f32⟩
  | .hbm, ⟨12, _⟩ => ⟨S10000x10000, .bf16⟩
  | .hbm, ⟨13, _⟩ => ⟨S1x32, .f32⟩
  | .hbm, ⟨14, _⟩ => ⟨S10000x32, .f32⟩
  | .hbm, ⟨15, _⟩ => ⟨S1x32, .f32⟩
  | .hbm, ⟨16, _⟩ => ⟨S1x40, .f32⟩
  | .hbm, ⟨17, _⟩ => ⟨S10000x40, .f32⟩
  | .local _ .vmem, ⟨0, _⟩ => ⟨S80x10000, .f32⟩
  | .local _ .vmem, ⟨1, _⟩ => ⟨S80x10000, .f32⟩
  | .local _ .vmem, ⟨2, _⟩ => ⟨S10000x128, .f32⟩
  | .local _ .vmem, ⟨3, _⟩ => ⟨S128x32, .f32⟩
  | .local _ .vmem, ⟨4, _⟩ => ⟨S1x32, .f32⟩
  | .local _ .vmem, ⟨5, _⟩ => ⟨S80x32, .f32⟩
  | .local _ .vmem, ⟨6, _⟩ => ⟨S80x32, .f32⟩
  | .local _ .vmem, ⟨7, _⟩ => ⟨S80x10000, .bf16⟩
  | .local _ .vmem, ⟨8, _⟩ => ⟨S80x10000, .bf16⟩
  | .local _ .vmem, ⟨9, _⟩ => ⟨S10000x32, .bf16⟩
  | .local _ .vmem, ⟨10, _⟩ => ⟨S80x10000, .bf16⟩
  | .local _ .vmem, ⟨11, _⟩ => ⟨S80x10000, .bf16⟩
  | .local _ .vmem, ⟨12, _⟩ => ⟨S10000x32, .f32⟩
  | .local _ .vmem, ⟨13, _⟩ => ⟨S32x32, .f32⟩
  | .local _ .vmem, ⟨14, _⟩ => ⟨S1x32, .f32⟩
  | .local _ .vmem, ⟨15, _⟩ => ⟨S80x32, .f32⟩
  | .local _ .vmem, ⟨16, _⟩ => ⟨S80x32, .f32⟩
  | .local _ .vmem, ⟨17, _⟩ => ⟨S10000x32, .bf16⟩
  | .local _ .vmem, ⟨18, _⟩ => ⟨S80x10000, .bf16⟩
  | .local _ .vmem, ⟨19, _⟩ => ⟨S80x10000, .bf16⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S96x40, .f32⟩
  | .local _ .vmem, ⟨25, _⟩ => ⟨S1x40, .f32⟩
  | .local _ .vmem, ⟨26, _⟩ => ⟨S80x40, .f32⟩
  | .local _ .vmem, ⟨27, _⟩ => ⟨S80x40, .f32⟩
  | .local _ .vmem, ⟨28, _⟩ => ⟨S10000x32, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S80x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S80x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def k2_off1 (i : grid2.Coords) : Fin 2 → Nat :=
  let arg0 : BitVec 32 := BitVec.ofNat 32 (i 0).val
  let c80_i32 : BitVec 32 := 80#32
  let v11 : BitVec 32 := Scalar.muli arg0 c80_i32
  let v12 : Index := Scalar.indexCast v11
  let c0_6 : Index := 0#32
  ![v12.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S80x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S80x40 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  packedbf16_S10000x32_S10000x32_0_0 : (Rect.unit (s := S10000x32) ![0, 0] S10000x32.size inb_S10000x32_S10000x32_0_0).PackedRows (EltTy.packing .bf16)
  inb_S80x10000_S80x10000_0_0 : ∀ a, (![0, 0] : Fin 2 → Nat) a + S80x10000.size a ≤ S80x10000.size a
  h_S80x10000 : 0 < S80x10000.numel
  packedbf16_S80x10000_S80x10000_0_0 : (Rect.unit (s := S80x10000) ![0, 0] S80x10000.size inb_S80x10000_S80x10000_0_0).PackedRows (EltTy.packing .bf16)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S80x32 : S1x32.Broadcasts S80x32
  inb_S80x32_S80x32_0_0 : ∀ a, (![0, 0] : Fin 2 → Nat) a + S80x32.size a ≤ S80x32.size a
  h_S80x32 : 0 < S80x32.numel
  inb_S32x32_S32x32_0_0 : ∀ a, (![0, 0] : Fin 2 → Nat) a + S32x32.size a ≤ S32x32.size a
  h_S32x32 : 0 < S32x32.numel
  shapeCasts_S80x10000_S80x10000 : S80x10000.ShapeCasts S80x10000
  shapeCasts_S40_S1x40 : S40.ShapeCasts S1x40
  shapeCasts_S80x32_S80x32 : S80x32.ShapeCasts S80x32
  inb_S96x40_S32x40_0_0 : ∀ a, (![0, 0] : Fin 2 → Nat) a + S32x40.size a ≤ S96x40.size a
  h_S32x40 : 0 < S32x40.numel
  inb_S96x40_S32x40_32_0 : ∀ a, (![32, 0] : Fin 2 → Nat) a + S32x40.size a ≤ S96x40.size a
  inb_S96x40_S32x40_64_0 : ∀ a, (![64, 0] : Fin 2 → Nat) a + S32x40.size a ≤ S96x40.size a
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S80x40 : S1x40.Broadcasts S80x40
  reduces_S80x40_S80 : S80x40.Reduces [1] S80
  shapeCasts_S80_S80x1 : S80.ShapeCasts S80x1
  broadcasts_S80x1_S80x40 : S80x1.Broadcasts S80x40
  inb_S80x40_S80x40_0_0 : ∀ a, (![0, 0] : Fin 2 → Nat) a + S80x40.size a ≤ S80x40.size a
  h_S80x40 : 0 < S80x40.numel
  dot_S10000x128_S128x32_S10000x32_1_0_0_1_n_n_wf : DotDims.WF S10000x128 S128x32 S10000x32 [1] [0] [0] [1] [] []
  dot_S80x10000_S10000x32_S80x32_1_0_0_1_n_n_wf : DotDims.WF S80x10000 S10000x32 S80x32 [1] [0] [0] [1] [] []
  dot_S10000x32_S32x32_S10000x32_1_0_0_1_n_n_wf : DotDims.WF S10000x32 S32x32 S10000x32 [1] [0] [0] [1] [] []
  dot_S80x32_S32x40_S80x40_1_0_0_1_n_n_wf : DotDims.WF S80x32 S32x40 S80x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x32.size a ≤ S10000x32.size a
  hwx0_4 : ∀ i : grid0.Coords, EltTy.bits .f32 = 32 ∨ (Rect.block (s := S10000x32) S80x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x10000.size a ≤ S10000x10000.size a
  hwx0_5 : ∀ i : grid0.Coords, EltTy.bits .bf16 = 32 ∨ (Rect.block (s := S10000x10000) S80x10000.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .bf16 = 32 ∨ (Rect.block (s := S10000x10000) S80x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x32.size a ≤ S10000x32.size a
  hwx1_4 : ∀ i : grid1.Coords, EltTy.bits .f32 = 32 ∨ (Rect.block (s := S10000x32) S80x32.size (cc1_transform_4 i) (hinb1_4 i)).WholeWords (EltTy.packing .f32)
  hrank2 : 0 < grid2.rank
  k2_off1_inb : ∀ i : grid2.Coords, ∀ a, (k2_off1 i) a + S80x32.size a ≤ S10000x32.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S80x10000.size a ≤ S10000x10000.size a
  hwx2_0 : ∀ i : grid2.Coords, EltTy.bits .bf16 = 32 ∨ (Rect.block (s := S10000x10000) S80x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S10000x32.size a
  hwx2_2 : ∀ i : grid2.Coords, EltTy.bits .f32 = 32 ∨ (Rect.block (s := S10000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x40.size a ≤ S96x40.size a
  hwx2_5 : ∀ i : grid2.Coords, EltTy.bits .f32 = 32 ∨ (Rect.block (s := S96x40) S96x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S80x40.size a ≤ S10000x40.size a
  hwx2_7 : ∀ i : grid2.Coords, EltTy.bits .f32 = 32 ∨ (Rect.block (s := S10000x40) S80x40.size (cc2_transform_7 i) (hinb2_7 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S80x10000_S10000x32_S80x32_1_0_0_1_n_n : DotDims S80x10000 S10000x32 S80x32 where
  lhsContracting := [1]
  rhsContracting := [0]
  lhsNonContracting := [0]
  rhsNonContracting := [1]
  lhsBatch := []
  rhsBatch := []
  wf := dot_S80x10000_S10000x32_S80x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S80x32_S32x40_S80x40_1_0_0_1_n_n : DotDims S80x32 S32x40 S80x40 where
  lhsContracting := [1]
  rhsContracting := [0]
  lhsNonContracting := [0]
  rhsNonContracting := [1]
  lhsBatch := []
  rhsBatch := []
  wf := dot_S80x32_S32x40_S80x40_1_0_0_1_n_n_wf

abbrev win0_0 : Pipeline.Window sig grid0 :=
  Pipeline.Window.ofSpec (Memref.whole main_arg1) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S80x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S80x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S80x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_1) S80x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S10000x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S96x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S80x40.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S96x40 : Shape := ⟨2, ![96, 40]⟩
abbrev S40 : Shape := ⟨1, ![40]⟩
abbrev S10000x32 : Shape := ⟨2, ![10000, 32]⟩
abbrev S1x32 : Shape := ⟨2, ![1, 32]⟩
abbrev S_ : Shape := ⟨0, ![]⟩
abbrev S10000x96 : Shape := ⟨2, ![10000, 96]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S96x40, .f32⟩
  | .hbm, ⟨9, _⟩ => ⟨S40, .f32⟩
  | .hbm, ⟨10, _⟩ => ⟨S10000x32, .f32⟩
  | .hbm, ⟨11, _⟩ => ⟨S10000x32, .f32⟩
  | .hbm, ⟨12, _⟩ => ⟨S1x32, .f32⟩
  | .hbm, ⟨13, _⟩ => ⟨S10000x32, .f32⟩
  | .hbm, ⟨14, _⟩ => ⟨S10000x32, .f32⟩
  | .hbm, ⟨15, _⟩ => ⟨S_, .f32⟩
  | .hbm, ⟨16, _⟩ => ⟨S10000x32, .f32⟩
  | .hbm, ⟨17, _⟩ => ⟨S10000x32, .f32⟩
  | .hbm, ⟨18, _⟩ => ⟨S10000x32, .f32⟩
  | .hbm, ⟨19, _⟩ => ⟨S10000x32, .f32⟩
  | .hbm, ⟨20, _⟩ => ⟨S1x32, .f32⟩
  | .hbm, ⟨21, _⟩ => ⟨S10000x32, .f32⟩
  | .hbm, ⟨22, _⟩ => ⟨S10000x32, .f32⟩
  | .hbm, ⟨23, _⟩ => ⟨S_, .f32⟩
  | .hbm, ⟨24, _⟩ => ⟨S10000x32, .f32⟩
  | .hbm, ⟨25, _⟩ => ⟨S10000x32, .f32⟩
  | .hbm, ⟨26, _⟩ => ⟨S10000x32, .f32⟩
  | .hbm, ⟨27, _⟩ => ⟨S10000x32, .f32⟩
  | .hbm, ⟨28, _⟩ => ⟨S1x32, .f32⟩
  | .hbm, ⟨29, _⟩ => ⟨S10000x32, .f32⟩
  | .hbm, ⟨30, _⟩ => ⟨S10000x32, .f32⟩
  | .hbm, ⟨31, _⟩ => ⟨S10000x96, .f32⟩
  | .hbm, ⟨32, _⟩ => ⟨S10000x40, .f32⟩
  | .hbm, ⟨33, _⟩ => ⟨S1x40, .f32⟩
  | .hbm, ⟨34, _⟩ => ⟨S10000x40, .f32⟩
  | .hbm, ⟨35, _⟩ => ⟨S10000x40, .f32⟩
  | .hbm, ⟨36, _⟩ => ⟨S_, .f32⟩
  | .hbm, ⟨37, _⟩ => ⟨S10000, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S10000x40, .f32⟩
  | .hbm, ⟨43, _⟩ => ⟨S10000x40, .f32⟩
  | .hbm, ⟨44, _⟩ => ⟨S10000x40, .f32⟩
  | .hbm, ⟨45, _⟩ => ⟨S_, .f32⟩
  | .hbm, ⟨46, _⟩ => ⟨S10000, .f32⟩
  | .hbm, ⟨47, _⟩ => ⟨S10000x1, .f32⟩
  | .hbm, ⟨48, _⟩ => ⟨S10000x1, .f32⟩
  | .hbm, ⟨49, _⟩ => ⟨S10000x40, .f32⟩
  | .hbm, ⟨50, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_cst : Ref sig .tc := ⟨.hbm, 36, rfl⟩
abbrev main_call2_v0 : Ref sig .tc := ⟨.hbm, 37, rfl⟩
abbrev main_call2_cst_0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_1 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_v22 : Ref sig .tc := ⟨.hbm, 50, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  concatenates_S10000x32_S10000x32_S10000x32_S10000x96_d1 : Shape.Concatenates [S10000x32, S10000x32, S10000x32] S10000x96 1
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x96_S96x40_S10000x40_1_0_0_1_n_n_wf : DotDims.WF S10000x96 S96x40 S10000x40 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x96_S96x40_S10000x40_1_0_0_1_n_n : DotDims S10000x96 S96x40 S10000x40 where
  lhsContracting := [1]
  rhsContracting := [0]
  lhsNonContracting := [0]
  rhsNonContracting := [1]
  lhsBatch := []
  rhsBatch := []
  wf := dot_S10000x96_S96x40_S10000x40_1_0_0_1_n_n_wf

class Facts : Prop extends Facts₀ where

variable [Facts]
-- ==== Proof.KRun0.lean ====
/-
  Region 0 of the program: its kernel body run once per case of its one conditional.  The body branches on "is this
  the grid's first point": there it computes a dense product into a scratch buffer, which every later point only reads.
  Each case is run on whole staging buffers; what the case's stores leave in each buffer is recorded as the list of the
  stored pieces, which the run itself determines.
-/
import proofs.«117827_g33741263077612_cont_sun_m_882_2_alg».proof.Proof.Gen.Kernel.Launch
import proofs.«117827_g33741263077612_cont_sun_m_882_2_alg».proof.Proof.Gen.Kernel.Skeleton
import proofs.«117827_g33741263077612_cont_sun_m_882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate: the point is the first. -/
abbrev cond0 (i : grid0.Coords) : Prop := (Scalar.cmpi .ne (Scalar.extui (Scalar.cmpi .eq (BitVec.ofNat 32 (i 0).val) 0#32)) 0#32) = 1#1
/-- It holds at point 0 and at no other point of the grid. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The body at the grid's first point, on whole staging memrefs: the inputs' at their contents, the outputs' and the
    scratch at anything.  It leaves the inputs' as they were and each output's and the scratch with its stores written;
    the stores, as pieces, are found by running the body. -/
noncomputable def kernelRun0_Z (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i)
    (x1 : Vec F S80x10000 .f32) (x2 : Vec F S10000x128 .f32) (x3 : Vec F S128x32 .f32) (x4 : Vec F S1x32 .f32) :
    Σ' (L5 : List (View.Piece (Elt F) S80x32 .f32)) (L6 : List (View.Piece (Elt F) S80x10000 .bf16)), { LS : List (View.Piece (Elt F) S10000x32 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, ?_, fun E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact HS

set_option maxHeartbeats 4000000 in
/-- The body at any later point: the scratch holds what the first point left in it (`xs`), is only read, and is handed
    back as it was. -/
noncomputable def kernelRun0_N (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i)
    (x1 : Vec F S80x10000 .f32) (x2 : Vec F S10000x128 .f32) (x3 : Vec F S128x32 .f32) (x4 : Vec F S1x32 .f32) (xs : Vec F S10000x32 .bf16) :
    Σ' (L5 : List (View.Piece (Elt F) S80x32 .f32)), { L6 : List (View.Piece (Elt F) S80x10000 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ owns (c : Thread nD τ) arg7 fullShare xs) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg1.eq_unread hf1; obtain rfl := harg2.eq_unread hf2; obtain rfl := harg3.eq_unread hf3; obtain rfl := harg4.eq_unread hf4; obtain rfl := harg7.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; isplitr; · ipureintro; exact harg7.read_unread _
    iexact HS

end Cert.Kernel.Hand

end
-- ==== Proof.KBody0.lean ====
/-
  Region 0 of the program as one pipeline: the proof data (what every window's staging buffer holds after the body at
  each grid point, and the invariant carried from point to point) and the body's obligation at every point.
  The scratch buffer is written once, at the first point, and only read afterwards; so the invariant after any point says
  the scratch holds what the first point stored, and an output block at a later point is a function of that value and of the
  point's input blocks.  Everything is stated at a parameter `V`: the buffers' contents when the region is entered.
-/
import proofs.«117827_g33741263077612_cont_sun_m_882_2_alg».proof.Proof.KRun0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs the pipeline passes at a point, the scratch, the views contents are stated through -/

abbrev ms0_0 (t : Fin cfg0.N) : Memref sig .tc .vmem S80x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S80x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S80x10000 .bf16 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0 : Memref sig .tc .vmem S10000x32 .bf16 := Memref.whole cc0_scratch0
abbrev VS0 : View sig .tc .vmem S10000x32 .bf16 := scM0.view
abbrev VO0_4 : View sig .tc .vmem S80x32 .f32 := (Memref.whole cc0_stg4_0 : Memref sig .tc .vmem S80x32 .f32).view
abbrev VO0_5 : View sig .tc .vmem S80x10000 .bf16 := (Memref.whole cc0_stg5_0 : Memref sig .tc .vmem S80x10000 .bf16).view

/-- The scoped buffers that are no staging buffer of this region, split at the region's own scratch: the scratch
    whole at some contents, every other one (the other regions' staging buffers and scratch) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)
/-- The unopened remainder. -/
abbrev rest0 (c : Dev nD) : sProp 𝕄 :=
  Pipeline.scopedRestBut (Ix := Unit) (Name := ℕ) (U := UR sig nD τ) (Lvl := ℕ) (Val := Elt F) spec0 c [cc0_scratch0]
/-- The class invariant with the scratch as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_split]; simp only [scM0, owns_whole]; try rfl

theorem Npos0 : 0 < cfg0.N := by rw [show cfg0.N = 125 from N_0]; decide
/-- The grid's first point. -/
abbrev t0_0 : Fin cfg0.N := ⟨0, Npos0⟩

/-- The first point's stores into output window 4's buffer tile it, so they cover it. -/
theorem cover0_Z_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) (y : S80x32.Idx) :
    ∃ pc ∈ (kernelRun0_Z c i arg1 harg1 arg2 harg2 arg3 harg3 arg4 harg4 arg5 harg5 arg6 harg6 arg7 harg7 hc x1 x2 x3 x4).1, y ∈ pc.1.set :=
  View.cover_of_tiledL (kernelRun0_Z c i arg1 harg1 arg2 harg2 arg3 harg3 arg4 harg4 arg5 harg5 arg6 harg6 arg7 harg7 hc x1 x2 x3 x4).1 S80x32.size (by sl_kernel_rfl) y
/-- What the first point leaves in output window 4's buffer: its pieces read back. -/
def out0_Z_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) : Vec F S80x32 .f32 :=
  VO0_4.read (Elt F) (VO0_4.writes (Elt F) VO0_4.junk (kernelRun0_Z c i arg1 harg1 arg2 harg2 arg3 harg3 arg4 harg4 arg5 harg5 arg6 harg6 arg7 harg7 hc x1 x2 x3 x4).1)
/-- A later point's stores into output window 4's buffer tile it. -/
theorem cover0_N_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) (y : S80x32.Idx) :
    ∃ pc ∈ (kernelRun0_N c i arg1 harg1 arg2 harg2 arg3 harg3 arg4 harg4 arg5 harg5 arg6 harg6 arg7 harg7 hc x1 x2 x3 x4 xs).1, y ∈ pc.1.set :=
  View.cover_of_tiledL (kernelRun0_N c i arg1 harg1 arg2 harg2 arg3 harg3 arg4 harg4 arg5 harg5 arg6 harg6 arg7 harg7 hc x1 x2 x3 x4 xs).1 S80x32.size (by sl_kernel_rfl) y
/-- What a later point leaves in output window 4's buffer. -/
def out0_N_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) : Vec F S80x32 .f32 :=
  VO0_4.read (Elt F) (VO0_4.writes (Elt F) VO0_4.junk (kernelRun0_N c i arg1 harg1 arg2 harg2 arg3 harg3 arg4 harg4 arg5 harg5 arg6 harg6 arg7 harg7 hc x1 x2 x3 x4 xs).1)

/-- The first point's stores into output window 5's buffer tile it, so they cover it. -/
theorem cover0_Z_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) (y : S80x10000.Idx) :
    ∃ pc ∈ (kernelRun0_Z c i arg1 harg1 arg2 harg2 arg3 harg3 arg4 harg4 arg5 harg5 arg6 harg6 arg7 harg7 hc x1 x2 x3 x4).2.1, y ∈ pc.1.set :=
  View.cover_of_tiledL (kernelRun0_Z c i arg1 harg1 arg2 harg2 arg3 harg3 arg4 harg4 arg5 harg5 arg6 harg6 arg7 harg7 hc x1 x2 x3 x4).2.1 S80x10000.size (by sl_kernel_rfl) y
/-- What the first point leaves in output window 5's buffer: its pieces read back. -/
def out0_Z_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) : Vec F S80x10000 .bf16 :=
  VO0_5.read (Elt F) (VO0_5.writes (Elt F) VO0_5.junk (kernelRun0_Z c i arg1 harg1 arg2 harg2 arg3 harg3 arg4 harg4 arg5 harg5 arg6 harg6 arg7 harg7 hc x1 x2 x3 x4).2.1)
/-- A later point's stores into output window 5's buffer tile it. -/
theorem cover0_N_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) (y : S80x10000.Idx) :
    ∃ pc ∈ (kernelRun0_N c i arg1 harg1 arg2 harg2 arg3 harg3 arg4 harg4 arg5 harg5 arg6 harg6 arg7 harg7 hc x1 x2 x3 x4 xs).2.1, y ∈ pc.1.set :=
  View.cover_of_tiledL (kernelRun0_N c i arg1 harg1 arg2 harg2 arg3 harg3 arg4 harg4 arg5 harg5 arg6 harg6 arg7 harg7 hc x1 x2 x3 x4 xs).2.1 S80x10000.size (by sl_kernel_rfl) y
/-- What a later point leaves in output window 5's buffer. -/
def out0_N_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) : Vec F S80x10000 .bf16 :=
  VO0_5.read (Elt F) (VO0_5.writes (Elt F) VO0_5.junk (kernelRun0_N c i arg1 harg1 arg2 harg2 arg3 harg3 arg4 harg4 arg5 harg5 arg6 harg6 arg7 harg7 hc x1 x2 x3 x4 xs).2.1)

/-- The first point's store into the scratch covers it. -/
theorem scover0_Z (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) (y : S10000x32.Idx) :
    ∃ pc ∈ (kernelRun0_Z c i arg1 harg1 arg2 harg2 arg3 harg3 arg4 harg4 arg5 harg5 arg6 harg6 arg7 harg7 hc x1 x2 x3 x4).2.2.1, y ∈ pc.1.set :=
  View.cover_of_tiledL (kernelRun0_Z c i arg1 harg1 arg2 harg2 arg3 harg3 arg4 harg4 arg5 harg5 arg6 harg6 arg7 harg7 hc x1 x2 x3 x4).2.2.1 S10000x32.size (by sl_kernel_rfl) y
/-- What the first point leaves in the scratch. -/
def sout0_Z (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) : Vec F S10000x32 .bf16 :=
  VS0.read (Elt F) (VS0.writes (Elt F) VS0.junk (kernelRun0_Z c i arg1 harg1 arg2 harg2 arg3 harg3 arg4 harg4 arg5 harg5 arg6 harg6 arg7 harg7 hc x1 x2 x3 x4).2.2.1)

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- What the scratch holds from the first point on: what the first point's store left. -/
def S0 (c : Dev nD) : Vec F S10000x32 .bf16 :=
  sout0_Z c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0 (Memref.isWhole_whole _) ((hcond0 t0_0).mpr rfl) (iblk0 V c 0 t0_0) (iblk0 V c 1 t0_0) (iblk0 V c 2 t0_0) (iblk0 V c 3 t0_0)

/-- What output window 4's buffer holds after the body at point `t`. -/
def o0_4 (c : Dev nD) (t : Fin cfg0.N) : Vec F S80x32 .f32 :=
  if h : t.val = 0 then out0_Z_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t)
  else out0_N_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c)
theorem o0_4_zero (c : Dev nD) (t : Fin cfg0.N) (h : t.val = 0) :
    o0_4 V c t = out0_Z_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) := dif_pos h
theorem o0_4_pos (c : Dev nD) (t : Fin cfg0.N) (h : ¬t.val = 0) :
    o0_4 V c t = out0_N_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c) := dif_neg h
/-- What output window 5's buffer holds after the body at point `t`. -/
def o0_5 (c : Dev nD) (t : Fin cfg0.N) : Vec F S80x10000 .bf16 :=
  if h : t.val = 0 then out0_Z_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t)
  else out0_N_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c)
theorem o0_5_zero (c : Dev nD) (t : Fin cfg0.N) (h : t.val = 0) :
    o0_5 V c t = out0_Z_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) := dif_pos h
theorem o0_5_pos (c : Dev nD) (t : Fin cfg0.N) (h : ¬t.val = 0) :
    o0_5 V c t = out0_N_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c) := dif_neg h

/-- The invariant before position `n`: before the first point the class's (the scratch at anything); afterwards the
    scratch at what the first point stored, and the generator register at some state. -/
def PhiS0 (c : Dev nD) : ℕ → sProp 𝕄
  | 0 => Pipeline.ΦA spec0 c
  | _ + 1 => iprop(iprop(owns (c : Thread nD τ) scM0 fullShare (S0 V c) ∗ rest0 (F := F) c) ∗ (∃ r, prngReg c r))

theorem PhiS0_pos (c : Dev nD) (n : ℕ) (hz : n ≠ 0) :
    PhiS0 V c n = iprop(iprop(owns (c : Thread nD τ) scM0 fullShare (S0 V c) ∗ rest0 (F := F) c) ∗ (∃ r, prngReg c r)) := by
  cases n with
  | zero => exact absurd rfl hz
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => o0_4 V c t
    | ⟨5, _⟩ => o0_5 V c t
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = o0_4 V c t := by dsimp only [dat0]
theorem after0_5 (c : Dev nD) (t : Fin cfg0.N) : (dat0 V c).after 5 t = o0_5 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
/-- The body at any point: the inputs' memrefs hold their blocks; at the first point the scratch is at anything and is left
    at its store, at a later point it holds that store and is handed back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = iprop(iprop(owns (c : Thread nD τ) scM0 fullShare (S0 V c) ∗ rest0 (F := F) c) ∗ (∃ r, prngReg c r)) from rfl,
    after0_0, after0_1, after0_2, after0_3, after0_4, after0_5]
  by_cases hz : t.val = 0
  · rw [show (dat0 V c).Φ t.castSucc = Pipeline.ΦA spec0 c from by
      show PhiS0 V c t.castSucc.val = _; rw [Fin.coe_castSucc, hz]; rfl, PhiA0_eq, o0_4_zero V c t hz, o0_5_zero V c t hz]
    have ht : t = t0_0 := Fin.ext hz
    subst ht
    unfold S0 sout0_Z out0_Z_4 out0_Z_5
    iintro ⟨⟨⟨HS, Hrst⟩, Hg⟩, Ho, ⟨%d0, H0⟩, ⟨%d1, H1⟩, ⟨%d2, H2⟩, ⟨%d3, H3⟩, ⟨%d4, H4⟩, ⟨%d5, H5⟩⟩
    iapply ((kernelRun0_Z c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0 (Memref.isWhole_whole _) ((hcond0 t0_0).mpr rfl) (iblk0 V c 0 t0_0) (iblk0 V c 1 t0_0) (iblk0 V c 2 t0_0) (iblk0 V c 3 t0_0)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, ⟨%es, HS⟩⟩
    isplitl [HS Hrst Hg]
    · isplitl [HS Hrst]
      · isplitl [HS]
        · unfold owns; iexists _; isplitr
          swap; · iexact HS
          ipureintro; exact View.read_writes_of_cover _ _ _ _ _ (scover0_Z c _ _ _ _ _ _ _ _ _ _ _ _ _ _ _ _ _ _ _ _)
        iexact Hrst
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_Z_4 c _ _ _ _ _ _ _ _ _ _ _ _ _ _ _ _ _ _ _ _)
    unfold owns; iexists _; isplitr
    swap; · iexact H5
    ipureintro; exact View.read_writes_of_cover _ _ _ _ _ (cover0_Z_5 c _ _ _ _ _ _ _ _ _ _ _ _ _ _ _ _ _ _ _ _)
  · rw [show (dat0 V c).Φ t.castSucc = iprop(iprop(owns (c : Thread nD τ) scM0 fullShare (S0 V c) ∗ rest0 (F := F) c) ∗ (∃ r, prngReg c r)) from by
      show PhiS0 V c t.castSucc.val = _; rw [Fin.coe_castSucc]; exact PhiS0_pos V c _ hz, o0_4_pos V c t hz, o0_5_pos V c t hz]
    unfold out0_N_4 out0_N_5
    iintro ⟨⟨⟨HS, Hrst⟩, Hg⟩, Ho, ⟨%d0, H0⟩, ⟨%d1, H1⟩, ⟨%d2, H2⟩, ⟨%d3, H3⟩, ⟨%d4, H4⟩, ⟨%d5, H5⟩⟩
    iapply ((kernelRun0_N c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => hz ((hcond0 t).mp hc)) (iblk0 V c 0 t) (iblk0 V c 1 t) (iblk0 V c 2 t) (iblk0 V c 3 t) (S0 V c)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hrst Hg]
    · isplitl [HS Hrst]
      · isplitl [HS]; · iexact HS
        iexact Hrst
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_N_4 c _ _ _ _ _ _ _ _ _ _ _ _ _ _ _ _ _ _ _ _ _)
    unfold owns; iexists _; isplitr
    swap; · iexact H5
    ipureintro; exact View.read_writes_of_cover _ _ _ _ _ (cover0_N_5 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c _ (Nat.pos_iff_ne_zero.mp Npos0), PhiA0_eq]
  iintro ⟨⟨HS, Hrst⟩, Hg⟩
  isplitl [HS Hrst]
  · isplitl [HS]
    · iexists _; iexact HS
    iexact Hrst
  iexact Hg

end Region

end Cert.Kernel.Hand

end
-- ==== Proof.KRun1.lean ====
/-
  Region 1 of the program: its kernel body run once per case of its one conditional.  The body branches on "is this
  the grid's first point": there it computes a dense product into a scratch buffer, which every later point only reads.
  Each case is run on whole staging buffers; what the case's stores leave in each buffer is recorded as the list of the
  stored pieces, which the run itself determines.
-/
import proofs.«117827_g33741263077612_cont_sun_m_882_2_alg».proof.Proof.Gen.Kernel.Launch
import proofs.«117827_g33741263077612_cont_sun_m_882_2_alg».proof.Proof.Gen.Kernel.Skeleton
import proofs.«117827_g33741263077612_cont_sun_m_882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate: the point is the first. -/
abbrev cond1 (i : grid1.Coords) : Prop := (Scalar.cmpi .ne (Scalar.extui (Scalar.cmpi .eq (BitVec.ofNat 32 (i 0).val) 0#32)) 0#32) = 1#1
/-- It holds at point 0 and at no other point of the grid. -/
theorem hcond1 : ∀ t : Fin cfg1.N, cond1 (grid1.coords t) ↔ t.val = 0 :=
  (by decide +kernel : ∀ t : Fin grid1.N, cond1 (grid1.coords t) ↔ t.val = 0)

set_option maxHeartbeats 4000000 in
/-- The body at the grid's first point, on whole staging memrefs: the inputs' at their contents, the outputs' and the
    scratch at anything.  It leaves the inputs' as they were and each output's and the scratch with its stores written;
    the stores, as pieces, are found by running the body. -/
noncomputable def kernelRun1_Z (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i)
    (x1 : Vec F S80x10000 .bf16) (x2 : Vec F S10000x32 .f32) (x3 : Vec F S32x32 .f32) (x4 : Vec F S1x32 .f32) :
    Σ' (L5 : List (View.Piece (Elt F) S80x32 .f32)), { LS : List (View.Piece (Elt F) S10000x32 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6) K } := by
  refine ⟨?_, ?_, fun E K => ?run⟩
  case run =>
    simp only [cc1__pass2_kernel_eq_skeleton]; unfold cc1__pass2_kernel_skel
    unfold owns
    iintro ⟨⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

set_option maxHeartbeats 4000000 in
/-- The body at any later point: the scratch holds what the first point left in it (`xs`), is only read, and is handed
    back as it was. -/
noncomputable def kernelRun1_N (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : ¬cond1 i)
    (x1 : Vec F S80x10000 .bf16) (x2 : Vec F S10000x32 .f32) (x3 : Vec F S32x32 .f32) (x4 : Vec F S1x32 .f32) (xs : Vec F S10000x32 .bf16) :
    { L5 : List (View.Piece (Elt F) S80x32 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ owns (c : Thread nD τ) arg6 fullShare xs) -∗ K ⟨⟩))
          ⊢ wp frame (wpE (defs₀ (F := F)) Variants.none c none) E (cc1__pass2_kernel i arg1 harg1 arg2 harg2 arg3 harg3 arg4 harg4 arg5 harg5 arg6 harg6) K } := by
  refine ⟨?_, fun E K => ?run⟩
  case run =>
    simp only [cc1__pass2_kernel_eq_skeleton]; unfold cc1__pass2_kernel_skel
    unfold owns
    iintro ⟨⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf1; obtain rfl := harg2.eq_unread hf2; obtain rfl := harg3.eq_unread hf3; obtain rfl := harg4.eq_unread hf4; obtain rfl := harg6.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact HS

end Cert.Kernel.Hand

end
-- ==== Proof.KBody1.lean ====
/-
  Region 1 of the program as one pipeline: the proof data (what every window's staging buffer holds after the body at
  each grid point, and the invariant carried from point to point) and the body's obligation at every point.
  The scratch buffer is written once, at the first point, and only read afterwards; so the invariant after any point says
  the scratch holds what the first point stored, and an output block at a later point is a function of that value and of the
  point's input blocks.  Everything is stated at a parameter `V`: the buffers' contents when the region is entered.
-/
import proofs.«117827_g33741263077612_cont_sun_m_882_2_alg».proof.Proof.KRun1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs the pipeline passes at a point, the scratch, the views contents are stated through -/

abbrev ms1_0 (t : Fin cfg1.N) : Memref sig .tc .vmem S80x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S80x32 .f32 := win1_4.stage (cfg1.slots t 4)
abbrev hs1_4 (t : Fin cfg1.N) : (ms1_4 t).IsWhole := hstage1_4 ((cfg1.slots t 4).cast nbuf1_4)
/-- The scratch operand: a whole scoped buffer of the kernel's own. -/
abbrev scM1 : Memref sig .tc .vmem S10000x32 .bf16 := Memref.whole cc1_scratch0
abbrev VS1 : View sig .tc .vmem S10000x32 .bf16 := scM1.view
abbrev VO1_4 : View sig .tc .vmem S80x32 .f32 := (Memref.whole cc1_stg4_0 : Memref sig .tc .vmem S80x32 .f32).view

/-- The scoped buffers that are no staging buffer of this region, split at the region's own scratch: the scratch
    whole at some contents, every other one (the other regions' staging buffers and scratch) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
/-- The unopened remainder. -/
abbrev rest1 (c : Dev nD) : sProp 𝕄 :=
  Pipeline.scopedRestBut (Ix := Unit) (Name := ℕ) (U := UR sig nD τ) (Lvl := ℕ) (Val := Elt F) spec1 c [cc1_scratch0]
/-- The class invariant with the scratch as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA; rw [scopedRest1_split]; simp only [scM1, owns_whole]; try rfl

theorem Npos1 : 0 < cfg1.N := by rw [show cfg1.N = 125 from N_1]; decide
/-- The grid's first point. -/
abbrev t0_1 : Fin cfg1.N := ⟨0, Npos1⟩

/-- The first point's stores into output window 4's buffer tile it, so they cover it. -/
theorem cover1_Z_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) (y : S80x32.Idx) :
    ∃ pc ∈ (kernelRun1_Z c i arg1 harg1 arg2 harg2 arg3 harg3 arg4 harg4 arg5 harg5 arg6 harg6 hc x1 x2 x3 x4).1, y ∈ pc.1.set :=
  View.cover_of_tiledL (kernelRun1_Z c i arg1 harg1 arg2 harg2 arg3 harg3 arg4 harg4 arg5 harg5 arg6 harg6 hc x1 x2 x3 x4).1 S80x32.size (by sl_kernel_rfl) y
/-- What the first point leaves in output window 4's buffer: its pieces read back. -/
def out1_Z_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) : Vec F S80x32 .f32 :=
  VO1_4.read (Elt F) (VO1_4.writes (Elt F) VO1_4.junk (kernelRun1_Z c i arg1 harg1 arg2 harg2 arg3 harg3 arg4 harg4 arg5 harg5 arg6 harg6 hc x1 x2 x3 x4).1)
/-- A later point's stores into output window 4's buffer tile it. -/
theorem cover1_N_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : ¬cond1 i) (x1 : Vec F S80x10000 .bf16) (x2 : Vec F S10000x32 .f32) (x3 : Vec F S32x32 .f32) (x4 : Vec F S1x32 .f32) (xs : Vec F S10000x32 .bf16) (y : S80x32.Idx) :
    ∃ pc ∈ (kernelRun1_N c i arg1 harg1 arg2 harg2 arg3 harg3 arg4 harg4 arg5 harg5 arg6 harg6 hc x1 x2 x3 x4 xs).1, y ∈ pc.1.set :=
  View.cover_of_tiledL (kernelRun1_N c i arg1 harg1 arg2 harg2 arg3 harg3 arg4 harg4 arg5 harg5 arg6 harg6 hc x1 x2 x3 x4 xs).1 S80x32.size (by sl_kernel_rfl) y
/-- What a later point leaves in output window 4's buffer. -/
def out1_N_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : ¬cond1 i) (x1 : Vec F S80x10000 .bf16) (x2 : Vec F S10000x32 .f32) (x3 : Vec F S32x32 .f32) (x4 : Vec F S1x32 .f32) (xs : Vec F S10000x32 .bf16) : Vec F S80x32 .f32 :=
  VO1_4.read (Elt F) (VO1_4.writes (Elt F) VO1_4.junk (kernelRun1_N c i arg1 harg1 arg2 harg2 arg3 harg3 arg4 harg4 arg5 harg5 arg6 harg6 hc x1 x2 x3 x4 xs).1)

/-- The first point's store into the scratch covers it. -/
theorem scover1_Z (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) (y : S10000x32.Idx) :
    ∃ pc ∈ (kernelRun1_Z c i arg1 harg1 arg2 harg2 arg3 harg3 arg4 harg4 arg5 harg5 arg6 harg6 hc x1 x2 x3 x4).2.1, y ∈ pc.1.set :=
  View.cover_of_tiledL (kernelRun1_Z c i arg1 harg1 arg2 harg2 arg3 harg3 arg4 harg4 arg5 harg5 arg6 harg6 hc x1 x2 x3 x4).2.1 S10000x32.size (by sl_kernel_rfl) y
/-- What the first point leaves in the scratch. -/
def sout1_Z (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) : Vec F S10000x32 .bf16 :=
  VS1.read (Elt F) (VS1.writes (Elt F) VS1.junk (kernelRun1_Z c i arg1 harg1 arg2 harg2 arg3 harg3 arg4 harg4 arg5 harg5 arg6 harg6 hc x1 x2 x3 x4).2.1)

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the scratch holds from the first point on: what the first point's store left. -/
def S1 (c : Dev nD) : Vec F S10000x32 .bf16 :=
  sout1_Z c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) ((hcond1 t0_1).mpr rfl) (iblk1 V c 0 t0_1) (iblk1 V c 1 t0_1) (iblk1 V c 2 t0_1) (iblk1 V c 3 t0_1)

/-- What output window 4's buffer holds after the body at point `t`. -/
def o1_4 (c : Dev nD) (t : Fin cfg1.N) : Vec F S80x32 .f32 :=
  if h : t.val = 0 then out1_Z_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t)
  else out1_N_4 c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (S1 V c)
theorem o1_4_zero (c : Dev nD) (t : Fin cfg1.N) (h : t.val = 0) :
    o1_4 V c t = out1_Z_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t) := dif_pos h
theorem o1_4_pos (c : Dev nD) (t : Fin cfg1.N) (h : ¬t.val = 0) :
    o1_4 V c t = out1_N_4 c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (S1 V c) := dif_neg h

/-- The invariant before position `n`: before the first point the class's (the scratch at anything); afterwards the
    scratch at what the first point stored, and the generator register at some state. -/
def PhiS1 (c : Dev nD) : ℕ → sProp 𝕄
  | 0 => Pipeline.ΦA spec1 c
  | _ + 1 => iprop(iprop(owns (c : Thread nD τ) scM1 fullShare (S1 V c) ∗ rest1 (F := F) c) ∗ (∃ r, prngReg c r))

theorem PhiS1_pos (c : Dev nD) (n : ℕ) (hz : n ≠ 0) :
    PhiS1 V c n = iprop(iprop(owns (c : Thread nD τ) scM1 fullShare (S1 V c) ∗ rest1 (F := F) c) ∗ (∃ r, prngReg c r)) := by
  cases n with
  | zero => exact absurd rfl hz
  | succ n => rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => o1_4 V c t
  Φ t := PhiS1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = o1_4 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' memrefs hold their blocks; at the first point the scratch is at anything and is left
    at its store, at a later point it holds that store and is handed back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = iprop(iprop(owns (c : Thread nD τ) scM1 fullShare (S1 V c) ∗ rest1 (F := F) c) ∗ (∃ r, prngReg c r)) from rfl,
    after1_0, after1_1, after1_2, after1_3, after1_4]
  by_cases hz : t.val = 0
  · rw [show (dat1 V c).Φ t.castSucc = Pipeline.ΦA spec1 c from by
      show PhiS1 V c t.castSucc.val = _; rw [Fin.coe_castSucc, hz]; rfl, PhiA1_eq, o1_4_zero V c t hz]
    have ht : t = t0_1 := Fin.ext hz
    subst ht
    unfold S1 sout1_Z out1_Z_4
    iintro ⟨⟨⟨HS, Hrst⟩, Hg⟩, Ho, ⟨%d0, H0⟩, ⟨%d1, H1⟩, ⟨%d2, H2⟩, ⟨%d3, H3⟩, ⟨%d4, H4⟩⟩
    iapply ((kernelRun1_Z c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) ((hcond1 t0_1).mpr rfl) (iblk1 V c 0 t0_1) (iblk1 V c 1 t0_1) (iblk1 V c 2 t0_1) (iblk1 V c 3 t0_1)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrst Hg]
    · isplitl [HS Hrst]
      · isplitl [HS]
        · unfold owns; iexists _; isplitr
          swap; · iexact HS
          ipureintro; exact View.read_writes_of_cover _ _ _ _ _ (scover1_Z c _ _ _ _ _ _ _ _ _ _ _ _ _ _ _ _ _ _)
        iexact Hrst
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_Z_4 c _ _ _ _ _ _ _ _ _ _ _ _ _ _ _ _ _ _)
  · rw [show (dat1 V c).Φ t.castSucc = iprop(iprop(owns (c : Thread nD τ) scM1 fullShare (S1 V c) ∗ rest1 (F := F) c) ∗ (∃ r, prngReg c r)) from by
      show PhiS1 V c t.castSucc.val = _; rw [Fin.coe_castSucc]; exact PhiS1_pos V c _ hz, o1_4_pos V c t hz]
    unfold out1_N_4
    iintro ⟨⟨⟨HS, Hrst⟩, Hg⟩, Ho, ⟨%d0, H0⟩, ⟨%d1, H1⟩, ⟨%d2, H2⟩, ⟨%d3, H3⟩, ⟨%d4, H4⟩⟩
    iapply ((kernelRun1_N c (grid1.coords t) (ms1_0 t) (hs1_0 t) (ms1_1 t) (hs1_1 t) (ms1_2 t) (hs1_2 t) (ms1_3 t) (hs1_3 t) (ms1_4 t) (hs1_4 t) scM1 (Memref.isWhole_whole _) (fun hc => hz ((hcond1 t).mp hc)) (iblk1 V c 0 t) (iblk1 V c 1 t) (iblk1 V c 2 t) (iblk1 V c 3 t) (S1 V c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hrst Hg]
    · isplitl [HS Hrst]
      · isplitl [HS]; · iexact HS
        iexact Hrst
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_N_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c cfg1.N from rfl,
    PhiS1_pos V c _ (Nat.pos_iff_ne_zero.mp Npos1), PhiA1_eq]
  iintro ⟨⟨HS, Hrst⟩, Hg⟩
  isplitl [HS Hrst]
  · isplitl [HS]
    · iexists _; iexact HS
    iexact Hrst
  iexact Hg

end Region

end Cert.Kernel.Hand

end
-- ==== Proof.KRun2.lean ====
/-
  Region 2 of the program: its kernel body run once per case of its one conditional.  The body branches on "is this
  the grid's first point": there it computes a dense product into a scratch buffer, which every later point only reads.
  Each case is run on whole staging buffers; what the case's stores leave in each buffer is recorded as the list of the
  stored pieces, which the run itself determines.
-/
import proofs.«117827_g33741263077612_cont_sun_m_882_2_alg».proof.Proof.Gen.Kernel.Launch
import proofs.«117827_g33741263077612_cont_sun_m_882_2_alg».proof.Proof.Gen.Kernel.Skeleton
import proofs.«117827_g33741263077612_cont_sun_m_882_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate: the point is the first. -/
abbrev cond2 (i : grid2.Coords) : Prop := (Scalar.cmpi .ne (Scalar.extui (Scalar.cmpi .eq (BitVec.ofNat 32 (i 0).val) 0#32)) 0#32) = 1#1
/-- It holds at point 0 and at no other point of the grid. -/
theorem hcond2 : ∀ t : Fin cfg2.N, cond2 (grid2.coords t) ↔ t.val = 0 :=
  (by decide +kernel : ∀ t : Fin grid2.N, cond2 (grid2.coords t) ↔ t.val = 0)

set_option maxHeartbeats 4000000 in
/-- The body at the grid's first point, on whole staging memrefs: the inputs' at their contents, the outputs' and the
    scratch at anything.  It leaves the inputs' as they were and each output's and the scratch with its stores written;
    the stores, as pieces, are found by running the body. -/
noncomputable def kernelRun2_Z (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i)
    (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) :
    Σ' (L8 : List (View.Piece (Elt F) S80x40 .f32)), { LS : List (View.Piece (Elt F) S10000x32 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS)) -∗ K ⟨⟩))
          ⊢ wp frame (wpE (defs₀ (F := F)) Variants.none c none) E (cc2__pass3_kernel i arg1 harg1 arg2 harg2 arg3 harg3 arg4 harg4 arg5 harg5 arg6 harg6 arg7 harg7 arg8 harg8 arg9 harg9) K } := by
  refine ⟨?_, ?_, fun E K => ?run⟩
  case run =>
    simp only [cc2__pass3_kernel_eq_skeleton, k2_part1_eq_skeleton]; unfold cc2__pass3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HS

set_option maxHeartbeats 4000000 in
/-- The body at any later point: the scratch holds what the first point left in it (`xs`), is only read, and is handed
    back as it was. -/
noncomputable def kernelRun2_N (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : ¬cond2 i)
    (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (xs : Vec F S10000x32 .bf16) :
    { L8 : List (View.Piece (Elt F) S80x40 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare xs) -∗ K ⟨⟩))
          ⊢ wp frame (wpE (defs₀ (F := F)) Variants.none c none) E (cc2__pass3_kernel i arg1 harg1 arg2 harg2 arg3 harg3 arg4 harg4 arg5 harg5 arg6 harg6 arg7 harg7 arg8 harg8 arg9 harg9) K } := by
  refine ⟨?_, fun E K => ?run⟩
  case run =>
    simp only [cc2__pass3_kernel_eq_skeleton, k2_part1_eq_skeleton]; unfold cc2__pass3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg9.read_unread _
    iexact HS

end Cert.Kernel.Hand

end
-- ==== Proof.KBody2.lean ====
/-
  Region 2 of the program as one pipeline: the proof data (what every window's staging buffer holds after the body at
  each grid point, and the invariant carried from point to point) and the body's obligation at every point.
  The scratch buffer is written once, at the first point, and only read afterwards; so the invariant after any point says
  the scratch holds what the first point stored, and an output block at a later point is a function of that value and of the
  point's input blocks.  Everything is stated at a parameter `V`: the buffers' contents when the region is entered.
-/
import proofs.«117827_g33741263077612_cont_sun_m_882_2_alg».proof.Proof.KRun2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs the pipeline passes at a point, the scratch, the views contents are stated through -/

abbrev ms2_0 (t : Fin cfg2.N) : Memref sig .tc .vmem S80x10000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S96x40 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x40 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S80x40 .f32 := win2_7.stage (cfg2.slots t 7)
abbrev hs2_7 (t : Fin cfg2.N) : (ms2_7 t).IsWhole := hstage2_7 ((cfg2.slots t 7).cast nbuf2_7)
/-- The scratch operand: a whole scoped buffer of the kernel's own. -/
abbrev scM2 : Memref sig .tc .vmem S10000x32 .bf16 := Memref.whole cc2_scratch0
abbrev VS2 : View sig .tc .vmem S10000x32 .bf16 := scM2.view
abbrev VO2_7 : View sig .tc .vmem S80x40 .f32 := (Memref.whole cc2_stg7_0 : Memref sig .tc .vmem S80x40 .f32).view

/-- The scoped buffers that are no staging buffer of this region, split at the region's own scratch: the scratch
    whole at some contents, every other one (the other regions' staging buffers and scratch) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)
/-- The unopened remainder. -/
abbrev rest2 (c : Dev nD) : sProp 𝕄 :=
  Pipeline.scopedRestBut (Ix := Unit) (Name := ℕ) (U := UR sig nD τ) (Lvl := ℕ) (Val := Elt F) spec2 c [cc2_scratch0]
/-- The class invariant with the scratch as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA; rw [scopedRest2_split]; simp only [scM2, owns_whole]; try rfl

theorem Npos2 : 0 < cfg2.N := by rw [show cfg2.N = 125 from N_2]; decide
/-- The grid's first point. -/
abbrev t0_2 : Fin cfg2.N := ⟨0, Npos2⟩

/-- The first point's stores into output window 7's buffer tile it, so they cover it. -/
theorem cover2_Z_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (y : S80x40.Idx) :
    ∃ pc ∈ (kernelRun2_Z c i arg1 harg1 arg2 harg2 arg3 harg3 arg4 harg4 arg5 harg5 arg6 harg6 arg7 harg7 arg8 harg8 arg9 harg9 hc x1 x2 x3 x4 x5 x6 x7).1, y ∈ pc.1.set :=
  View.cover_of_tiledL (kernelRun2_Z c i arg1 harg1 arg2 harg2 arg3 harg3 arg4 harg4 arg5 harg5 arg6 harg6 arg7 harg7 arg8 harg8 arg9 harg9 hc x1 x2 x3 x4 x5 x6 x7).1 S80x40.size (by sl_kernel_rfl) y
/-- What the first point leaves in output window 7's buffer: its pieces read back. -/
def out2_Z_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) : Vec F S80x40 .f32 :=
  VO2_7.read (Elt F) (VO2_7.writes (Elt F) VO2_7.junk (kernelRun2_Z c i arg1 harg1 arg2 harg2 arg3 harg3 arg4 harg4 arg5 harg5 arg6 harg6 arg7 harg7 arg8 harg8 arg9 harg9 hc x1 x2 x3 x4 x5 x6 x7).1)
/-- A later point's stores into output window 7's buffer tile it. -/
theorem cover2_N_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : ¬cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (xs : Vec F S10000x32 .bf16) (y : S80x40.Idx) :
    ∃ pc ∈ (kernelRun2_N c i arg1 harg1 arg2 harg2 arg3 harg3 arg4 harg4 arg5 harg5 arg6 harg6 arg7 harg7 arg8 harg8 arg9 harg9 hc x1 x2 x3 x4 x5 x6 x7 xs).1, y ∈ pc.1.set :=
  View.cover_of_tiledL (kernelRun2_N c i arg1 harg1 arg2 harg2 arg3 harg3 arg4 harg4 arg5 harg5 arg6 harg6 arg7 harg7 arg8 harg8 arg9 harg9 hc x1 x2 x3 x4 x5 x6 x7 xs).1 S80x40.size (by sl_kernel_rfl) y
/-- What a later point leaves in output window 7's buffer. -/
def out2_N_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : ¬cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (xs : Vec F S10000x32 .bf16) : Vec F S80x40 .f32 :=
  VO2_7.read (Elt F) (VO2_7.writes (Elt F) VO2_7.junk (kernelRun2_N c i arg1 harg1 arg2 harg2 arg3 harg3 arg4 harg4 arg5 harg5 arg6 harg6 arg7 harg7 arg8 harg8 arg9 harg9 hc x1 x2 x3 x4 x5 x6 x7 xs).1)

/-- The first point's store into the scratch covers it. -/
theorem scover2_Z (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (y : S10000x32.Idx) :
    ∃ pc ∈ (kernelRun2_Z c i arg1 harg1 arg2 harg2 arg3 harg3 arg4 harg4 arg5 harg5 arg6 harg6 arg7 harg7 arg8 harg8 arg9 harg9 hc x1 x2 x3 x4 x5 x6 x7).2.1, y ∈ pc.1.set :=
  View.cover_of_tiledL (kernelRun2_Z c i arg1 harg1 arg2 harg2 arg3 harg3 arg4 harg4 arg5 harg5 arg6 harg6 arg7 harg7 arg8 harg8 arg9 harg9 hc x1 x2 x3 x4 x5 x6 x7).2.1 S10000x32.size (by sl_kernel_rfl) y
/-- What the first point leaves in the scratch. -/
def sout2_Z (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) : Vec F S10000x32 .bf16 :=
  VS2.read (Elt F) (VS2.writes (Elt F) VS2.junk (kernelRun2_Z c i arg1 harg1 arg2 harg2 arg3 harg3 arg4 harg4 arg5 harg5 arg6 harg6 arg7 harg7 arg8 harg8 arg9 harg9 hc x1 x2 x3 x4 x5 x6 x7).2.1)

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- What the scratch holds from the first point on: what the first point's store left. -/
def S2 (c : Dev nD) : Vec F S10000x32 .bf16 :=
  sout2_Z c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) (ms2_5 t0_2) (hs2_5 t0_2) (ms2_6 t0_2) (hs2_6 t0_2) (ms2_7 t0_2) (hs2_7 t0_2) scM2 (Memref.isWhole_whole _) ((hcond2 t0_2).mpr rfl) (iblk2 V c 0 t0_2) (iblk2 V c 1 t0_2) (iblk2 V c 2 t0_2) (iblk2 V c 3 t0_2) (iblk2 V c 4 t0_2) (iblk2 V c 5 t0_2) (iblk2 V c 6 t0_2)

/-- What output window 7's buffer holds after the body at point `t`. -/
def o2_7 (c : Dev nD) (t : Fin cfg2.N) : Vec F S80x40 .f32 :=
  if h : t.val = 0 then out2_Z_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2 t).mpr h) (iblk2 V c 0 t) (iblk2 V c 1 t) (iblk2 V c 2 t) (iblk2 V c 3 t) (iblk2 V c 4 t) (iblk2 V c 5 t) (iblk2 V c 6 t)
  else out2_N_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun hc => h ((hcond2 t).mp hc)) (iblk2 V c 0 t) (iblk2 V c 1 t) (iblk2 V c 2 t) (iblk2 V c 3 t) (iblk2 V c 4 t) (iblk2 V c 5 t) (iblk2 V c 6 t) (S2 V c)
theorem o2_7_zero (c : Dev nD) (t : Fin cfg2.N) (h : t.val = 0) :
    o2_7 V c t = out2_Z_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2 t).mpr h) (iblk2 V c 0 t) (iblk2 V c 1 t) (iblk2 V c 2 t) (iblk2 V c 3 t) (iblk2 V c 4 t) (iblk2 V c 5 t) (iblk2 V c 6 t) := dif_pos h
theorem o2_7_pos (c : Dev nD) (t : Fin cfg2.N) (h : ¬t.val = 0) :
    o2_7 V c t = out2_N_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun hc => h ((hcond2 t).mp hc)) (iblk2 V c 0 t) (iblk2 V c 1 t) (iblk2 V c 2 t) (iblk2 V c 3 t) (iblk2 V c 4 t) (iblk2 V c 5 t) (iblk2 V c 6 t) (S2 V c) := dif_neg h

/-- The invariant before position `n`: before the first point the class's (the scratch at anything); afterwards the
    scratch at what the first point stored, and the generator register at some state. -/
def PhiS2 (c : Dev nD) : ℕ → sProp 𝕄
  | 0 => Pipeline.ΦA spec2 c
  | _ + 1 => iprop(iprop(owns (c : Thread nD τ) scM2 fullShare (S2 V c) ∗ rest2 (F := F) c) ∗ (∃ r, prngReg c r))

theorem PhiS2_pos (c : Dev nD) (n : ℕ) (hz : n ≠ 0) :
    PhiS2 V c n = iprop(iprop(owns (c : Thread nD τ) scM2 fullShare (S2 V c) ∗ rest2 (F := F) c) ∗ (∃ r, prngReg c r)) := by
  cases n with
  | zero => exact absurd rfl hz
  | succ n => rfl

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => o2_7 V c t
  Φ t := PhiS2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = o2_7 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4800000 in
/-- The body at any point: the inputs' memrefs hold their blocks; at the first point the scratch is at anything and is left
    at its store, at a later point it holds that store and is handed back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = iprop(iprop(owns (c : Thread nD τ) scM2 fullShare (S2 V c) ∗ rest2 (F := F) c) ∗ (∃ r, prngReg c r)) from rfl,
    after2_0, after2_1, after2_2, after2_3, after2_4, after2_5, after2_6, after2_7]
  by_cases hz : t.val = 0
  · rw [show (dat2 V c).Φ t.castSucc = Pipeline.ΦA spec2 c from by
      show PhiS2 V c t.castSucc.val = _; rw [Fin.coe_castSucc, hz]; rfl, PhiA2_eq, o2_7_zero V c t hz]
    have ht : t = t0_2 := Fin.ext hz
    subst ht
    unfold S2 sout2_Z out2_Z_7
    iintro ⟨⟨⟨HS, Hrst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_Z c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) (ms2_5 t0_2) (hs2_5 t0_2) (ms2_6 t0_2) (hs2_6 t0_2) (ms2_7 t0_2) (hs2_7 t0_2) scM2 (Memref.isWhole_whole _) ((hcond2 t0_2).mpr rfl) (iblk2 V c 0 t0_2) (iblk2 V c 1 t0_2) (iblk2 V c 2 t0_2) (iblk2 V c 3 t0_2) (iblk2 V c 4 t0_2) (iblk2 V c 5 t0_2) (iblk2 V c 6 t0_2)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS Hrst Hg]
    · isplitl [HS Hrst]
      · isplitl [HS]
        · unfold owns; iexists _; isplitr
          swap; · iexact HS
          ipureintro; exact View.read_writes_of_cover _ _ _ _ _ (scover2_Z c _ _ _ _ _ _ _ _ _ _ _ _ _ _ _ _ _ _ _ _ _ _ _ _ _ _ _)
        iexact Hrst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover2_Z_7 c _ _ _ _ _ _ _ _ _ _ _ _ _ _ _ _ _ _ _ _ _ _ _ _ _ _ _)
  · rw [show (dat2 V c).Φ t.castSucc = iprop(iprop(owns (c : Thread nD τ) scM2 fullShare (S2 V c) ∗ rest2 (F := F) c) ∗ (∃ r, prngReg c r)) from by
      show PhiS2 V c t.castSucc.val = _; rw [Fin.coe_castSucc]; exact PhiS2_pos V c _ hz, o2_7_pos V c t hz]
    unfold out2_N_7
    iintro ⟨⟨⟨HS, Hrst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_N c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun hc => hz ((hcond2 t).mp hc)) (iblk2 V c 0 t) (iblk2 V c 1 t) (iblk2 V c 2 t) (iblk2 V c 3 t) (iblk2 V c 4 t) (iblk2 V c 5 t) (iblk2 V c 6 t) (S2 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS Hrst Hg]
    · isplitl [HS Hrst]
      · isplitl [HS]; · iexact HS
        iexact Hrst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover2_N_7 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c cfg2.N from rfl,
    PhiS2_pos V c _ (Nat.pos_iff_ne_zero.mp Npos2), PhiA2_eq]
  iintro ⟨⟨HS, Hrst⟩, Hg⟩
  isplitl [HS Hrst]
  · isplitl [HS]
    · iexists _; iexact HS
    iexact Hrst
  iexact Hg

end Region

end Cert.Kernel.Hand

end
-- ==== Proof.KMain.lean ====
/-
  The whole program as a run: host operations and the three kernel regions in order.  The contents of every unscoped
  buffer are followed from the launch memory through each host stretch and each region (a region leaves its windows'
  arrays at what its write-backs leave and every other buffer as it found it); each region is entered from the contents
  the segment before it left.  The run's conclusion: every weakly fair execution terminates without a fault and every
  unscoped buffer ends at the last contents of that chain.
-/
import proofs.«117827_g33741263077612_cont_sun_m_882_2_alg».proof.Proof.KBody0
import proofs.«117827_g33741263077612_cont_sun_m_882_2_alg».proof.Proof.KBody1
import proofs.«117827_g33741263077612_cont_sun_m_882_2_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host operations before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.KKeep.lean ====
/-
  The argument arrays through the run: no host operation writes an argument and no region changes one (a region reads
  it through an input window, whose array ends as entered, or passes it by), so at the last boundary every argument
  holds its launch contents.
-/
import proofs.«117827_g33741263077612_cont_sun_m_882_2_alg».proof.Proof.KMain
import proofs.«117827_g33741263077612_cont_sun_m_882_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keep_main_arg0 (c : Dev nD) : W6 m ρ c (Proc.devRef .tc main_arg0) = m ((c : Thread nD τ).loc main_arg0) :=
  ((W6_of_ne m ρ c main_arg0 (by decide)).trans ((StableHlo.after_of_writes_sub hostOps2 (W4 m ρ c) hostOps2_writes (by decide) : W5 m ρ c (Proc.devRef .tc main_arg0) = W4 m ρ c (Proc.devRef .tc main_arg0)).trans ((W4_of_ne m ρ c main_arg0 (by decide)).trans ((StableHlo.after_of_writes_sub hostOps1 (W2 m ρ c) hostOps1_writes (by decide) : W3 m ρ c (Proc.devRef .tc main_arg0) = W2 m ρ c (Proc.devRef .tc main_arg0)).trans (((W2_arr m ρ c 1).trans (((dat0 (V1 m ρ) c).arrAt_in 1 rfl _).trans (A_eq0 (V1 m ρ) c 1))).trans ((StableHlo.after_of_writes_sub hostOps0 (W0 m ρ c) hostOps0_writes (by decide) : W1 m ρ c (Proc.devRef .tc main_arg0) = W0 m ρ c (Proc.devRef .tc main_arg0)))))))).trans rfl

theorem keep_main_arg1 (c : Dev nD) : W6 m ρ c (Proc.devRef .tc main_arg1) = m ((c : Thread nD τ).loc main_arg1) :=
  ((W6_of_ne m ρ c main_arg1 (by decide)).trans ((StableHlo.after_of_writes_sub hostOps2 (W4 m ρ c) hostOps2_writes (by decide) : W5 m ρ c (Proc.devRef .tc main_arg1) = W4 m ρ c (Proc.devRef .tc main_arg1)).trans ((W4_of_ne m ρ c main_arg1 (by decide)).trans ((StableHlo.after_of_writes_sub hostOps1 (W2 m ρ c) hostOps1_writes (by decide) : W3 m ρ c (Proc.devRef .tc main_arg1) = W2 m ρ c (Proc.devRef .tc main_arg1)).trans (((W2_arr m ρ c 0).trans (((dat0 (V1 m ρ) c).arrAt_in 0 rfl _).trans (A_eq0 (V1 m ρ) c 0))).trans ((StableHlo.after_of_writes_sub hostOps0 (W0 m ρ c) hostOps0_writes (by decide) : W1 m ρ c (Proc.devRef .tc main_arg1) = W0 m ρ c (Proc.devRef .tc main_arg1)))))))).trans rfl

theorem keep_main_arg2 (c : Dev nD) : W6 m ρ c (Proc.devRef .tc main_arg2) = m ((c : Thread nD τ).loc main_arg2) :=
  ((W6_of_ne m ρ c main_arg2 (by decide)).trans ((StableHlo.after_of_writes_sub hostOps2 (W4 m ρ c) hostOps2_writes (by decide) : W5 m ρ c (Proc.devRef .tc main_arg2) = W4 m ρ c (Proc.devRef .tc main_arg2)).trans ((W4_of_ne m ρ c main_arg2 (by decide)).trans ((StableHlo.after_of_writes_sub hostOps1 (W2 m ρ c) hostOps1_writes (by decide) : W3 m ρ c (Proc.devRef .tc main_arg2) = W2 m ρ c (Proc.devRef .tc main_arg2)).trans (((W2_arr m ρ c 2).trans (((dat0 (V1 m ρ) c).arrAt_in 2 rfl _).trans (A_eq0 (V1 m ρ) c 2))).trans ((StableHlo.after_of_writes_sub hostOps0 (W0 m ρ c) hostOps0_writes (by decide) : W1 m ρ c (Proc.devRef .tc main_arg2) = W0 m ρ c (Proc.devRef .tc main_arg2)))))))).trans rfl

theorem keep_main_arg3 (c : Dev nD) : W6 m ρ c (Proc.devRef .tc main_arg3) = m ((c : Thread nD τ).loc main_arg3) :=
  ((W6_of_ne m ρ c main_arg3 (by decide)).trans ((StableHlo.after_of_writes_sub hostOps2 (W4 m ρ c) hostOps2_writes (by decide) : W5 m ρ c (Proc.devRef .tc main_arg3) = W4 m ρ c (Proc.devRef .tc main_arg3)).trans ((W4_of_ne m ρ c main_arg3 (by decide)).trans ((StableHlo.after_of_writes_sub hostOps1 (W2 m ρ c) hostOps1_writes (by decide) : W3 m ρ c (Proc.devRef .tc main_arg3) = W2 m ρ c (Proc.devRef .tc main_arg3)).trans ((W2_of_ne m ρ c main_arg3 (by decide)).trans ((StableHlo.after_of_writes_sub hostOps0 (W0 m ρ c) hostOps0_writes (by decide) : W1 m ρ c (Proc.devRef .tc main_arg3) = W0 m ρ c (Proc.devRef .tc main_arg3)))))))).trans rfl

theorem keep_main_arg4 (c : Dev nD) : W6 m ρ c (Proc.devRef .tc main_arg4) = m ((c : Thread nD τ).loc main_arg4) :=
  ((W6_of_ne m ρ c main_arg4 (by decide)).trans ((StableHlo.after_of_writes_sub hostOps2 (W4 m ρ c) hostOps2_writes (by decide) : W5 m ρ c (Proc.devRef .tc main_arg4) = W4 m ρ c (Proc.devRef .tc main_arg4)).trans (((W4_arr m ρ c 2).trans (((dat1 (V3 m ρ) c).arrAt_in 2 rfl _).trans (A_eq1 (V3 m ρ) c 2))).trans ((StableHlo.after_of_writes_sub hostOps1 (W2 m ρ c) hostOps1_writes (by decide) : W3 m ρ c (Proc.devRef .tc main_arg4) = W2 m ρ c (Proc.devRef .tc main_arg4)).trans ((W2_of_ne m ρ c main_arg4 (by decide)).trans ((StableHlo.after_of_writes_sub hostOps0 (W0 m ρ c) hostOps0_writes (by decide) : W1 m ρ c (Proc.devRef .tc main_arg4) = W0 m ρ c (Proc.devRef .tc main_arg4)))))))).trans rfl

theorem keep_main_arg5 (c : Dev nD) : W6 m ρ c (Proc.devRef .tc main_arg5) = m ((c : Thread nD τ).loc main_arg5) :=
  ((W6_of_ne m ρ c main_arg5 (by decide)).trans ((StableHlo.after_of_writes_sub hostOps2 (W4 m ρ c) hostOps2_writes (by decide) : W5 m ρ c (Proc.devRef .tc main_arg5) = W4 m ρ c (Proc.devRef .tc main_arg5)).trans ((W4_of_ne m ρ c main_arg5 (by decide)).trans ((StableHlo.after_of_writes_sub hostOps1 (W2 m ρ c) hostOps1_writes (by decide) : W3 m ρ c (Proc.devRef .tc main_arg5) = W2 m ρ c (Proc.devRef .tc main_arg5)).trans ((W2_of_ne m ρ c main_arg5 (by decide)).trans ((StableHlo.after_of_writes_sub hostOps0 (W0 m ρ c) hostOps0_writes (by decide) : W1 m ρ c (Proc.devRef .tc main_arg5) = W0 m ρ c (Proc.devRef .tc main_arg5)))))))).trans rfl

theorem keep_main_arg6 (c : Dev nD) : W6 m ρ c (Proc.devRef .tc main_arg6) = m ((c : Thread nD τ).loc main_arg6) :=
  (((W6_arr m ρ c 3).trans (((dat2 (V5 m ρ) c).arrAt_in 3 rfl _).trans (A_eq2 (V5 m ρ) c 3))).trans ((StableHlo.after_of_writes_sub hostOps2 (W4 m ρ c) hostOps2_writes (by decide) : W5 m ρ c (Proc.devRef .tc main_arg6) = W4 m ρ c (Proc.devRef .tc main_arg6)).trans ((W4_of_ne m ρ c main_arg6 (by decide)).trans ((StableHlo.after_of_writes_sub hostOps1 (W2 m ρ c) hostOps1_writes (by decide) : W3 m ρ c (Proc.devRef .tc main_arg6) = W2 m ρ c (Proc.devRef .tc main_arg6)).trans ((W2_of_ne m ρ c main_arg6 (by decide)).trans ((StableHlo.after_of_writes_sub hostOps0 (W0 m ρ c) hostOps0_writes (by decide) : W1 m ρ c (Proc.devRef .tc main_arg6) = W0 m ρ c (Proc.devRef .tc main_arg6)))))))).trans rfl

theorem keep_main_arg7 (c : Dev nD) : W6 m ρ c (Proc.devRef .tc main_arg7) = m ((c : Thread nD τ).loc main_arg7) :=
  ((W6_of_ne m ρ c main_arg7 (by decide)).trans ((StableHlo.after_of_writes_sub hostOps2 (W4 m ρ c) hostOps2_writes (by decide) : W5 m ρ c (Proc.devRef .tc main_arg7) = W4 m ρ c (Proc.devRef .tc main_arg7)).trans ((W4_of_ne m ρ c main_arg7 (by decide)).trans ((StableHlo.after_of_writes_sub hostOps1 (W2 m ρ c) hostOps1_writes (by decide) : W3 m ρ c (Proc.devRef .tc main_arg7) = W2 m ρ c (Proc.devRef .tc main_arg7)).trans ((W2_of_ne m ρ c main_arg7 (by decide)).trans ((StableHlo.after_of_writes_sub hostOps0 (W0 m ρ c) hostOps0_writes (by decide) : W1 m ρ c (Proc.devRef .tc main_arg7) = W0 m ρ c (Proc.devRef .tc main_arg7)))))))).trans rfl

theorem keep_main_arg8 (c : Dev nD) : W6 m ρ c (Proc.devRef .tc main_arg8) = m ((c : Thread nD τ).loc main_arg8) :=
  (((W6_arr m ρ c 5).trans (((dat2 (V5 m ρ) c).arrAt_in 5 rfl _).trans (A_eq2 (V5 m ρ) c 5))).trans ((StableHlo.after_of_writes_sub hostOps2 (W4 m ρ c) hostOps2_writes (by decide) : W5 m ρ c (Proc.devRef .tc main_arg8) = W4 m ρ c (Proc.devRef .tc main_arg8)).trans ((W4_of_ne m ρ c main_arg8 (by decide)).trans ((StableHlo.after_of_writes_sub hostOps1 (W2 m ρ c) hostOps1_writes (by decide) : W3 m ρ c (Proc.devRef .tc main_arg8) = W2 m ρ c (Proc.devRef .tc main_arg8)).trans ((W2_of_ne m ρ c main_arg8 (by decide)).trans ((StableHlo.after_of_writes_sub hostOps0 (W0 m ρ c) hostOps0_writes (by decide) : W1 m ρ c (Proc.devRef .tc main_arg8) = W0 m ρ c (Proc.devRef .tc main_arg8)))))))).trans rfl

theorem keep_main_arg9 (c : Dev nD) : W6 m ρ c (Proc.devRef .tc main_arg9) = m ((c : Thread nD τ).loc main_arg9) :=
  ((W6_of_ne m ρ c main_arg9 (by decide)).trans ((StableHlo.after_of_writes_sub hostOps2 (W4 m ρ c) hostOps2_writes (by decide) : W5 m ρ c (Proc.devRef .tc main_arg9) = W4 m ρ c (Proc.devRef .tc main_arg9)).trans ((W4_of_ne m ρ c main_arg9 (by decide)).trans ((StableHlo.after_of_writes_sub hostOps1 (W2 m ρ c) hostOps1_writes (by decide) : W3 m ρ c (Proc.devRef .tc main_arg9) = W2 m ρ c (Proc.devRef .tc main_arg9)).trans ((W2_of_ne m ρ c main_arg9 (by decide)).trans ((StableHlo.after_of_writes_sub hostOps0 (W0 m ρ c) hostOps0_writes (by decide) : W1 m ρ c (Proc.devRef .tc main_arg9) = W0 m ρ c (Proc.devRef .tc main_arg9)))))))).trans rfl

end Cert.Kernel.Hand

end
-- ==== Proof.KIRun0.lean ====
/-
  Region 0 of the program: its kernel body run once per case of its one conditional.  The body branches on "is this
  the grid's first point": there it computes a dense product into a scratch buffer, which every later point only reads.
  Each case is run on whole staging buffers; what the case's stores leave in each buffer is recorded as the list of the
  stored pieces, which the run itself determines.
-/
import proofs.«117827_g33741263077612_cont_sun_m_882_2_alg».proof.Proof.Gen.KernelIdeal.Launch
import proofs.«117827_g33741263077612_cont_sun_m_882_2_alg».proof.Proof.Gen.KernelIdeal.Skeleton
import proofs.«117827_g33741263077612_cont_sun_m_882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate: the point is the first. -/
abbrev cond0 (i : grid0.Coords) : Prop := (Scalar.cmpi .ne (Scalar.extui (Scalar.cmpi .eq (BitVec.ofNat 32 (i 0).val) 0#32)) 0#32) = 1#1
/-- It holds at point 0 and at no other point of the grid. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- The body at the grid's first point, on whole staging memrefs: the inputs' at their contents, the outputs' and the
    scratch at anything.  It leaves the inputs' as they were and each output's and the scratch with its stores written;
    the stores, as pieces, are found by running the body. -/
noncomputable def kernelRun0_Z (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i)
    (x1 : Vec F S80x10000 .f32) (x2 : Vec F S10000x128 .f32) (x3 : Vec F S128x32 .f32) (x4 : Vec F S1x32 .f32) :
    Σ' (L5 : List (View.Piece (Elt F) S80x32 .f32)) (L6 : List (View.Piece (Elt F) S80x10000 .bf16)), { LS : List (View.Piece (Elt F) S10000x32 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, ?_, fun E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact HS

set_option maxHeartbeats 4000000 in
/-- The body at any later point: the scratch holds what the first point left in it (`xs`), is only read, and is handed
    back as it was. -/
noncomputable def kernelRun0_N (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i)
    (x1 : Vec F S80x10000 .f32) (x2 : Vec F S10000x128 .f32) (x3 : Vec F S128x32 .f32) (x4 : Vec F S1x32 .f32) (xs : Vec F S10000x32 .bf16) :
    Σ' (L5 : List (View.Piece (Elt F) S80x32 .f32)), { L6 : List (View.Piece (Elt F) S80x10000 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ owns (c : Thread nD τ) arg7 fullShare xs) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg1.eq_unread hf1; obtain rfl := harg2.eq_unread hf2; obtain rfl := harg3.eq_unread hf3; obtain rfl := harg4.eq_unread hf4; obtain rfl := harg7.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; isplitr; · ipureintro; exact harg7.read_unread _
    iexact HS

end Cert.KernelIdeal.Hand

end
-- ==== Proof.KIBody0.lean ====
/-
  Region 0 of the program as one pipeline: the proof data (what every window's staging buffer holds after the body at
  each grid point, and the invariant carried from point to point) and the body's obligation at every point.
  The scratch buffer is written once, at the first point, and only read afterwards; so the invariant after any point says
  the scratch holds what the first point stored, and an output block at a later point is a function of that value and of the
  point's input blocks.  Everything is stated at a parameter `V`: the buffers' contents when the region is entered.
-/
import proofs.«117827_g33741263077612_cont_sun_m_882_2_alg».proof.Proof.KIRun0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs the pipeline passes at a point, the scratch, the views contents are stated through -/

abbrev ms0_0 (t : Fin cfg0.N) : Memref sig .tc .vmem S80x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S80x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S80x10000 .bf16 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0 : Memref sig .tc .vmem S10000x32 .bf16 := Memref.whole cc0_scratch0
abbrev VS0 : View sig .tc .vmem S10000x32 .bf16 := scM0.view
abbrev VO0_4 : View sig .tc .vmem S80x32 .f32 := (Memref.whole cc0_stg4_0 : Memref sig .tc .vmem S80x32 .f32).view
abbrev VO0_5 : View sig .tc .vmem S80x10000 .bf16 := (Memref.whole cc0_stg5_0 : Memref sig .tc .vmem S80x10000 .bf16).view

/-- The scoped buffers that are no staging buffer of this region, split at the region's own scratch: the scratch
    whole at some contents, every other one (the other regions' staging buffers and scratch) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)
/-- The unopened remainder. -/
abbrev rest0 (c : Dev nD) : sProp 𝕄 :=
  Pipeline.scopedRestBut (Ix := Unit) (Name := ℕ) (U := UR sig nD τ) (Lvl := ℕ) (Val := Elt F) spec0 c [cc0_scratch0]
/-- The class invariant with the scratch as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA; rw [scopedRest0_split]; simp only [scM0, owns_whole]; try rfl

theorem Npos0 : 0 < cfg0.N := by rw [show cfg0.N = 125 from N_0]; decide
/-- The grid's first point. -/
abbrev t0_0 : Fin cfg0.N := ⟨0, Npos0⟩

/-- The first point's stores into output window 4's buffer tile it, so they cover it. -/
theorem cover0_Z_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) (y : S80x32.Idx) :
    ∃ pc ∈ (kernelRun0_Z c i arg1 harg1 arg2 harg2 arg3 harg3 arg4 harg4 arg5 harg5 arg6 harg6 arg7 harg7 hc x1 x2 x3 x4).1, y ∈ pc.1.set :=
  View.cover_of_tiledL (kernelRun0_Z c i arg1 harg1 arg2 harg2 arg3 harg3 arg4 harg4 arg5 harg5 arg6 harg6 arg7 harg7 hc x1 x2 x3 x4).1 S80x32.size (by sl_kernel_rfl) y
/-- What the first point leaves in output window 4's buffer: its pieces read back. -/
def out0_Z_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) : Vec F S80x32 .f32 :=
  VO0_4.read (Elt F) (VO0_4.writes (Elt F) VO0_4.junk (kernelRun0_Z c i arg1 harg1 arg2 harg2 arg3 harg3 arg4 harg4 arg5 harg5 arg6 harg6 arg7 harg7 hc x1 x2 x3 x4).1)
/-- A later point's stores into output window 4's buffer tile it. -/
theorem cover0_N_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) (y : S80x32.Idx) :
    ∃ pc ∈ (kernelRun0_N c i arg1 harg1 arg2 harg2 arg3 harg3 arg4 harg4 arg5 harg5 arg6 harg6 arg7 harg7 hc x1 x2 x3 x4 xs).1, y ∈ pc.1.set :=
  View.cover_of_tiledL (kernelRun0_N c i arg1 harg1 arg2 harg2 arg3 harg3 arg4 harg4 arg5 harg5 arg6 harg6 arg7 harg7 hc x1 x2 x3 x4 xs).1 S80x32.size (by sl_kernel_rfl) y
/-- What a later point leaves in output window 4's buffer. -/
def out0_N_4 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) : Vec F S80x32 .f32 :=
  VO0_4.read (Elt F) (VO0_4.writes (Elt F) VO0_4.junk (kernelRun0_N c i arg1 harg1 arg2 harg2 arg3 harg3 arg4 harg4 arg5 harg5 arg6 harg6 arg7 harg7 hc x1 x2 x3 x4 xs).1)

/-- The first point's stores into output window 5's buffer tile it, so they cover it. -/
theorem cover0_Z_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) (y : S80x10000.Idx) :
    ∃ pc ∈ (kernelRun0_Z c i arg1 harg1 arg2 harg2 arg3 harg3 arg4 harg4 arg5 harg5 arg6 harg6 arg7 harg7 hc x1 x2 x3 x4).2.1, y ∈ pc.1.set :=
  View.cover_of_tiledL (kernelRun0_Z c i arg1 harg1 arg2 harg2 arg3 harg3 arg4 harg4 arg5 harg5 arg6 harg6 arg7 harg7 hc x1 x2 x3 x4).2.1 S80x10000.size (by sl_kernel_rfl) y
/-- What the first point leaves in output window 5's buffer: its pieces read back. -/
def out0_Z_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) : Vec F S80x10000 .bf16 :=
  VO0_5.read (Elt F) (VO0_5.writes (Elt F) VO0_5.junk (kernelRun0_Z c i arg1 harg1 arg2 harg2 arg3 harg3 arg4 harg4 arg5 harg5 arg6 harg6 arg7 harg7 hc x1 x2 x3 x4).2.1)
/-- A later point's stores into output window 5's buffer tile it. -/
theorem cover0_N_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) (y : S80x10000.Idx) :
    ∃ pc ∈ (kernelRun0_N c i arg1 harg1 arg2 harg2 arg3 harg3 arg4 harg4 arg5 harg5 arg6 harg6 arg7 harg7 hc x1 x2 x3 x4 xs).2.1, y ∈ pc.1.set :=
  View.cover_of_tiledL (kernelRun0_N c i arg1 harg1 arg2 harg2 arg3 harg3 arg4 harg4 arg5 harg5 arg6 harg6 arg7 harg7 hc x1 x2 x3 x4 xs).2.1 S80x10000.size (by sl_kernel_rfl) y
/-- What a later point leaves in output window 5's buffer. -/
def out0_N_5 (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) : Vec F S80x10000 .bf16 :=
  VO0_5.read (Elt F) (VO0_5.writes (Elt F) VO0_5.junk (kernelRun0_N c i arg1 harg1 arg2 harg2 arg3 harg3 arg4 harg4 arg5 harg5 arg6 harg6 arg7 harg7 hc x1 x2 x3 x4 xs).2.1)

/-- The first point's store into the scratch covers it. -/
theorem scover0_Z (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) (y : S10000x32.Idx) :
    ∃ pc ∈ (kernelRun0_Z c i arg1 harg1 arg2 harg2 arg3 harg3 arg4 harg4 arg5 harg5 arg6 harg6 arg7 harg7 hc x1 x2 x3 x4).2.2.1, y ∈ pc.1.set :=
  View.cover_of_tiledL (kernelRun0_Z c i arg1 harg1 arg2 harg2 arg3 harg3 arg4 harg4 arg5 harg5 arg6 harg6 arg7 harg7 hc x1 x2 x3 x4).2.2.1 S10000x32.size (by sl_kernel_rfl) y
/-- What the first point leaves in the scratch. -/
def sout0_Z (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) : Vec F S10000x32 .bf16 :=
  VS0.read (Elt F) (VS0.writes (Elt F) VS0.junk (kernelRun0_Z c i arg1 harg1 arg2 harg2 arg3 harg3 arg4 harg4 arg5 harg5 arg6 harg6 arg7 harg7 hc x1 x2 x3 x4).2.2.1)

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- What the scratch holds from the first point on: what the first point's store left. -/
def S0 (c : Dev nD) : Vec F S10000x32 .bf16 :=
  sout0_Z c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0 (Memref.isWhole_whole _) ((hcond0 t0_0).mpr rfl) (iblk0 V c 0 t0_0) (iblk0 V c 1 t0_0) (iblk0 V c 2 t0_0) (iblk0 V c 3 t0_0)

/-- What output window 4's buffer holds after the body at point `t`. -/
def o0_4 (c : Dev nD) (t : Fin cfg0.N) : Vec F S80x32 .f32 :=
  if h : t.val = 0 then out0_Z_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t)
  else out0_N_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c)
theorem o0_4_zero (c : Dev nD) (t : Fin cfg0.N) (h : t.val = 0) :
    o0_4 V c t = out0_Z_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) := dif_pos h
theorem o0_4_pos (c : Dev nD) (t : Fin cfg0.N) (h : ¬t.val = 0) :
    o0_4 V c t = out0_N_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c) := dif_neg h
/-- What output window 5's buffer holds after the body at point `t`. -/
def o0_5 (c : Dev nD) (t : Fin cfg0.N) : Vec F S80x10000 .bf16 :=
  if h : t.val = 0 then out0_Z_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t)
  else out0_N_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c)
theorem o0_5_zero (c : Dev nD) (t : Fin cfg0.N) (h : t.val = 0) :
    o0_5 V c t = out0_Z_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0 t).mpr h) (iblk0 V c 0 t) (iblk0 V c 1 t) (iblk0 V c 2 t) (iblk0 V c 3 t) := dif_pos h
theorem o0_5_pos (c : Dev nD) (t : Fin cfg0.N) (h : ¬t.val = 0) :
    o0_5 V c t = out0_N_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => h ((hcond0 t).mp hc)) (iblk0 V c 0 t) (iblk0 V c 1 t) (iblk0 V c 2 t) (iblk0 V c 3 t) (S0 V c) := dif_neg h

/-- The invariant before position `n`: before the first point the class's (the scratch at anything); afterwards the
    scratch at what the first point stored, and the generator register at some state. -/
def PhiS0 (c : Dev nD) : ℕ → sProp 𝕄
  | 0 => Pipeline.ΦA spec0 c
  | _ + 1 => iprop(iprop(owns (c : Thread nD τ) scM0 fullShare (S0 V c) ∗ rest0 (F := F) c) ∗ (∃ r, prngReg c r))

theorem PhiS0_pos (c : Dev nD) (n : ℕ) (hz : n ≠ 0) :
    PhiS0 V c n = iprop(iprop(owns (c : Thread nD τ) scM0 fullShare (S0 V c) ∗ rest0 (F := F) c) ∗ (∃ r, prngReg c r)) := by
  cases n with
  | zero => exact absurd rfl hz
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => o0_4 V c t
    | ⟨5, _⟩ => o0_5 V c t
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = o0_4 V c t := by dsimp only [dat0]
theorem after0_5 (c : Dev nD) (t : Fin cfg0.N) : (dat0 V c).after 5 t = o0_5 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
/-- The body at any point: the inputs' memrefs hold their blocks; at the first point the scratch is at anything and is left
    at its store, at a later point it holds that store and is handed back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = iprop(iprop(owns (c : Thread nD τ) scM0 fullShare (S0 V c) ∗ rest0 (F := F) c) ∗ (∃ r, prngReg c r)) from rfl,
    after0_0, after0_1, after0_2, after0_3, after0_4, after0_5]
  by_cases hz : t.val = 0
  · rw [show (dat0 V c).Φ t.castSucc = Pipeline.ΦA spec0 c from by
      show PhiS0 V c t.castSucc.val = _; rw [Fin.coe_castSucc, hz]; rfl, PhiA0_eq, o0_4_zero V c t hz, o0_5_zero V c t hz]
    have ht : t = t0_0 := Fin.ext hz
    subst ht
    unfold S0 sout0_Z out0_Z_4 out0_Z_5
    iintro ⟨⟨⟨HS, Hrst⟩, Hg⟩, Ho, ⟨%d0, H0⟩, ⟨%d1, H1⟩, ⟨%d2, H2⟩, ⟨%d3, H3⟩, ⟨%d4, H4⟩, ⟨%d5, H5⟩⟩
    iapply ((kernelRun0_Z c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0 (Memref.isWhole_whole _) ((hcond0 t0_0).mpr rfl) (iblk0 V c 0 t0_0) (iblk0 V c 1 t0_0) (iblk0 V c 2 t0_0) (iblk0 V c 3 t0_0)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, ⟨%es, HS⟩⟩
    isplitl [HS Hrst Hg]
    · isplitl [HS Hrst]
      · isplitl [HS]
        · unfold owns; iexists _; isplitr
          swap; · iexact HS
          ipureintro; exact View.read_writes_of_cover _ _ _ _ _ (scover0_Z c _ _ _ _ _ _ _ _ _ _ _ _ _ _ _ _ _ _ _ _)
        iexact Hrst
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_Z_4 c _ _ _ _ _ _ _ _ _ _ _ _ _ _ _ _ _ _ _ _)
    unfold owns; iexists _; isplitr
    swap; · iexact H5
    ipureintro; exact View.read_writes_of_cover _ _ _ _ _ (cover0_Z_5 c _ _ _ _ _ _ _ _ _ _ _ _ _ _ _ _ _ _ _ _)
  · rw [show (dat0 V c).Φ t.castSucc = iprop(iprop(owns (c : Thread nD τ) scM0 fullShare (S0 V c) ∗ rest0 (F := F) c) ∗ (∃ r, prngReg c r)) from by
      show PhiS0 V c t.castSucc.val = _; rw [Fin.coe_castSucc]; exact PhiS0_pos V c _ hz, o0_4_pos V c t hz, o0_5_pos V c t hz]
    unfold out0_N_4 out0_N_5
    iintro ⟨⟨⟨HS, Hrst⟩, Hg⟩, Ho, ⟨%d0, H0⟩, ⟨%d1, H1⟩, ⟨%d2, H2⟩, ⟨%d3, H3⟩, ⟨%d4, H4⟩, ⟨%d5, H5⟩⟩
    iapply ((kernelRun0_N c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun hc => hz ((hcond0 t).mp hc)) (iblk0 V c 0 t) (iblk0 V c 1 t) (iblk0 V c 2 t) (iblk0 V c 3 t) (S0 V c)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hrst Hg]
    · isplitl [HS Hrst]
      · isplitl [HS]; · iexact HS
        iexact Hrst
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_N_4 c _ _ _ _ _ _ _ _ _ _ _ _ _ _ _ _ _ _ _ _ _)
    unfold owns; iexists _; isplitr
    swap; · iexact H5
    ipureintro; exact View.read_writes_of_cover _ _ _ _ _ (cover0_N_5 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c _ (Nat.pos_iff_ne_zero.mp Npos0), PhiA0_eq]
  iintro ⟨⟨HS, Hrst⟩, Hg⟩
  isplitl [HS Hrst]
  · isplitl [HS]
    · iexists _; iexact HS
    iexact Hrst
  iexact Hg

end Region

end Cert.KernelIdeal.Hand

end
-- ==== Proof.KIRun1.lean ====
/-
  Region 1 of the program: its kernel body run once per case of its one conditional.  The body branches on "is this
  the grid's first point": there it computes a dense product into a scratch buffer, which every later point only reads.
  Each case is run on whole staging buffers; what the case's stores leave in each buffer is recorded as the list of the
  stored pieces, which the run itself determines.
-/
import proofs.«117827_g33741263077612_cont_sun_m_882_2_alg».proof.Proof.Gen.KernelIdeal.Launch
import proofs.«117827_g33741263077612_cont_sun_m_882_2_alg».proof.Proof.Gen.KernelIdeal.Skeleton
import proofs.«117827_g33741263077612_cont_sun_m_882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate: the point is the first. -/
abbrev cond1 (i : grid1.Coords) : Prop := (Scalar.cmpi .ne (Scalar.extui (Scalar.cmpi .eq (BitVec.ofNat 32 (i 0).val) 0#32)) 0#32) = 1#1
/-- It holds at point 0 and at no other point of the grid. -/
theorem hcond1 : ∀ t : Fin cfg1.N, cond1 (grid1.coords t) ↔ t.val = 0 :=
  (by decide +kernel : ∀ t : Fin grid1.N, cond1 (grid1.coords t) ↔ t.val = 0)

set_option maxHeartbeats 4000000 in
/-- The body at the grid's first point, on whole staging memrefs: the inputs' at their contents, the outputs' and the
    scratch at anything.  It leaves the inputs' as they were and each output's and the scratch with its stores written;
    the stores, as pieces, are found by running the body. -/
noncomputable def kernelRun1_Z (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i)
    (x1 : Vec F S80x10000 .bf16) (x2 : Vec F S10000x32 .f32) (x3 : Vec F S32x32 .f32) (x4 : Vec F S1x32 .f32) :
    Σ' (L5 : List (View.Piece (Elt F) S80x32 .f32)), { LS : List (View.Piece (Elt F) S10000x32 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc1__pass2_kernel i arg1 harg1 arg2 harg2 arg3 harg3 arg4 harg4 arg5 harg5 arg6 harg6) K } := by
  refine ⟨?_, ?_, fun E K => ?run⟩
  case run =>
    simp only [cc1__pass2_kernel_eq_skeleton]; unfold cc1__pass2_kernel_skel
    unfold owns
    iintro ⟨⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

set_option maxHeartbeats 4000000 in
/-- The body at any later point: the scratch holds what the first point left in it (`xs`), is only read, and is handed
    back as it was. -/
noncomputable def kernelRun1_N (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : ¬cond1 i)
    (x1 : Vec F S80x10000 .bf16) (x2 : Vec F S10000x32 .f32) (x3 : Vec F S32x32 .f32) (x4 : Vec F S1x32 .f32) (xs : Vec F S10000x32 .bf16) :
    { L5 : List (View.Piece (Elt F) S80x32 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ owns (c : Thread nD τ) arg6 fullShare xs) -∗ K ⟨⟩))
          ⊢ wp frame (wpE (defs₀ (F := F)) Variants.none c none) E (cc1__pass2_kernel i arg1 harg1 arg2 harg2 arg3 harg3 arg4 harg4 arg5 harg5 arg6 harg6) K } := by
  refine ⟨?_, fun E K => ?run⟩
  case run =>
    simp only [cc1__pass2_kernel_eq_skeleton]; unfold cc1__pass2_kernel_skel
    unfold owns
    iintro ⟨⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf1; obtain rfl := harg2.eq_unread hf2; obtain rfl := harg3.eq_unread hf3; obtain rfl := harg4.eq_unread hf4; obtain rfl := harg6.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact HS

end Cert.KernelIdeal.Hand

end
-- ==== Proof.KIBody1.lean ====
/-
  Region 1 of the program as one pipeline: the proof data (what every window's staging buffer holds after the body at
  each grid point, and the invariant carried from point to point) and the body's obligation at every point.
  The scratch buffer is written once, at the first point, and only read afterwards; so the invariant after any point says
  the scratch holds what the first point stored, and an output block at a later point is a function of that value and of the
  point's input blocks.  Everything is stated at a parameter `V`: the buffers' contents when the region is entered.
-/
import proofs.«117827_g33741263077612_cont_sun_m_882_2_alg».proof.Proof.KIRun1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs the pipeline passes at a point, the scratch, the views contents are stated through -/

abbrev ms1_0 (t : Fin cfg1.N) : Memref sig .tc .vmem S80x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S80x32 .f32 := win1_4.stage (cfg1.slots t 4)
abbrev hs1_4 (t : Fin cfg1.N) : (ms1_4 t).IsWhole := hstage1_4 ((cfg1.slots t 4).cast nbuf1_4)
/-- The scratch operand: a whole scoped buffer of the kernel's own. -/
abbrev scM1 : Memref sig .tc .vmem S10000x32 .bf16 := Memref.whole cc1_scratch0
abbrev VS1 : View sig .tc .vmem S10000x32 .bf16 := scM1.view
abbrev VO1_4 : View sig .tc .vmem S80x32 .f32 := (Memref.whole cc1_stg4_0 : Memref sig .tc .vmem S80x32 .f32).view

/-- The scoped buffers that are no staging buffer of this region, split at the region's own scratch: the scratch
    whole at some contents, every other one (the other regions' staging buffers and scratch) unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
/-- The unopened remainder. -/
abbrev rest1 (c : Dev nD) : sProp 𝕄 :=
  Pipeline.scopedRestBut (Ix := Unit) (Name := ℕ) (U := UR sig nD τ) (Lvl := ℕ) (Val := Elt F) spec1 c [cc1_scratch0]
/-- The class invariant with the scratch as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA; rw [scopedRest1_split]; simp only [scM1, owns_whole]; try rfl

theorem Npos1 : 0 < cfg1.N := by rw [show cfg1.N = 125 from N_1]; decide
/-- The grid's first point. -/
abbrev t0_1 : Fin cfg1.N := ⟨0, Npos1⟩

/-- The first point's stores into output window 4's buffer tile it, so they cover it. -/
theorem cover1_Z_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) (y : S80x32.Idx) :
    ∃ pc ∈ (kernelRun1_Z c i arg1 harg1 arg2 harg2 arg3 harg3 arg4 harg4 arg5 harg5 arg6 harg6 hc x1 x2 x3 x4).1, y ∈ pc.1.set :=
  View.cover_of_tiledL (kernelRun1_Z c i arg1 harg1 arg2 harg2 arg3 harg3 arg4 harg4 arg5 harg5 arg6 harg6 hc x1 x2 x3 x4).1 S80x32.size (by sl_kernel_rfl) y
/-- What the first point leaves in output window 4's buffer: its pieces read back. -/
def out1_Z_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) : Vec F S80x32 .f32 :=
  VO1_4.read (Elt F) (VO1_4.writes (Elt F) VO1_4.junk (kernelRun1_Z c i arg1 harg1 arg2 harg2 arg3 harg3 arg4 harg4 arg5 harg5 arg6 harg6 hc x1 x2 x3 x4).1)
/-- A later point's stores into output window 4's buffer tile it. -/
theorem cover1_N_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : ¬cond1 i) (x1 : Vec F S80x10000 .bf16) (x2 : Vec F S10000x32 .f32) (x3 : Vec F S32x32 .f32) (x4 : Vec F S1x32 .f32) (xs : Vec F S10000x32 .bf16) (y : S80x32.Idx) :
    ∃ pc ∈ (kernelRun1_N c i arg1 harg1 arg2 harg2 arg3 harg3 arg4 harg4 arg5 harg5 arg6 harg6 hc x1 x2 x3 x4 xs).1, y ∈ pc.1.set :=
  View.cover_of_tiledL (kernelRun1_N c i arg1 harg1 arg2 harg2 arg3 harg3 arg4 harg4 arg5 harg5 arg6 harg6 hc x1 x2 x3 x4 xs).1 S80x32.size (by sl_kernel_rfl) y
/-- What a later point leaves in output window 4's buffer. -/
def out1_N_4 (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : ¬cond1 i) (x1 : Vec F S80x10000 .bf16) (x2 : Vec F S10000x32 .f32) (x3 : Vec F S32x32 .f32) (x4 : Vec F S1x32 .f32) (xs : Vec F S10000x32 .bf16) : Vec F S80x32 .f32 :=
  VO1_4.read (Elt F) (VO1_4.writes (Elt F) VO1_4.junk (kernelRun1_N c i arg1 harg1 arg2 harg2 arg3 harg3 arg4 harg4 arg5 harg5 arg6 harg6 hc x1 x2 x3 x4 xs).1)

/-- The first point's store into the scratch covers it. -/
theorem scover1_Z (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) (y : S10000x32.Idx) :
    ∃ pc ∈ (kernelRun1_Z c i arg1 harg1 arg2 harg2 arg3 harg3 arg4 harg4 arg5 harg5 arg6 harg6 hc x1 x2 x3 x4).2.1, y ∈ pc.1.set :=
  View.cover_of_tiledL (kernelRun1_Z c i arg1 harg1 arg2 harg2 arg3 harg3 arg4 harg4 arg5 harg5 arg6 harg6 hc x1 x2 x3 x4).2.1 S10000x32.size (by sl_kernel_rfl) y
/-- What the first point leaves in the scratch. -/
def sout1_Z (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) : Vec F S10000x32 .bf16 :=
  VS1.read (Elt F) (VS1.writes (Elt F) VS1.junk (kernelRun1_Z c i arg1 harg1 arg2 harg2 arg3 harg3 arg4 harg4 arg5 harg5 arg6 harg6 hc x1 x2 x3 x4).2.1)

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What the scratch holds from the first point on: what the first point's store left. -/
def S1 (c : Dev nD) : Vec F S10000x32 .bf16 :=
  sout1_Z c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) ((hcond1 t0_1).mpr rfl) (iblk1 V c 0 t0_1) (iblk1 V c 1 t0_1) (iblk1 V c 2 t0_1) (iblk1 V c 3 t0_1)

/-- What output window 4's buffer holds after the body at point `t`. -/
def o1_4 (c : Dev nD) (t : Fin cfg1.N) : Vec F S80x32 .f32 :=
  if h : t.val = 0 then out1_Z_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t)
  else out1_N_4 c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (S1 V c)
theorem o1_4_zero (c : Dev nD) (t : Fin cfg1.N) (h : t.val = 0) :
    o1_4 V c t = out1_Z_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h) (iblk1 V c 0 t) (iblk1 V c 1 t) (iblk1 V c 2 t) (iblk1 V c 3 t) := dif_pos h
theorem o1_4_pos (c : Dev nD) (t : Fin cfg1.N) (h : ¬t.val = 0) :
    o1_4 V c t = out1_N_4 c (grid1.coords t) (ms1_0 t) (hs1_0 t) (ms1_1 t) (hs1_1 t) (ms1_2 t) (hs1_2 t) (ms1_3 t) (hs1_3 t) (ms1_4 t) (hs1_4 t) scM1 (Memref.isWhole_whole _) (fun hc => h ((hcond1 t).mp hc)) (iblk1 V c 0 t) (iblk1 V c 1 t) (iblk1 V c 2 t) (iblk1 V c 3 t) (S1 V c) := dif_neg h

/-- The invariant before position `n`: before the first point the class's (the scratch at anything); afterwards the
    scratch at what the first point stored, and the generator register at some state. -/
def PhiS1 (c : Dev nD) : ℕ → sProp 𝕄
  | 0 => Pipeline.ΦA spec1 c
  | _ + 1 => iprop(iprop(owns (c : Thread nD τ) scM1 fullShare (S1 V c) ∗ rest1 (F := F) c) ∗ (∃ r, prngReg c r))

theorem PhiS1_pos (c : Dev nD) (n : ℕ) (hz : n ≠ 0) :
    PhiS1 V c n = iprop(iprop(owns (c : Thread nD τ) scM1 fullShare (S1 V c) ∗ rest1 (F := F) c) ∗ (∃ r, prngReg c r)) := by
  cases n with
  | zero => exact absurd rfl hz
  | succ n => rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => o1_4 V c t
  Φ t := PhiS1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = o1_4 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' memrefs hold their blocks; at the first point the scratch is at anything and is left
    at its store, at a later point it holds that store and is handed back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = iprop(iprop(owns (c : Thread nD τ) scM1 fullShare (S1 V c) ∗ rest1 (F := F) c) ∗ (∃ r, prngReg c r)) from rfl,
    after1_0, after1_1, after1_2, after1_3, after1_4]
  by_cases hz : t.val = 0
  · rw [show (dat1 V c).Φ t.castSucc = Pipeline.ΦA spec1 c from by
      show PhiS1 V c t.castSucc.val = _; rw [Fin.coe_castSucc, hz]; rfl, PhiA1_eq, o1_4_zero V c t hz]
    have ht : t = t0_1 := Fin.ext hz
    subst ht
    unfold S1 sout1_Z out1_Z_4
    iintro ⟨⟨⟨HS, Hrst⟩, Hg⟩, Ho, ⟨%d0, H0⟩, ⟨%d1, H1⟩, ⟨%d2, H2⟩, ⟨%d3, H3⟩, ⟨%d4, H4⟩⟩
    iapply ((kernelRun1_Z c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) ((hcond1 t0_1).mpr rfl) (iblk1 V c 0 t0_1) (iblk1 V c 1 t0_1) (iblk1 V c 2 t0_1) (iblk1 V c 3 t0_1)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrst Hg]
    · isplitl [HS Hrst]
      · isplitl [HS]
        · unfold owns; iexists _; isplitr
          swap; · iexact HS
          ipureintro; exact View.read_writes_of_cover _ _ _ _ _ (scover1_Z c _ _ _ _ _ _ _ _ _ _ _ _ _ _ _ _ _ _)
        iexact Hrst
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_Z_4 c _ _ _ _ _ _ _ _ _ _ _ _ _ _ _ _ _ _)
  · rw [show (dat1 V c).Φ t.castSucc = iprop(iprop(owns (c : Thread nD τ) scM1 fullShare (S1 V c) ∗ rest1 (F := F) c) ∗ (∃ r, prngReg c r)) from by
      show PhiS1 V c t.castSucc.val = _; rw [Fin.coe_castSucc]; exact PhiS1_pos V c _ hz, o1_4_pos V c t hz]
    unfold out1_N_4
    iintro ⟨⟨⟨HS, Hrst⟩, Hg⟩, Ho, ⟨%d0, H0⟩, ⟨%d1, H1⟩, ⟨%d2, H2⟩, ⟨%d3, H3⟩, ⟨%d4, H4⟩⟩
    iapply ((kernelRun1_N c (grid1.coords t) (ms1_0 t) (hs1_0 t) (ms1_1 t) (hs1_1 t) (ms1_2 t) (hs1_2 t) (ms1_3 t) (hs1_3 t) (ms1_4 t) (hs1_4 t) scM1 (Memref.isWhole_whole _) (fun hc => hz ((hcond1 t).mp hc)) (iblk1 V c 0 t) (iblk1 V c 1 t) (iblk1 V c 2 t) (iblk1 V c 3 t) (S1 V c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hrst Hg]
    · isplitl [HS Hrst]
      · isplitl [HS]; · iexact HS
        iexact Hrst
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_N_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c cfg1.N from rfl,
    PhiS1_pos V c _ (Nat.pos_iff_ne_zero.mp Npos1), PhiA1_eq]
  iintro ⟨⟨HS, Hrst⟩, Hg⟩
  isplitl [HS Hrst]
  · isplitl [HS]
    · iexists _; iexact HS
    iexact Hrst
  iexact Hg

end Region

end Cert.KernelIdeal.Hand

end
-- ==== Proof.KIRun2.lean ====
/-
  Region 2 of the program: its kernel body run once per case of its one conditional.  The body branches on "is this
  the grid's first point": there it computes a dense product into a scratch buffer, which every later point only reads.
  Each case is run on whole staging buffers; what the case's stores leave in each buffer is recorded as the list of the
  stored pieces, which the run itself determines.
-/
import proofs.«117827_g33741263077612_cont_sun_m_882_2_alg».proof.Proof.Gen.KernelIdeal.Launch
import proofs.«117827_g33741263077612_cont_sun_m_882_2_alg».proof.Proof.Gen.KernelIdeal.Skeleton
import proofs.«117827_g33741263077612_cont_sun_m_882_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate: the point is the first. -/
abbrev cond2 (i : grid2.Coords) : Prop := (Scalar.cmpi .ne (Scalar.extui (Scalar.cmpi .eq (BitVec.ofNat 32 (i 0).val) 0#32)) 0#32) = 1#1
/-- It holds at point 0 and at no other point of the grid. -/
theorem hcond2 : ∀ t : Fin cfg2.N, cond2 (grid2.coords t) ↔ t.val = 0 :=
  (by decide +kernel : ∀ t : Fin grid2.N, cond2 (grid2.coords t) ↔ t.val = 0)

set_option maxHeartbeats 4000000 in
/-- The body at the grid's first point, on whole staging memrefs: the inputs' at their contents, the outputs' and the
    scratch at anything.  It leaves the inputs' as they were and each output's and the scratch with its stores written;
    the stores, as pieces, are found by running the body. -/
noncomputable def kernelRun2_Z (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i)
    (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) :
    Σ' (L8 : List (View.Piece (Elt F) S80x40 .f32)), { LS : List (View.Piece (Elt F) S10000x32 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS)) -∗ K ⟨⟩))
          ⊢ wp frame (wpE (defs₀ (F := F)) Variants.none c none) E (cc2__pass3_kernel i arg1 harg1 arg2 harg2 arg3 harg3 arg4 harg4 arg5 harg5 arg6 harg6 arg7 harg7 arg8 harg8 arg9 harg9) K } := by
  refine ⟨?_, ?_, fun E K => ?run⟩
  case run =>
    simp only [cc2__pass3_kernel_eq_skeleton, k2_part1_eq_skeleton]; unfold cc2__pass3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HS

set_option maxHeartbeats 4000000 in
/-- The body at any later point: the scratch holds what the first point left in it (`xs`), is only read, and is handed
    back as it was. -/
noncomputable def kernelRun2_N (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : ¬cond2 i)
    (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (xs : Vec F S10000x32 .bf16) :
    { L8 : List (View.Piece (Elt F) S80x40 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare xs) -∗ K ⟨⟩))
          ⊢ wp frame (wpE (defs₀ (F := F)) Variants.none c none) E (cc2__pass3_kernel i arg1 harg1 arg2 harg2 arg3 harg3 arg4 harg4 arg5 harg5 arg6 harg6 arg7 harg7 arg8 harg8 arg9 harg9) K } := by
  refine ⟨?_, fun E K => ?run⟩
  case run =>
    simp only [cc2__pass3_kernel_eq_skeleton, k2_part1_eq_skeleton]; unfold cc2__pass3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfs
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg9.read_unread _
    iexact HS

end Cert.KernelIdeal.Hand

end
-- ==== Proof.KIBody2.lean ====
/-
  Region 2 of the program as one pipeline: the proof data (what every window's staging buffer holds after the body at
  each grid point, and the invariant carried from point to point) and the body's obligation at every point.
  The scratch buffer is written once, at the first point, and only read afterwards; so the invariant after any point says
  the scratch holds what the first point stored, and an output block at a later point is a function of that value and of the
  point's input blocks.  Everything is stated at a parameter `V`: the buffers' contents when the region is entered.
-/
import proofs.«117827_g33741263077612_cont_sun_m_882_2_alg».proof.Proof.KIRun2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs the pipeline passes at a point, the scratch, the views contents are stated through -/

abbrev ms2_0 (t : Fin cfg2.N) : Memref sig .tc .vmem S80x10000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S96x40 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x40 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S80x40 .f32 := win2_7.stage (cfg2.slots t 7)
abbrev hs2_7 (t : Fin cfg2.N) : (ms2_7 t).IsWhole := hstage2_7 ((cfg2.slots t 7).cast nbuf2_7)
/-- The scratch operand: a whole scoped buffer of the kernel's own. -/
abbrev scM2 : Memref sig .tc .vmem S10000x32 .bf16 := Memref.whole cc2_scratch0
abbrev VS2 : View sig .tc .vmem S10000x32 .bf16 := scM2.view
abbrev VO2_7 : View sig .tc .vmem S80x40 .f32 := (Memref.whole cc2_stg7_0 : Memref sig .tc .vmem S80x40 .f32).view

/-- The scoped buffers that are no staging buffer of this region, split at the region's own scratch: the scratch
    whole at some contents, every other one (the other regions' staging buffers and scratch) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)
/-- The unopened remainder. -/
abbrev rest2 (c : Dev nD) : sProp 𝕄 :=
  Pipeline.scopedRestBut (Ix := Unit) (Name := ℕ) (U := UR sig nD τ) (Lvl := ℕ) (Val := Elt F) spec2 c [cc2_scratch0]
/-- The class invariant with the scratch as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA; rw [scopedRest2_split]; simp only [scM2, owns_whole]; try rfl

theorem Npos2 : 0 < cfg2.N := by rw [show cfg2.N = 125 from N_2]; decide
/-- The grid's first point. -/
abbrev t0_2 : Fin cfg2.N := ⟨0, Npos2⟩

/-- The first point's stores into output window 7's buffer tile it, so they cover it. -/
theorem cover2_Z_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (y : S80x40.Idx) :
    ∃ pc ∈ (kernelRun2_Z c i arg1 harg1 arg2 harg2 arg3 harg3 arg4 harg4 arg5 harg5 arg6 harg6 arg7 harg7 arg8 harg8 arg9 harg9 hc x1 x2 x3 x4 x5 x6 x7).1, y ∈ pc.1.set :=
  View.cover_of_tiledL (kernelRun2_Z c i arg1 harg1 arg2 harg2 arg3 harg3 arg4 harg4 arg5 harg5 arg6 harg6 arg7 harg7 arg8 harg8 arg9 harg9 hc x1 x2 x3 x4 x5 x6 x7).1 S80x40.size (by sl_kernel_rfl) y
/-- What the first point leaves in output window 7's buffer: its pieces read back. -/
def out2_Z_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) : Vec F S80x40 .f32 :=
  VO2_7.read (Elt F) (VO2_7.writes (Elt F) VO2_7.junk (kernelRun2_Z c i arg1 harg1 arg2 harg2 arg3 harg3 arg4 harg4 arg5 harg5 arg6 harg6 arg7 harg7 arg8 harg8 arg9 harg9 hc x1 x2 x3 x4 x5 x6 x7).1)
/-- A later point's stores into output window 7's buffer tile it. -/
theorem cover2_N_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : ¬cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (xs : Vec F S10000x32 .bf16) (y : S80x40.Idx) :
    ∃ pc ∈ (kernelRun2_N c i arg1 harg1 arg2 harg2 arg3 harg3 arg4 harg4 arg5 harg5 arg6 harg6 arg7 harg7 arg8 harg8 arg9 harg9 hc x1 x2 x3 x4 x5 x6 x7 xs).1, y ∈ pc.1.set :=
  View.cover_of_tiledL (kernelRun2_N c i arg1 harg1 arg2 harg2 arg3 harg3 arg4 harg4 arg5 harg5 arg6 harg6 arg7 harg7 arg8 harg8 arg9 harg9 hc x1 x2 x3 x4 x5 x6 x7 xs).1 S80x40.size (by sl_kernel_rfl) y
/-- What a later point leaves in output window 7's buffer. -/
def out2_N_7 (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : ¬cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (xs : Vec F S10000x32 .bf16) : Vec F S80x40 .f32 :=
  VO2_7.read (Elt F) (VO2_7.writes (Elt F) VO2_7.junk (kernelRun2_N c i arg1 harg1 arg2 harg2 arg3 harg3 arg4 harg4 arg5 harg5 arg6 harg6 arg7 harg7 arg8 harg8 arg9 harg9 hc x1 x2 x3 x4 x5 x6 x7 xs).1)

/-- The first point's store into the scratch covers it. -/
theorem scover2_Z (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (y : S10000x32.Idx) :
    ∃ pc ∈ (kernelRun2_Z c i arg1 harg1 arg2 harg2 arg3 harg3 arg4 harg4 arg5 harg5 arg6 harg6 arg7 harg7 arg8 harg8 arg9 harg9 hc x1 x2 x3 x4 x5 x6 x7).2.1, y ∈ pc.1.set :=
  View.cover_of_tiledL (kernelRun2_Z c i arg1 harg1 arg2 harg2 arg3 harg3 arg4 harg4 arg5 harg5 arg6 harg6 arg7 harg7 arg8 harg8 arg9 harg9 hc x1 x2 x3 x4 x5 x6 x7).2.1 S10000x32.size (by sl_kernel_rfl) y
/-- What the first point leaves in the scratch. -/
def sout2_Z (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) : Vec F S10000x32 .bf16 :=
  VS2.read (Elt F) (VS2.writes (Elt F) VS2.junk (kernelRun2_Z c i arg1 harg1 arg2 harg2 arg3 harg3 arg4 harg4 arg5 harg5 arg6 harg6 arg7 harg7 arg8 harg8 arg9 harg9 hc x1 x2 x3 x4 x5 x6 x7).2.1)

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- What the scratch holds from the first point on: what the first point's store left. -/
def S2 (c : Dev nD) : Vec F S10000x32 .bf16 :=
  sout2_Z c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) (ms2_5 t0_2) (hs2_5 t0_2) (ms2_6 t0_2) (hs2_6 t0_2) (ms2_7 t0_2) (hs2_7 t0_2) scM2 (Memref.isWhole_whole _) ((hcond2 t0_2).mpr rfl) (iblk2 V c 0 t0_2) (iblk2 V c 1 t0_2) (iblk2 V c 2 t0_2) (iblk2 V c 3 t0_2) (iblk2 V c 4 t0_2) (iblk2 V c 5 t0_2) (iblk2 V c 6 t0_2)

/-- What output window 7's buffer holds after the body at point `t`. -/
def o2_7 (c : Dev nD) (t : Fin cfg2.N) : Vec F S80x40 .f32 :=
  if h : t.val = 0 then out2_Z_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2 t).mpr h) (iblk2 V c 0 t) (iblk2 V c 1 t) (iblk2 V c 2 t) (iblk2 V c 3 t) (iblk2 V c 4 t) (iblk2 V c 5 t) (iblk2 V c 6 t)
  else out2_N_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun hc => h ((hcond2 t).mp hc)) (iblk2 V c 0 t) (iblk2 V c 1 t) (iblk2 V c 2 t) (iblk2 V c 3 t) (iblk2 V c 4 t) (iblk2 V c 5 t) (iblk2 V c 6 t) (S2 V c)
theorem o2_7_zero (c : Dev nD) (t : Fin cfg2.N) (h : t.val = 0) :
    o2_7 V c t = out2_Z_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2 t).mpr h) (iblk2 V c 0 t) (iblk2 V c 1 t) (iblk2 V c 2 t) (iblk2 V c 3 t) (iblk2 V c 4 t) (iblk2 V c 5 t) (iblk2 V c 6 t) := dif_pos h
theorem o2_7_pos (c : Dev nD) (t : Fin cfg2.N) (h : ¬t.val = 0) :
    o2_7 V c t = out2_N_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun hc => h ((hcond2 t).mp hc)) (iblk2 V c 0 t) (iblk2 V c 1 t) (iblk2 V c 2 t) (iblk2 V c 3 t) (iblk2 V c 4 t) (iblk2 V c 5 t) (iblk2 V c 6 t) (S2 V c) := dif_neg h

/-- The invariant before position `n`: before the first point the class's (the scratch at anything); afterwards the
    scratch at what the first point stored, and the generator register at some state. -/
def PhiS2 (c : Dev nD) : ℕ → sProp 𝕄
  | 0 => Pipeline.ΦA spec2 c
  | _ + 1 => iprop(iprop(owns (c : Thread nD τ) scM2 fullShare (S2 V c) ∗ rest2 (F := F) c) ∗ (∃ r, prngReg c r))

theorem PhiS2_pos (c : Dev nD) (n : ℕ) (hz : n ≠ 0) :
    PhiS2 V c n = iprop(iprop(owns (c : Thread nD τ) scM2 fullShare (S2 V c) ∗ rest2 (F := F) c) ∗ (∃ r, prngReg c r)) := by
  cases n with
  | zero => exact absurd rfl hz
  | succ n => rfl

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => o2_7 V c t
  Φ t := PhiS2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = o2_7 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4800000 in
/-- The body at any point: the inputs' memrefs hold their blocks; at the first point the scratch is at anything and is left
    at its store, at a later point it holds that store and is handed back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    show (dat2 V c).Φ t.succ = iprop(iprop(owns (c : Thread nD τ) scM2 fullShare (S2 V c) ∗ rest2 (F := F) c) ∗ (∃ r, prngReg c r)) from rfl,
    after2_0, after2_1, after2_2, after2_3, after2_4, after2_5, after2_6, after2_7]
  by_cases hz : t.val = 0
  · rw [show (dat2 V c).Φ t.castSucc = Pipeline.ΦA spec2 c from by
      show PhiS2 V c t.castSucc.val = _; rw [Fin.coe_castSucc, hz]; rfl, PhiA2_eq, o2_7_zero V c t hz]
    have ht : t = t0_2 := Fin.ext hz
    subst ht
    unfold S2 sout2_Z out2_Z_7
    iintro ⟨⟨⟨HS, Hrst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_Z c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) (ms2_5 t0_2) (hs2_5 t0_2) (ms2_6 t0_2) (hs2_6 t0_2) (ms2_7 t0_2) (hs2_7 t0_2) scM2 (Memref.isWhole_whole _) ((hcond2 t0_2).mpr rfl) (iblk2 V c 0 t0_2) (iblk2 V c 1 t0_2) (iblk2 V c 2 t0_2) (iblk2 V c 3 t0_2) (iblk2 V c 4 t0_2) (iblk2 V c 5 t0_2) (iblk2 V c 6 t0_2)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS Hrst Hg]
    · isplitl [HS Hrst]
      · isplitl [HS]
        · unfold owns; iexists _; isplitr
          swap; · iexact HS
          ipureintro; exact View.read_writes_of_cover _ _ _ _ _ (scover2_Z c _ _ _ _ _ _ _ _ _ _ _ _ _ _ _ _ _ _ _ _ _ _ _ _ _ _ _)
        iexact Hrst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover2_Z_7 c _ _ _ _ _ _ _ _ _ _ _ _ _ _ _ _ _ _ _ _ _ _ _ _ _ _ _)
  · rw [show (dat2 V c).Φ t.castSucc = iprop(iprop(owns (c : Thread nD τ) scM2 fullShare (S2 V c) ∗ rest2 (F := F) c) ∗ (∃ r, prngReg c r)) from by
      show PhiS2 V c t.castSucc.val = _; rw [Fin.coe_castSucc]; exact PhiS2_pos V c _ hz, o2_7_pos V c t hz]
    unfold out2_N_7
    iintro ⟨⟨⟨HS, Hrst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_N c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun hc => hz ((hcond2 t).mp hc)) (iblk2 V c 0 t) (iblk2 V c 1 t) (iblk2 V c 2 t) (iblk2 V c 3 t) (iblk2 V c 4 t) (iblk2 V c 5 t) (iblk2 V c 6 t) (S2 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS Hrst Hg]
    · isplitl [HS Hrst]
      · isplitl [HS]; · iexact HS
        iexact Hrst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover2_N_7 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c cfg2.N from rfl,
    PhiS2_pos V c _ (Nat.pos_iff_ne_zero.mp Npos2), PhiA2_eq]
  iintro ⟨⟨HS, Hrst⟩, Hg⟩
  isplitl [HS Hrst]
  · isplitl [HS]
    · iexists _; iexact HS
    iexact Hrst
  iexact Hg

end Region

end Cert.KernelIdeal.Hand

end
-- ==== Proof.KIMain.lean ====
/-
  The whole program as a run: host operations and the three kernel regions in order.  The contents of every unscoped
  buffer are followed from the launch memory through each host stretch and each region (a region leaves its windows'
  arrays at what its write-backs leave and every other buffer as it found it); each region is entered from the contents
  the segment before it left.  The run's conclusion: every weakly fair execution terminates without a fault and every
  unscoped buffer ends at the last contents of that chain.
-/
import proofs.«117827_g33741263077612_cont_sun_m_882_2_alg».proof.Proof.KIBody0
import proofs.«117827_g33741263077612_cont_sun_m_882_2_alg».proof.Proof.KIBody1
import proofs.«117827_g33741263077612_cont_sun_m_882_2_alg».proof.Proof.KIBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host operations before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host operations before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KIKeep.lean ====
/-
  The argument arrays through the run: no host operation writes an argument and no region changes one (a region reads
  it through an input window, whose array ends as entered, or passes it by), so at the last boundary every argument
  holds its launch contents.
-/
import proofs.«117827_g33741263077612_cont_sun_m_882_2_alg».proof.Proof.KIMain
import proofs.«117827_g33741263077612_cont_sun_m_882_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keep_main_arg0 (c : Dev nD) : W6 m ρ c (Proc.devRef .tc main_arg0) = m ((c : Thread nD τ).loc main_arg0) :=
  ((W6_of_ne m ρ c main_arg0 (by decide)).trans ((StableHlo.after_of_writes_sub hostOps2 (W4 m ρ c) hostOps2_writes (by decide) : W5 m ρ c (Proc.devRef .tc main_arg0) = W4 m ρ c (Proc.devRef .tc main_arg0)).trans ((W4_of_ne m ρ c main_arg0 (by decide)).trans ((StableHlo.after_of_writes_sub hostOps1 (W2 m ρ c) hostOps1_writes (by decide) : W3 m ρ c (Proc.devRef .tc main_arg0) = W2 m ρ c (Proc.devRef .tc main_arg0)).trans (((W2_arr m ρ c 1).trans (((dat0 (V1 m ρ) c).arrAt_in 1 rfl _).trans (A_eq0 (V1 m ρ) c 1))).trans ((StableHlo.after_of_writes_sub hostOps0 (W0 m ρ c) hostOps0_writes (by decide) : W1 m ρ c (Proc.devRef .tc main_arg0) = W0 m ρ c (Proc.devRef .tc main_arg0)))))))).trans rfl

theorem keep_main_arg1 (c : Dev nD) : W6 m ρ c (Proc.devRef .tc main_arg1) = m ((c : Thread nD τ).loc main_arg1) :=
  ((W6_of_ne m ρ c main_arg1 (by decide)).trans ((StableHlo.after_of_writes_sub hostOps2 (W4 m ρ c) hostOps2_writes (by decide) : W5 m ρ c (Proc.devRef .tc main_arg1) = W4 m ρ c (Proc.devRef .tc main_arg1)).trans ((W4_of_ne m ρ c main_arg1 (by decide)).trans ((StableHlo.after_of_writes_sub hostOps1 (W2 m ρ c) hostOps1_writes (by decide) : W3 m ρ c (Proc.devRef .tc main_arg1) = W2 m ρ c (Proc.devRef .tc main_arg1)).trans (((W2_arr m ρ c 0).trans (((dat0 (V1 m ρ) c).arrAt_in 0 rfl _).trans (A_eq0 (V1 m ρ) c 0))).trans ((StableHlo.after_of_writes_sub hostOps0 (W0 m ρ c) hostOps0_writes (by decide) : W1 m ρ c (Proc.devRef .tc main_arg1) = W0 m ρ c (Proc.devRef .tc main_arg1)))))))).trans rfl

theorem keep_main_arg2 (c : Dev nD) : W6 m ρ c (Proc.devRef .tc main_arg2) = m ((c : Thread nD τ).loc main_arg2) :=
  ((W6_of_ne m ρ c main_arg2 (by decide)).trans ((StableHlo.after_of_writes_sub hostOps2 (W4 m ρ c) hostOps2_writes (by decide) : W5 m ρ c (Proc.devRef .tc main_arg2) = W4 m ρ c (Proc.devRef .tc main_arg2)).trans ((W4_of_ne m ρ c main_arg2 (by decide)).trans ((StableHlo.after_of_writes_sub hostOps1 (W2 m ρ c) hostOps1_writes (by decide) : W3 m ρ c (Proc.devRef .tc main_arg2) = W2 m ρ c (Proc.devRef .tc main_arg2)).trans (((W2_arr m ρ c 2).trans (((dat0 (V1 m ρ) c).arrAt_in 2 rfl _).trans (A_eq0 (V1 m ρ) c 2))).trans ((StableHlo.after_of_writes_sub hostOps0 (W0 m ρ c) hostOps0_writes (by decide) : W1 m ρ c (Proc.devRef .tc main_arg2) = W0 m ρ c (Proc.devRef .tc main_arg2)))))))).trans rfl

theorem keep_main_arg3 (c : Dev nD) : W6 m ρ c (Proc.devRef .tc main_arg3) = m ((c : Thread nD τ).loc main_arg3) :=
  ((W6_of_ne m ρ c main_arg3 (by decide)).trans ((StableHlo.after_of_writes_sub hostOps2 (W4 m ρ c) hostOps2_writes (by decide) : W5 m ρ c (Proc.devRef .tc main_arg3) = W4 m ρ c (Proc.devRef .tc main_arg3)).trans ((W4_of_ne m ρ c main_arg3 (by decide)).trans ((StableHlo.after_of_writes_sub hostOps1 (W2 m ρ c) hostOps1_writes (by decide) : W3 m ρ c (Proc.devRef .tc main_arg3) = W2 m ρ c (Proc.devRef .tc main_arg3)).trans ((W2_of_ne m ρ c main_arg3 (by decide)).trans ((StableHlo.after_of_writes_sub hostOps0 (W0 m ρ c) hostOps0_writes (by decide) : W1 m ρ c (Proc.devRef .tc main_arg3) = W0 m ρ c (Proc.devRef .tc main_arg3)))))))).trans rfl

theorem keep_main_arg4 (c : Dev nD) : W6 m ρ c (Proc.devRef .tc main_arg4) = m ((c : Thread nD τ).loc main_arg4) :=
  ((W6_of_ne m ρ c main_arg4 (by decide)).trans ((StableHlo.after_of_writes_sub hostOps2 (W4 m ρ c) hostOps2_writes (by decide) : W5 m ρ c (Proc.devRef .tc main_arg4) = W4 m ρ c (Proc.devRef .tc main_arg4)).trans (((W4_arr m ρ c 2).trans (((dat1 (V3 m ρ) c).arrAt_in 2 rfl _).trans (A_eq1 (V3 m ρ) c 2))).trans ((StableHlo.after_of_writes_sub hostOps1 (W2 m ρ c) hostOps1_writes (by decide) : W3 m ρ c (Proc.devRef .tc main_arg4) = W2 m ρ c (Proc.devRef .tc main_arg4)).trans ((W2_of_ne m ρ c main_arg4 (by decide)).trans ((StableHlo.after_of_writes_sub hostOps0 (W0 m ρ c) hostOps0_writes (by decide) : W1 m ρ c (Proc.devRef .tc main_arg4) = W0 m ρ c (Proc.devRef .tc main_arg4)))))))).trans rfl

theorem keep_main_arg5 (c : Dev nD) : W6 m ρ c (Proc.devRef .tc main_arg5) = m ((c : Thread nD τ).loc main_arg5) :=
  ((W6_of_ne m ρ c main_arg5 (by decide)).trans ((StableHlo.after_of_writes_sub hostOps2 (W4 m ρ c) hostOps2_writes (by decide) : W5 m ρ c (Proc.devRef .tc main_arg5) = W4 m ρ c (Proc.devRef .tc main_arg5)).trans ((W4_of_ne m ρ c main_arg5 (by decide)).trans ((StableHlo.after_of_writes_sub hostOps1 (W2 m ρ c) hostOps1_writes (by decide) : W3 m ρ c (Proc.devRef .tc main_arg5) = W2 m ρ c (Proc.devRef .tc main_arg5)).trans ((W2_of_ne m ρ c main_arg5 (by decide)).trans ((StableHlo.after_of_writes_sub hostOps0 (W0 m ρ c) hostOps0_writes (by decide) : W1 m ρ c (Proc.devRef .tc main_arg5) = W0 m ρ c (Proc.devRef .tc main_arg5)))))))).trans rfl

theorem keep_main_arg6 (c : Dev nD) : W6 m ρ c (Proc.devRef .tc main_arg6) = m ((c : Thread nD τ).loc main_arg6) :=
  (((W6_arr m ρ c 3).trans (((dat2 (V5 m ρ) c).arrAt_in 3 rfl _).trans (A_eq2 (V5 m ρ) c 3))).trans ((StableHlo.after_of_writes_sub hostOps2 (W4 m ρ c) hostOps2_writes (by decide) : W5 m ρ c (Proc.devRef .tc main_arg6) = W4 m ρ c (Proc.devRef .tc main_arg6)).trans ((W4_of_ne m ρ c main_arg6 (by decide)).trans ((StableHlo.after_of_writes_sub hostOps1 (W2 m ρ c) hostOps1_writes (by decide) : W3 m ρ c (Proc.devRef .tc main_arg6) = W2 m ρ c (Proc.devRef .tc main_arg6)).trans ((W2_of_ne m ρ c main_arg6 (by decide)).trans ((StableHlo.after_of_writes_sub hostOps0 (W0 m ρ c) hostOps0_writes (by decide) : W1 m ρ c (Proc.devRef .tc main_arg6) = W0 m ρ c (Proc.devRef .tc main_arg6)))))))).trans rfl

theorem keep_main_arg7 (c : Dev nD) : W6 m ρ c (Proc.devRef .tc main_arg7) = m ((c : Thread nD τ).loc main_arg7) :=
  ((W6_of_ne m ρ c main_arg7 (by decide)).trans ((StableHlo.after_of_writes_sub hostOps2 (W4 m ρ c) hostOps2_writes (by decide) : W5 m ρ c (Proc.devRef .tc main_arg7) = W4 m ρ c (Proc.devRef .tc main_arg7)).trans ((W4_of_ne m ρ c main_arg7 (by decide)).trans ((StableHlo.after_of_writes_sub hostOps1 (W2 m ρ c) hostOps1_writes (by decide) : W3 m ρ c (Proc.devRef .tc main_arg7) = W2 m ρ c (Proc.devRef .tc main_arg7)).trans ((W2_of_ne m ρ c main_arg7 (by decide)).trans ((StableHlo.after_of_writes_sub hostOps0 (W0 m ρ c) hostOps0_writes (by decide) : W1 m ρ c (Proc.devRef .tc main_arg7) = W0 m ρ c (Proc.devRef .tc main_arg7)))))))).trans rfl

theorem keep_main_arg8 (c : Dev nD) : W6 m ρ c (Proc.devRef .tc main_arg8) = m ((c : Thread nD τ).loc main_arg8) :=
  (((W6_arr m ρ c 5).trans (((dat2 (V5 m ρ) c).arrAt_in 5 rfl _).trans (A_eq2 (V5 m ρ) c 5))).trans ((StableHlo.after_of_writes_sub hostOps2 (W4 m ρ c) hostOps2_writes (by decide) : W5 m ρ c (Proc.devRef .tc main_arg8) = W4 m ρ c (Proc.devRef .tc main_arg8)).trans ((W4_of_ne m ρ c main_arg8 (by decide)).trans ((StableHlo.after_of_writes_sub hostOps1 (W2 m ρ c) hostOps1_writes (by decide) : W3 m ρ c (Proc.devRef .tc main_arg8) = W2 m ρ c (Proc.devRef .tc main_arg8)).trans ((W2_of_ne m ρ c main_arg8 (by decide)).trans ((StableHlo.after_of_writes_sub hostOps0 (W0 m ρ c) hostOps0_writes (by decide) : W1 m ρ c (Proc.devRef .tc main_arg8) = W0 m ρ c (Proc.devRef .tc main_arg8)))))))).trans rfl

theorem keep_main_arg9 (c : Dev nD) : W6 m ρ c (Proc.devRef .tc main_arg9) = m ((c : Thread nD τ).loc main_arg9) :=
  ((W6_of_ne m ρ c main_arg9 (by decide)).trans ((StableHlo.after_of_writes_sub hostOps2 (W4 m ρ c) hostOps2_writes (by decide) : W5 m ρ c (Proc.devRef .tc main_arg9) = W4 m ρ c (Proc.devRef .tc main_arg9)).trans ((W4_of_ne m ρ c main_arg9 (by decide)).trans ((StableHlo.after_of_writes_sub hostOps1 (W2 m ρ c) hostOps1_writes (by decide) : W3 m ρ c (Proc.devRef .tc main_arg9) = W2 m ρ c (Proc.devRef .tc main_arg9)).trans ((W2_of_ne m ρ c main_arg9 (by decide)).trans ((StableHlo.after_of_writes_sub hostOps0 (W0 m ρ c) hostOps0_writes (by decide) : W1 m ρ c (Proc.devRef .tc main_arg9) = W0 m ρ c (Proc.devRef .tc main_arg9)))))))).trans rfl

end Cert.KernelIdeal.Hand

end
-- ==== Proof.KIBlocks.lean ====
/-
  Where each window's block sits in its array.  A row-block window of a matrix with 10000 rows takes rows
  80 t … 80 t + 79 at grid point t, all columns; every other window is its whole array at every point.  So an entry
  (p, q) of a row block at point t is the array's entry (80 t + p, q), the blocks of an output window tile its array,
  and row r lies in the block of point r / 80.
-/
import proofs.«117827_g33741263077612_cont_sun_m_882_2_alg».proof.Proof.KIBody0
import proofs.«117827_g33741263077612_cont_sun_m_882_2_alg».proof.Proof.KIBody1
import proofs.«117827_g33741263077612_cont_sun_m_882_2_alg».proof.Proof.KIBody2
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem tlt0 (t : Fin cfg0.N) : t.val < 125 := lt_of_lt_of_eq t.isLt (show cfg0.N = 125 from N_0)
theorem tlt1 (t : Fin cfg1.N) : t.val < 125 := lt_of_lt_of_eq t.isLt (show cfg1.N = 125 from N_1)
theorem tlt2 (t : Fin cfg2.N) : t.val < 125 := lt_of_lt_of_eq t.isLt (show cfg2.N = 125 from N_2)
/-- Row `p` of the block of grid point `t` is row `80 t + p` of the array. -/
def rowAt (t : ℕ) (ht : t < 125) (p : Fin 80) : Fin 10000 := ⟨80 * t + p.val, by have := p.isLt; omega⟩
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

section R0
variable (V : (c : Dev nD) → (b : Ref sig .tc) → Buf (Elt F) ((c : Thread nD τ).loc b))
/-- Input window 0's block at point `t`, entry by entry, is the array's entry at the block's place. -/
theorem iblk0_0_apply (c : Dev nD) (t : Fin cfg0.N) (p : Fin 80) (q : Fin 10000) :
    iblk0 V c 0 t (ix2 p q) = V c main_arg1 (ix2 (rowAt t.val (tlt0 t) p) q) := by
  unfold iblk0
  show V c main_arg1 (((cfg0.win 0).blk t).view.emb (ix2 p q)) = V c main_arg1 (ix2 (rowAt t.val (tlt0 t) p) q)
  refine congrArg _ ?_
  funext a; apply Fin.ext
  obtain ⟨e0, e1⟩ := idx0_0 t
  match a with
  | ⟨0, _⟩ => show win0_0.index t (0 : Fin 2) * 80 + 1 * p.val = 80 * t.val + p.val; omega
  | ⟨1, _⟩ => show win0_0.index t (1 : Fin 2) * 10000 + 1 * q.val = q.val; omega
/-- Input window 1's block at point `t`, entry by entry, is the array's entry at the block's place. -/
theorem iblk0_1_apply (c : Dev nD) (t : Fin cfg0.N) (p : Fin 10000) (q : Fin 128) :
    iblk0 V c 1 t (ix2 p q) = V c main_arg0 (ix2 p q) := by
  unfold iblk0
  show V c main_arg0 (((cfg0.win 1).blk t).view.emb (ix2 p q)) = V c main_arg0 (ix2 p q)
  refine congrArg _ ?_
  funext a; apply Fin.ext
  obtain ⟨e0, e1⟩ := idx0_1 t
  match a with
  | ⟨0, _⟩ => show win0_1.index t (0 : Fin 2) * 10000 + 1 * p.val = p.val; omega
  | ⟨1, _⟩ => show win0_1.index t (1 : Fin 2) * 128 + 1 * q.val = q.val; omega
/-- Input window 2's block at point `t`, entry by entry, is the array's entry at the block's place. -/
theorem iblk0_2_apply (c : Dev nD) (t : Fin cfg0.N) (p : Fin 128) (q : Fin 32) :
    iblk0 V c 2 t (ix2 p q) = V c main_arg2 (ix2 p q) := by
  unfold iblk0
  show V c main_arg2 (((cfg0.win 2).blk t).view.emb (ix2 p q)) = V c main_arg2 (ix2 p q)
  refine congrArg _ ?_
  funext a; apply Fin.ext
  obtain ⟨e0, e1⟩ := idx0_2 t
  match a with
  | ⟨0, _⟩ => show win0_2.index t (0 : Fin 2) * 128 + 1 * p.val = p.val; omega
  | ⟨1, _⟩ => show win0_2.index t (1 : Fin 2) * 32 + 1 * q.val = q.val; omega
/-- Input window 3's block at point `t`, entry by entry, is the array's entry at the block's place. -/
theorem iblk0_3_apply (c : Dev nD) (t : Fin cfg0.N) (p : Fin 1) (q : Fin 32) :
    iblk0 V c 3 t (ix2 p q) = V c main_v0 (ix2 p q) := by
  unfold iblk0
  show V c main_v0 (((cfg0.win 3).blk t).view.emb (ix2 p q)) = V c main_v0 (ix2 p q)
  refine congrArg _ ?_
  funext a; apply Fin.ext
  obtain ⟨e0, e1⟩ := idx0_3 t
  match a with
  | ⟨0, _⟩ => show win0_3.index t (0 : Fin 2) * 1 + 1 * p.val = p.val; omega
  | ⟨1, _⟩ => show win0_3.index t (1 : Fin 2) * 32 + 1 * q.val = q.val; omega
end R0

/-- Where output window 4's block at point `t` puts its entry `(p, q)`. -/
theorem emb0_4 (t : Fin cfg0.N) (p : Fin 80) (q : Fin 32) :
    ((cfg0.win 4).blk t).view.emb (ix2 p q) = ix2 (rowAt t.val (tlt0 t) p) q := by
  funext a; apply Fin.ext
  obtain ⟨e0, e1⟩ := idx0_4 t
  match a with
  | ⟨0, _⟩ => show win0_4.index t (0 : Fin 2) * 80 + 1 * p.val = 80 * t.val + p.val; omega
  | ⟨1, _⟩ => show win0_4.index t (1 : Fin 2) * 32 + 1 * q.val = q.val; omega
theorem mem_blk0_4 (t : Fin cfg0.N) (i : S10000x32.Idx) :
    i ∈ ((cfg0.win 4).blk t).view.set ↔ ∀ a : Fin 2, win0_4.index t a * S80x32.size a ≤ (i a).val ∧ (i a).val < win0_4.index t a * S80x32.size a + S80x32.size a := by
  show i ∈ ((View.whole main_v1_0).slice (win0_4.rect t)).set ↔ _
  rw [View.set_slice_whole, Rect.mem_set_unit]
  exact Iff.rfl
/-- Every entry of the array lies in the block of the point its row selects. -/
theorem blocks_cover0_4 (i : S10000x32.Idx) : ∃ t : Fin cfg0.N, (cfg0.win 4).flush t = true ∧ i ∈ ((cfg0.win 4).blk t).view.set := by
  have hi0 : (i 0).val < 10000 := (i 0).isLt
  have hi1 : (i 1).val < 32 := (i 1).isLt
  have hN : (i 0).val / 80 < cfg0.N := by rw [show cfg0.N = 125 from N_0]; omega
  refine ⟨⟨(i 0).val / 80, hN⟩, flush0_4 _, ?_⟩
  rw [mem_blk0_4]
  intro a
  obtain ⟨e0, e1⟩ := idx0_4 ⟨(i 0).val / 80, hN⟩
  match a with
  | ⟨0, _⟩ => show win0_4.index _ (0 : Fin 2) * 80 ≤ (i 0).val ∧ (i 0).val < win0_4.index _ (0 : Fin 2) * 80 + 80; rw [e0]; show (i 0).val / 80 * 80 ≤ (i 0).val ∧ (i 0).val < (i 0).val / 80 * 80 + 80; omega
  | ⟨1, _⟩ => show win0_4.index _ (1 : Fin 2) * 32 ≤ (i 1).val ∧ (i 1).val < win0_4.index _ (1 : Fin 2) * 32 + 32; rw [e1]; omega

/-- Where output window 5's block at point `t` puts its entry `(p, q)`. -/
theorem emb0_5 (t : Fin cfg0.N) (p : Fin 80) (q : Fin 10000) :
    ((cfg0.win 5).blk t).view.emb (ix2 p q) = ix2 (rowAt t.val (tlt0 t) p) q := by
  funext a; apply Fin.ext
  obtain ⟨e0, e1⟩ := idx0_5 t
  match a with
  | ⟨0, _⟩ => show win0_5.index t (0 : Fin 2) * 80 + 1 * p.val = 80 * t.val + p.val; omega
  | ⟨1, _⟩ => show win0_5.index t (1 : Fin 2) * 10000 + 1 * q.val = q.val; omega
theorem mem_blk0_5 (t : Fin cfg0.N) (i : S10000x10000.Idx) :
    i ∈ ((cfg0.win 5).blk t).view.set ↔ ∀ a : Fin 2, win0_5.index t a * S80x10000.size a ≤ (i a).val ∧ (i a).val < win0_5.index t a * S80x10000.size a + S80x10000.size a := by
  show i ∈ ((View.whole main_v1_1).slice (win0_5.rect t)).set ↔ _
  rw [View.set_slice_whole, Rect.mem_set_unit]
  exact Iff.rfl
/-- Every entry of the array lies in the block of the point its row selects. -/
theorem blocks_cover0_5 (i : S10000x10000.Idx) : ∃ t : Fin cfg0.N, (cfg0.win 5).flush t = true ∧ i ∈ ((cfg0.win 5).blk t).view.set := by
  have hi0 : (i 0).val < 10000 := (i 0).isLt
  have hi1 : (i 1).val < 10000 := (i 1).isLt
  have hN : (i 0).val / 80 < cfg0.N := by rw [show cfg0.N = 125 from N_0]; omega
  refine ⟨⟨(i 0).val / 80, hN⟩, flush0_5 _, ?_⟩
  rw [mem_blk0_5]
  intro a
  obtain ⟨e0, e1⟩ := idx0_5 ⟨(i 0).val / 80, hN⟩
  match a with
  | ⟨0, _⟩ => show win0_5.index _ (0 : Fin 2) * 80 ≤ (i 0).val ∧ (i 0).val < win0_5.index _ (0 : Fin 2) * 80 + 80; rw [e0]; show (i 0).val / 80 * 80 ≤ (i 0).val ∧ (i 0).val < (i 0).val / 80 * 80 + 80; omega
  | ⟨1, _⟩ => show win0_5.index _ (1 : Fin 2) * 10000 ≤ (i 1).val ∧ (i 1).val < win0_5.index _ (1 : Fin 2) * 10000 + 10000; rw [e1]; omega
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

section R1
variable (V : (c : Dev nD) → (b : Ref sig .tc) → Buf (Elt F) ((c : Thread nD τ).loc b))
/-- Input window 0's block at point `t`, entry by entry, is the array's entry at the block's place. -/
theorem iblk1_0_apply (c : Dev nD) (t : Fin cfg1.N) (p : Fin 80) (q : Fin 10000) :
    iblk1 V c 0 t (ix2 p q) = V c main_v1_1 (ix2 (rowAt t.val (tlt1 t) p) q) := by
  unfold iblk1
  show V c main_v1_1 (((cfg1.win 0).blk t).view.emb (ix2 p q)) = V c main_v1_1 (ix2 (rowAt t.val (tlt1 t) p) q)
  refine congrArg _ ?_
  funext a; apply Fin.ext
  obtain ⟨e0, e1⟩ := idx1_0 t
  match a with
  | ⟨0, _⟩ => show win1_0.index t (0 : Fin 2) * 80 + 1 * p.val = 80 * t.val + p.val; omega
  | ⟨1, _⟩ => show win1_0.index t (1 : Fin 2) * 10000 + 1 * q.val = q.val; omega
/-- Input window 1's block at point `t`, entry by entry, is the array's entry at the block's place. -/
theorem iblk1_1_apply (c : Dev nD) (t : Fin cfg1.N) (p : Fin 10000) (q : Fin 32) :
    iblk1 V c 1 t (ix2 p q) = V c main_v1_0 (ix2 p q) := by
  unfold iblk1
  show V c main_v1_0 (((cfg1.win 1).blk t).view.emb (ix2 p q)) = V c main_v1_0 (ix2 p q)
  refine congrArg _ ?_
  funext a; apply Fin.ext
  obtain ⟨e0, e1⟩ := idx1_1 t
  match a with
  | ⟨0, _⟩ => show win1_1.index t (0 : Fin 2) * 10000 + 1 * p.val = p.val; omega
  | ⟨1, _⟩ => show win1_1.index t (1 : Fin 2) * 32 + 1 * q.val = q.val; omega
/-- Input window 2's block at point `t`, entry by entry, is the array's entry at the block's place. -/
theorem iblk1_2_apply (c : Dev nD) (t : Fin cfg1.N) (p : Fin 32) (q : Fin 32) :
    iblk1 V c 2 t (ix2 p q) = V c main_arg4 (ix2 p q) := by
  unfold iblk1
  show V c main_arg4 (((cfg1.win 2).blk t).view.emb (ix2 p q)) = V c main_arg4 (ix2 p q)
  refine congrArg _ ?_
  funext a; apply Fin.ext
  obtain ⟨e0, e1⟩ := idx1_2 t
  match a with
  | ⟨0, _⟩ => show win1_2.index t (0 : Fin 2) * 32 + 1 * p.val = p.val; omega
  | ⟨1, _⟩ => show win1_2.index t (1 : Fin 2) * 32 + 1 * q.val = q.val; omega
/-- Input window 3's block at point `t`, entry by entry, is the array's entry at the block's place. -/
theorem iblk1_3_apply (c : Dev nD) (t : Fin cfg1.N) (p : Fin 1) (q : Fin 32) :
    iblk1 V c 3 t (ix2 p q) = V c main_v2 (ix2 p q) := by
  unfold iblk1
  show V c main_v2 (((cfg1.win 3).blk t).view.emb (ix2 p q)) = V c main_v2 (ix2 p q)
  refine congrArg _ ?_
  funext a; apply Fin.ext
  obtain ⟨e0, e1⟩ := idx1_3 t
  match a with
  | ⟨0, _⟩ => show win1_3.index t (0 : Fin 2) * 1 + 1 * p.val = p.val; omega
  | ⟨1, _⟩ => show win1_3.index t (1 : Fin 2) * 32 + 1 * q.val = q.val; omega
end R1

/-- Where output window 4's block at point `t` puts its entry `(p, q)`. -/
theorem emb1_4 (t : Fin cfg1.N) (p : Fin 80) (q : Fin 32) :
    ((cfg1.win 4).blk t).view.emb (ix2 p q) = ix2 (rowAt t.val (tlt1 t) p) q := by
  funext a; apply Fin.ext
  obtain ⟨e0, e1⟩ := idx1_4 t
  match a with
  | ⟨0, _⟩ => show win1_4.index t (0 : Fin 2) * 80 + 1 * p.val = 80 * t.val + p.val; omega
  | ⟨1, _⟩ => show win1_4.index t (1 : Fin 2) * 32 + 1 * q.val = q.val; omega
theorem mem_blk1_4 (t : Fin cfg1.N) (i : S10000x32.Idx) :
    i ∈ ((cfg1.win 4).blk t).view.set ↔ ∀ a : Fin 2, win1_4.index t a * S80x32.size a ≤ (i a).val ∧ (i a).val < win1_4.index t a * S80x32.size a + S80x32.size a := by
  show i ∈ ((View.whole main_v3).slice (win1_4.rect t)).set ↔ _
  rw [View.set_slice_whole, Rect.mem_set_unit]
  exact Iff.rfl
/-- Every entry of the array lies in the block of the point its row selects. -/
theorem blocks_cover1_4 (i : S10000x32.Idx) : ∃ t : Fin cfg1.N, (cfg1.win 4).flush t = true ∧ i ∈ ((cfg1.win 4).blk t).view.set := by
  have hi0 : (i 0).val < 10000 := (i 0).isLt
  have hi1 : (i 1).val < 32 := (i 1).isLt
  have hN : (i 0).val / 80 < cfg1.N := by rw [show cfg1.N = 125 from N_1]; omega
  refine ⟨⟨(i 0).val / 80, hN⟩, flush1_4 _, ?_⟩
  rw [mem_blk1_4]
  intro a
  obtain ⟨e0, e1⟩ := idx1_4 ⟨(i 0).val / 80, hN⟩
  match a with
  | ⟨0, _⟩ => show win1_4.index _ (0 : Fin 2) * 80 ≤ (i 0).val ∧ (i 0).val < win1_4.index _ (0 : Fin 2) * 80 + 80; rw [e0]; show (i 0).val / 80 * 80 ≤ (i 0).val ∧ (i 0).val < (i 0).val / 80 * 80 + 80; omega
  | ⟨1, _⟩ => show win1_4.index _ (1 : Fin 2) * 32 ≤ (i 1).val ∧ (i 1).val < win1_4.index _ (1 : Fin 2) * 32 + 32; rw [e1]; omega
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx2_7 : ∀ t : Fin cfg2.N, win2_7.index t (0 : Fin 2) = t.val ∧ win2_7.index t (1 : Fin 2) = 0 :=
  (by decide +kernel : ∀ t : Fin grid2.N, win2_7.index t (0 : Fin 2) = t.val ∧ win2_7.index t (1 : Fin 2) = 0)

section R2
variable (V : (c : Dev nD) → (b : Ref sig .tc) → Buf (Elt F) ((c : Thread nD τ).loc b))
/-- Input window 0's block at point `t`, entry by entry, is the array's entry at the block's place. -/
theorem iblk2_0_apply (c : Dev nD) (t : Fin cfg2.N) (p : Fin 80) (q : Fin 10000) :
    iblk2 V c 0 t (ix2 p q) = V c main_v1_1 (ix2 (rowAt t.val (tlt2 t) p) q) := by
  unfold iblk2
  show V c main_v1_1 (((cfg2.win 0).blk t).view.emb (ix2 p q)) = V c main_v1_1 (ix2 (rowAt t.val (tlt2 t) p) q)
  refine congrArg _ ?_
  funext a; apply Fin.ext
  obtain ⟨e0, e1⟩ := idx2_0 t
  match a with
  | ⟨0, _⟩ => show win2_0.index t (0 : Fin 2) * 80 + 1 * p.val = 80 * t.val + p.val; omega
  | ⟨1, _⟩ => show win2_0.index t (1 : Fin 2) * 10000 + 1 * q.val = q.val; omega
/-- Input window 1's block at point `t`, entry by entry, is the array's entry at the block's place. -/
theorem iblk2_1_apply (c : Dev nD) (t : Fin cfg2.N) (p : Fin 10000) (q : Fin 32) :
    iblk2 V c 1 t (ix2 p q) = V c main_v1_0 (ix2 p q) := by
  unfold iblk2
  show V c main_v1_0 (((cfg2.win 1).blk t).view.emb (ix2 p q)) = V c main_v1_0 (ix2 p q)
  refine congrArg _ ?_
  funext a; apply Fin.ext
  obtain ⟨e0, e1⟩ := idx2_1 t
  match a with
  | ⟨0, _⟩ => show win2_1.index t (0 : Fin 2) * 10000 + 1 * p.val = p.val; omega
  | ⟨1, _⟩ => show win2_1.index t (1 : Fin 2) * 32 + 1 * q.val = q.val; omega
/-- Input window 2's block at point `t`, entry by entry, is the array's entry at the block's place. -/
theorem iblk2_2_apply (c : Dev nD) (t : Fin cfg2.N) (p : Fin 10000) (q : Fin 32) :
    iblk2 V c 2 t (ix2 p q) = V c main_v3 (ix2 p q) := by
  unfold iblk2
  show V c main_v3 (((cfg2.win 2).blk t).view.emb (ix2 p q)) = V c main_v3 (ix2 p q)
  refine congrArg _ ?_
  funext a; apply Fin.ext
  obtain ⟨e0, e1⟩ := idx2_2 t
  match a with
  | ⟨0, _⟩ => show win2_2.index t (0 : Fin 2) * 10000 + 1 * p.val = p.val; omega
  | ⟨1, _⟩ => show win2_2.index t (1 : Fin 2) * 32 + 1 * q.val = q.val; omega
/-- Input window 3's block at point `t`, entry by entry, is the array's entry at the block's place. -/
theorem iblk2_3_apply (c : Dev nD) (t : Fin cfg2.N) (p : Fin 32) (q : Fin 32) :
    iblk2 V c 3 t (ix2 p q) = V c main_arg6 (ix2 p q) := by
  unfold iblk2
  show V c main_arg6 (((cfg2.win 3).blk t).view.emb (ix2 p q)) = V c main_arg6 (ix2 p q)
  refine congrArg _ ?_
  funext a; apply Fin.ext
  obtain ⟨e0, e1⟩ := idx2_3 t
  match a with
  | ⟨0, _⟩ => show win2_3.index t (0 : Fin 2) * 32 + 1 * p.val = p.val; omega
  | ⟨1, _⟩ => show win2_3.index t (1 : Fin 2) * 32 + 1 * q.val = q.val; omega
/-- Input window 4's block at point `t`, entry by entry, is the array's entry at the block's place. -/
theorem iblk2_4_apply (c : Dev nD) (t : Fin cfg2.N) (p : Fin 1) (q : Fin 32) :
    iblk2 V c 4 t (ix2 p q) = V c main_v4 (ix2 p q) := by
  unfold iblk2
  show V c main_v4 (((cfg2.win 4).blk t).view.emb (ix2 p q)) = V c main_v4 (ix2 p q)
  refine congrArg _ ?_
  funext a; apply Fin.ext
  obtain ⟨e0, e1⟩ := idx2_4 t
  match a with
  | ⟨0, _⟩ => show win2_4.index t (0 : Fin 2) * 1 + 1 * p.val = p.val; omega
  | ⟨1, _⟩ => show win2_4.index t (1 : Fin 2) * 32 + 1 * q.val = q.val; omega
/-- Input window 5's block at point `t`, entry by entry, is the array's entry at the block's place. -/
theorem iblk2_5_apply (c : Dev nD) (t : Fin cfg2.N) (p : Fin 96) (q : Fin 40) :
    iblk2 V c 5 t (ix2 p q) = V c main_arg8 (ix2 p q) := by
  unfold iblk2
  show V c main_arg8 (((cfg2.win 5).blk t).view.emb (ix2 p q)) = V c main_arg8 (ix2 p q)
  refine congrArg _ ?_
  funext a; apply Fin.ext
  obtain ⟨e0, e1⟩ := idx2_5 t
  match a with
  | ⟨0, _⟩ => show win2_5.index t (0 : Fin 2) * 96 + 1 * p.val = p.val; omega
  | ⟨1, _⟩ => show win2_5.index t (1 : Fin 2) * 40 + 1 * q.val = q.val; omega
/-- Input window 6's block at point `t`, entry by entry, is the array's entry at the block's place. -/
theorem iblk2_6_apply (c : Dev nD) (t : Fin cfg2.N) (p : Fin 1) (q : Fin 40) :
    iblk2 V c 6 t (ix2 p q) = V c main_v5 (ix2 p q) := by
  unfold iblk2
  show V c main_v5 (((cfg2.win 6).blk t).view.emb (ix2 p q)) = V c main_v5 (ix2 p q)
  refine congrArg _ ?_
  funext a; apply Fin.ext
  obtain ⟨e0, e1⟩ := idx2_6 t
  match a with
  | ⟨0, _⟩ => show win2_6.index t (0 : Fin 2) * 1 + 1 * p.val = p.val; omega
  | ⟨1, _⟩ => show win2_6.index t (1 : Fin 2) * 40 + 1 * q.val = q.val; omega
end R2

/-- Where output window 7's block at point `t` puts its entry `(p, q)`. -/
theorem emb2_7 (t : Fin cfg2.N) (p : Fin 80) (q : Fin 40) :
    ((cfg2.win 7).blk t).view.emb (ix2 p q) = ix2 (rowAt t.val (tlt2 t) p) q := by
  funext a; apply Fin.ext
  obtain ⟨e0, e1⟩ := idx2_7 t
  match a with
  | ⟨0, _⟩ => show win2_7.index t (0 : Fin 2) * 80 + 1 * p.val = 80 * t.val + p.val; omega
  | ⟨1, _⟩ => show win2_7.index t (1 : Fin 2) * 40 + 1 * q.val = q.val; omega
theorem mem_blk2_7 (t : Fin cfg2.N) (i : S10000x40.Idx) :
    i ∈ ((cfg2.win 7).blk t).view.set ↔ ∀ a : Fin 2, win2_7.index t a * S80x40.size a ≤ (i a).val ∧ (i a).val < win2_7.index t a * S80x40.size a + S80x40.size a := by
  show i ∈ ((View.whole main_v6).slice (win2_7.rect t)).set ↔ _
  rw [View.set_slice_whole, Rect.mem_set_unit]
  exact Iff.rfl
/-- Every entry of the array lies in the block of the point its row selects. -/
theorem blocks_cover2_7 (i : S10000x40.Idx) : ∃ t : Fin cfg2.N, (cfg2.win 7).flush t = true ∧ i ∈ ((cfg2.win 7).blk t).view.set := by
  have hi0 : (i 0).val < 10000 := (i 0).isLt
  have hi1 : (i 1).val < 40 := (i 1).isLt
  have hN : (i 0).val / 80 < cfg2.N := by rw [show cfg2.N = 125 from N_2]; omega
  refine ⟨⟨(i 0).val / 80, hN⟩, flush2_7 _, ?_⟩
  rw [mem_blk2_7]
  intro a
  obtain ⟨e0, e1⟩ := idx2_7 ⟨(i 0).val / 80, hN⟩
  match a with
  | ⟨0, _⟩ => show win2_7.index _ (0 : Fin 2) * 80 ≤ (i 0).val ∧ (i 0).val < win2_7.index _ (0 : Fin 2) * 80 + 80; rw [e0]; show (i 0).val / 80 * 80 ≤ (i 0).val ∧ (i 0).val < (i 0).val / 80 * 80 + 80; omega
  | ⟨1, _⟩ => show win2_7.index _ (1 : Fin 2) * 40 ≤ (i 1).val ∧ (i 1).val < win2_7.index _ (1 : Fin 2) * 40 + 40; rw [e1]; omega

end Cert.KernelIdeal.Hand

end
-- ==== Proof.KIPieces.lean ====
/-
  What the pieces each kernel body's stores leave in a buffer ARE, as values: every body here stores each buffer it
  writes through one whole-buffer rectangle, so the buffer afterwards reads as that store's payload, and every whole-buffer
  load reads the buffer's contents.  Hence each buffer's final contents is the body's arithmetic applied to the
  contents of the buffers it loaded (and, at the first grid point, to what it has just stored in its scratch buffer).
  Stated for every float model.
-/
import proofs.«117827_g33741263077612_cont_sun_m_882_2_alg».proof.Proof.KIBody0
import proofs.«117827_g33741263077612_cont_sun_m_882_2_alg».proof.Proof.KIBody1
import proofs.«117827_g33741263077612_cont_sun_m_882_2_alg».proof.Proof.KIBody2
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]

/-- The rank-2 offset `(0, 0)` is the zero offset. -/
theorem off00 : (![0, 0] : Fin 2 → Nat) = fun _ => 0 := funext fun a => by fin_cases a <;> rfl

/-! ## The first kernel -/

/-- The first point leaves in the scratch the projected features. -/
theorem sout0_Z_eq (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) :
    sout0_Z c i arg1 harg1 arg2 harg2 arg3 harg3 arg4 harg4 arg5 harg5 arg6 harg6 arg7 harg7 hc x1 x2 x3 x4 = k0_pay1 x2 x3 := by
  unfold sout0_Z
  rw [View.read_writes_eq_canon _ _ _ (scover0_Z c i arg1 harg1 arg2 harg2 arg3 harg3 arg4 harg4 arg5 harg5 arg6 harg6 arg7 harg7 hc x1 x2 x3 x4)]
  unfold kernelRun0_Z
  dsimp only
  sl_unfold_words
  rw [View.canon_unit_zero off00]
  simp only [View.readAt_eq_ld, harg2.read_unread, harg3.read_unread,
    View.ld_unit_zero (S := S10000x128) off00, View.ld_unit_zero (S := S128x32) off00]

/-- The first point leaves in the operator block's low-precision copy the block itself, converted. -/
theorem out0_Z_5_eq (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) :
    out0_Z_5 c i arg1 harg1 arg2 harg2 arg3 harg3 arg4 harg4 arg5 harg5 arg6 harg6 arg7 harg7 hc x1 x2 x3 x4 = k0_pay2 x1 := by
  unfold out0_Z_5
  rw [View.read_writes_eq_canon _ _ _ (cover0_Z_5 c i arg1 harg1 arg2 harg2 arg3 harg3 arg4 harg4 arg5 harg5 arg6 harg6 arg7 harg7 hc x1 x2 x3 x4)]
  unfold kernelRun0_Z
  dsimp only
  sl_unfold_words
  rw [View.canon_unit_zero off00]
  simp only [View.readAt_eq_ld, harg1.read_unread, View.ld_unit_zero (S := S80x10000) off00]

/-- The first point leaves in the layer's output block the layer applied to the operator block, the projected
    features it has just stored, and the bias. -/
theorem out0_Z_4_eq (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : cond0 i) (x1 : Vec F S80x10000 .f32) (x2 : Vec F S10000x128 .f32) (x3 : Vec F S128x32 .f32) (x4 : Vec F S1x32 .f32) :
    out0_Z_4 c i arg1 harg1 arg2 harg2 arg3 harg3 arg4 harg4 arg5 harg5 arg6 harg6 arg7 harg7 hc x1 x2 x3 x4 = k0_pay3 x1 (k0_pay1 x2 x3) x4 := by
  unfold out0_Z_4
  rw [View.read_writes_eq_canon _ _ _ (cover0_Z_4 c i arg1 harg1 arg2 harg2 arg3 harg3 arg4 harg4 arg5 harg5 arg6 harg6 arg7 harg7 hc x1 x2 x3 x4)]
  unfold kernelRun0_Z
  dsimp only
  sl_unfold_words
  rw [View.canon_unit_zero off00, View.readCov_unit_zero (S := S10000x32) _ off00]
  simp only [View.readAt_eq_ld, harg1.read_unread, harg2.read_unread, harg3.read_unread, harg4.read_unread,
    View.ld_unit_zero (S := S80x10000) off00, View.ld_unit_zero (S := S10000x128) off00,
    View.ld_unit_zero (S := S128x32) off00, View.ld_unit_zero (S := S1x32) off00]

/-- A later point leaves in the operator block's low-precision copy the block itself, converted. -/
theorem out0_N_5_eq (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) :
    out0_N_5 c i arg1 harg1 arg2 harg2 arg3 harg3 arg4 harg4 arg5 harg5 arg6 harg6 arg7 harg7 hc x1 x2 x3 x4 xs = k0_pay2 x1 := by
  unfold out0_N_5
  rw [View.read_writes_eq_canon _ _ _ (cover0_N_5 c i arg1 harg1 arg2 harg2 arg3 harg3 arg4 harg4 arg5 harg5 arg6 harg6 arg7 harg7 hc x1 x2 x3 x4 xs)]
  unfold kernelRun0_N
  dsimp only
  rw [View.canon_unit_zero off00]
  simp only [View.readAt_eq_ld, harg1.read_unread, View.ld_unit_zero (S := S80x10000) off00]

/-- A later point leaves in the layer's output block the layer applied to the operator block, the scratch's
    contents, and the bias. -/
theorem out0_N_4_eq (c : Dev nD) (i : grid0.Coords) (arg1 : Memref sig .tc .vmem S80x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S80x10000 .bf16) (harg6 : arg6.IsWhole) (arg7 : Memref sig .tc .vmem S10000x32 .bf16) (harg7 : arg7.IsWhole) (hc : ¬cond0 i) (x1 : Vec F S80x10000 .f32) (x2 : Vec F S10000x128 .f32) (x3 : Vec F S128x32 .f32) (x4 : Vec F S1x32 .f32) (xs : Vec F S10000x32 .bf16) :
    out0_N_4 c i arg1 harg1 arg2 harg2 arg3 harg3 arg4 harg4 arg5 harg5 arg6 harg6 arg7 harg7 hc x1 x2 x3 x4 xs = k0_pay3 x1 xs x4 := by
  unfold out0_N_4
  rw [View.read_writes_eq_canon _ _ _ (cover0_N_4 c i arg1 harg1 arg2 harg2 arg3 harg3 arg4 harg4 arg5 harg5 arg6 harg6 arg7 harg7 hc x1 x2 x3 x4 xs)]
  unfold kernelRun0_N
  dsimp only
  rw [View.canon_unit_zero off00]
  simp only [View.readAt_eq_ld, harg1.read_unread, harg4.read_unread, harg7.read_unread,
    View.ld_unit_zero (S := S80x10000) off00, View.ld_unit_zero (S := S10000x32) off00,
    View.ld_unit_zero (S := S1x32) off00]

/-! ## The second kernel -/

/-- The first point leaves in the scratch the projected features of the second layer. -/
theorem sout1_Z_eq (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) :
    sout1_Z c i arg1 harg1 arg2 harg2 arg3 harg3 arg4 harg4 arg5 harg5 arg6 harg6 hc x1 x2 x3 x4 = k1_pay1 x2 x3 := by
  unfold sout1_Z
  rw [View.read_writes_eq_canon _ _ _ (scover1_Z c i arg1 harg1 arg2 harg2 arg3 harg3 arg4 harg4 arg5 harg5 arg6 harg6 hc x1 x2 x3 x4)]
  unfold kernelRun1_Z
  dsimp only
  sl_unfold_words
  rw [View.canon_unit_zero off00]
  simp only [View.readAt_eq_ld, harg2.read_unread, harg3.read_unread,
    View.ld_unit_zero (S := S10000x32) off00, View.ld_unit_zero (S := S32x32) off00]

/-- The first point leaves in the layer's output block the layer applied to the operator block, the projected
    features it has just stored, and the bias. -/
theorem out1_Z_4_eq (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : cond1 i) (x1 : Vec F S80x10000 .bf16) (x2 : Vec F S10000x32 .f32) (x3 : Vec F S32x32 .f32) (x4 : Vec F S1x32 .f32) :
    out1_Z_4 c i arg1 harg1 arg2 harg2 arg3 harg3 arg4 harg4 arg5 harg5 arg6 harg6 hc x1 x2 x3 x4 = k1_pay2 x1 (k1_pay1 x2 x3) x4 := by
  unfold out1_Z_4
  rw [View.read_writes_eq_canon _ _ _ (cover1_Z_4 c i arg1 harg1 arg2 harg2 arg3 harg3 arg4 harg4 arg5 harg5 arg6 harg6 hc x1 x2 x3 x4)]
  unfold kernelRun1_Z
  dsimp only
  sl_unfold_words
  rw [View.canon_unit_zero off00, View.readCov_unit_zero (S := S10000x32) _ off00]
  simp only [View.readAt_eq_ld, harg1.read_unread, harg2.read_unread, harg3.read_unread, harg4.read_unread,
    View.ld_unit_zero (S := S80x10000) off00, View.ld_unit_zero (S := S10000x32) off00,
    View.ld_unit_zero (S := S32x32) off00, View.ld_unit_zero (S := S1x32) off00]

/-- A later point leaves in the layer's output block the layer applied to the operator block, the scratch's
    contents, and the bias. -/
theorem out1_N_4_eq (c : Dev nD) (i : grid1.Coords) (arg1 : Memref sig .tc .vmem S80x10000 .bf16) (harg1 : arg1.IsWhole) (arg2 : Memref sig .tc .vmem S10000x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S80x32 .f32) (harg5 : arg5.IsWhole) (arg6 : Memref sig .tc .vmem S10000x32 .bf16) (harg6 : arg6.IsWhole) (hc : ¬cond1 i) (x1 : Vec F S80x10000 .bf16) (x2 : Vec F S10000x32 .f32) (x3 : Vec F S32x32 .f32) (x4 : Vec F S1x32 .f32) (xs : Vec F S10000x32 .bf16) :
    out1_N_4 c i arg1 harg1 arg2 harg2 arg3 harg3 arg4 harg4 arg5 harg5 arg6 harg6 hc x1 x2 x3 x4 xs = k1_pay2 x1 xs x4 := by
  unfold out1_N_4
  rw [View.read_writes_eq_canon _ _ _ (cover1_N_4 c i arg1 harg1 arg2 harg2 arg3 harg3 arg4 harg4 arg5 harg5 arg6 harg6 hc x1 x2 x3 x4 xs)]
  unfold kernelRun1_N
  dsimp only
  rw [View.canon_unit_zero off00]
  simp only [View.readAt_eq_ld, harg1.read_unread, harg4.read_unread, harg6.read_unread,
    View.ld_unit_zero (S := S80x10000) off00, View.ld_unit_zero (S := S10000x32) off00,
    View.ld_unit_zero (S := S1x32) off00]

/-! ## The third kernel -/

/-- The 80 rows of a `[10000, 32]` array that belong to the grid point: those from the point's row offset on. -/
abbrev rows2 (i : grid2.Coords) (X : Vec F S10000x32 .f32) : Vec F S80x32 .f32 :=
  View.ld X (Rect.unit (s := S10000x32) (k2_off1 i) S80x32.size (k2_off1_inb i))
/-- Rows `0 … 31` of the `[96, 40]` final weights: the band that multiplies the first layer's rows. -/
abbrev band2_0 (W : Vec F S96x40 .f32) : Vec F S32x40 .f32 :=
  View.ld W (Rect.unit (s := S96x40) ![0, 0] S32x40.size inb_S96x40_S32x40_0_0)
/-- Rows `32 … 63`: the band that multiplies the second layer's rows. -/
abbrev band2_32 (W : Vec F S96x40 .f32) : Vec F S32x40 .f32 :=
  View.ld W (Rect.unit (s := S96x40) ![32, 0] S32x40.size inb_S96x40_S32x40_32_0)
/-- Rows `64 … 95`: the band that multiplies the third layer's rows. -/
abbrev band2_64 (W : Vec F S96x40 .f32) : Vec F S32x40 .f32 :=
  View.ld W (Rect.unit (s := S96x40) ![64, 0] S32x40.size inb_S96x40_S32x40_64_0)

/-- The first point leaves in the scratch the projected features of the third layer. -/
theorem sout2_Z_eq (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) :
    sout2_Z c i arg1 harg1 arg2 harg2 arg3 harg3 arg4 harg4 arg5 harg5 arg6 harg6 arg7 harg7 arg8 harg8 arg9 harg9 hc x1 x2 x3 x4 x5 x6 x7 = k2_pay2 x3 x4 := by
  unfold sout2_Z
  rw [View.read_writes_eq_canon _ _ _ (scover2_Z c i arg1 harg1 arg2 harg2 arg3 harg3 arg4 harg4 arg5 harg5 arg6 harg6 arg7 harg7 arg8 harg8 arg9 harg9 hc x1 x2 x3 x4 x5 x6 x7)]
  unfold kernelRun2_Z
  dsimp only
  sl_unfold_run_names
  rw [View.canon_unit_zero off00]
  simp only [View.readAt_eq_ld, harg3.read_unread, harg4.read_unread,
    View.ld_unit_zero (S := S10000x32) off00, View.ld_unit_zero (S := S32x32) off00]

/-- The first point leaves in the output block the log-softmax of the logits and of their row maximum, both computed
    from the operator block, the projected features it has just stored, the two earlier layers' rows at the point, the
    three bands of the final weights and the two biases. -/
theorem out2_Z_7_eq (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) :
    out2_Z_7 c i arg1 harg1 arg2 harg2 arg3 harg3 arg4 harg4 arg5 harg5 arg6 harg6 arg7 harg7 arg8 harg8 arg9 harg9 hc x1 x2 x3 x4 x5 x6 x7
      = k2_pay1
          (k2_pay3 x1 (k2_pay2 x3 x4) x5 (rows2 i x2) (rows2 i x3) (band2_0 x6) (band2_32 x6) (band2_64 x6) x7)
          (k2_pay4 x1 (k2_pay2 x3 x4) x5 (rows2 i x2) (rows2 i x3) (band2_0 x6) (band2_32 x6) (band2_64 x6) x7) := by
  unfold out2_Z_7
  rw [View.read_writes_eq_canon _ _ _ (cover2_Z_7 c i arg1 harg1 arg2 harg2 arg3 harg3 arg4 harg4 arg5 harg5 arg6 harg6 arg7 harg7 arg8 harg8 arg9 harg9 hc x1 x2 x3 x4 x5 x6 x7)]
  unfold kernelRun2_Z
  dsimp only
  sl_unfold_run_names
  rw [View.canon_unit_zero off00, View.readCov_unit_zero (S := S10000x32) _ off00]
  simp only [View.readAt_eq_ld, harg1.read_unread, harg2.read_unread, harg3.read_unread, harg4.read_unread,
    harg5.read_unread, harg6.read_unread, harg7.read_unread,
    View.ld_unit_zero (S := S80x10000) off00, View.ld_unit_zero (S := S10000x32) off00,
    View.ld_unit_zero (S := S32x32) off00, View.ld_unit_zero (S := S1x32) off00, View.ld_unit_zero (S := S1x40) off00]

/-- A later point leaves the same with the scratch's contents for the projected features. -/
theorem out2_N_7_eq (c : Dev nD) (i : grid2.Coords) (arg1 : Memref sig .tc .vmem S80x10000 .bf16) (harg1 : arg1.IsWhole) (arg2 : Memref sig .tc .vmem S10000x32 .f32) (harg2 : arg2.IsWhole) (arg3 : Memref sig .tc .vmem S10000x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S96x40 .f32) (harg6 : arg6.IsWhole) (arg7 : Memref sig .tc .vmem S1x40 .f32) (harg7 : arg7.IsWhole) (arg8 : Memref sig .tc .vmem S80x40 .f32) (harg8 : arg8.IsWhole) (arg9 : Memref sig .tc .vmem S10000x32 .bf16) (harg9 : arg9.IsWhole) (hc : ¬cond2 i) (x1 : Vec F S80x10000 .bf16) (x2 : Vec F S10000x32 .f32) (x3 : Vec F S10000x32 .f32) (x4 : Vec F S32x32 .f32) (x5 : Vec F S1x32 .f32) (x6 : Vec F S96x40 .f32) (x7 : Vec F S1x40 .f32) (xs : Vec F S10000x32 .bf16) :
    out2_N_7 c i arg1 harg1 arg2 harg2 arg3 harg3 arg4 harg4 arg5 harg5 arg6 harg6 arg7 harg7 arg8 harg8 arg9 harg9 hc x1 x2 x3 x4 x5 x6 x7 xs
      = k2_pay1
          (k2_pay3 x1 xs x5 (rows2 i x2) (rows2 i x3) (band2_0 x6) (band2_32 x6) (band2_64 x6) x7)
          (k2_pay4 x1 xs x5 (rows2 i x2) (rows2 i x3) (band2_0 x6) (band2_32 x6) (band2_64 x6) x7) := by
  unfold out2_N_7
  rw [View.read_writes_eq_canon _ _ _ (cover2_N_7 c i arg1 harg1 arg2 harg2 arg3 harg3 arg4 harg4 arg5 harg5 arg6 harg6 arg7 harg7 arg8 harg8 arg9 harg9 hc x1 x2 x3 x4 x5 x6 x7 xs)]
  unfold kernelRun2_N
  dsimp only
  sl_unfold_run_names
  rw [View.canon_unit_zero off00]
  simp only [View.readAt_eq_ld, harg1.read_unread, harg2.read_unread, harg3.read_unread,
    harg5.read_unread, harg6.read_unread, harg7.read_unread, harg9.read_unread,
    View.ld_unit_zero (S := S80x10000) off00, View.ld_unit_zero (S := S10000x32) off00,
    View.ld_unit_zero (S := S1x32) off00, View.ld_unit_zero (S := S1x40) off00]

end Cert.KernelIdeal.Hand

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«117827_g33741263077612_cont_sun_m_882_2_alg».proof.Proof.LibDotIdx
import proofs.«117827_g33741263077612_cont_sun_m_882_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.PayIdx.lean ====
/-
  What each value a kernel body stores is, read at an index, at the exact extended reals: there a change of
  float format is the identity and every operation is exact, so a matrix product into the zero accumulator is a
  plain sum of products, a bias row broadcast down the rows adds its entry of the column, a maximum with the
  zero array is `max · 0`, and the two lane reductions are the supremum and the sum of a row.
-/
import proofs.«117827_g33741263077612_cont_sun_m_882_2_alg».proof.Proof.Gen.KernelIdeal.Skeleton
import proofs.«117827_g33741263077612_cont_sun_m_882_2_alg».proof.Proof.LibDotIdx
import proofs.«117827_g33741263077612_cont_sun_m_882_2_alg».proof.Proof.LibKeepdims
import proofs.«117827_g33741263077612_cont_sun_m_882_2_alg».proof.Proof.LibRowOps

noncomputable section

namespace Cert.KernelIdeal.PayIdx

open Idealize.ShloMosaic Idealize.ShloMosaic.ValueIdx
open Cert.KernelIdeal

/-- One row `[1, n]` broadcast down `m` rows reads, at `(p, q)`, the operand at `(0, q)`. -/
theorem broadcastTo_1n_mn_apply {α : Type} {m n : ℕ} (v : (⟨2, ![1, n]⟩ : Shape).Idx → α)
    (h : (⟨2, ![1, n]⟩ : Shape).Broadcasts ⟨2, ![m, n]⟩) (p : Fin m) (q : Fin n) :
    broadcastTo ⟨2, ![m, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-! ## The first kernel -/

/-- The projected features: row `p` of the input against column `q` of the weights. -/
theorem k0_pay1_apply (v15 : FVec Ideal S10000x128 .f32) (v16 : FVec Ideal S128x32 .f32) (p : Fin 10000) (q : Fin 32) :
    Gen.k0_pay1 (F := Ideal) v15 v16 (ix2 p q) = ∑ c : Fin 128, v15 (ix2 p c) * v16 (ix2 c q) := by
  unfold Gen.k0_pay1
  rw [shapeCast_self]
  exact DotIdx.matmul_plain_zero_apply _ none v15 v16 p q

/-- A change of float format is the identity. -/
theorem k0_pay2_apply (v3 : FVec Ideal S80x10000 .f32) (i : S80x10000.Idx) :
    Gen.k0_pay2 (F := Ideal) v3 i = v3 i := rfl

/-- One layer: the block of the operator against the projected features, plus the bias, rectified. -/
theorem k0_pay3_apply (v3 : FVec Ideal S80x10000 .f32) (v6 : FVec Ideal S10000x32 .bf16) (v8 : FVec Ideal S1x32 .f32)
    (p : Fin 80) (q : Fin 32) :
    Gen.k0_pay3 (F := Ideal) v3 v6 v8 (ix2 p q)
      = max ((∑ n : Fin 10000, v3 (ix2 p n) * v6 (ix2 n q)) + v8 (ix2 (0 : Fin 1) q)) 0 := by
  unfold Gen.k0_pay3
  rw [shapeCast_self]
  show max (matmul _ none (Gen.k0_pay2 v3) v6 (constant S80x32 .f32 0x00000000#32) (ix2 p q)
      + broadcastTo S80x32 v8 Gen.broadcasts_S1x32_S80x32 (ix2 p q)) (Ideal.ofBits .f32 0x00000000#32) = _
  rw [Ideal.ofBits_zero_f32, broadcastTo_1n_mn_apply]
  refine congrArg (fun t => max (t + v8 (ix2 (0 : Fin 1) q)) 0) ?_
  exact DotIdx.matmul_plain_zero_apply _ none (Gen.k0_pay2 v3) v6 p q

/-! ## The second kernel -/

/-- The projected features of the second layer. -/
theorem k1_pay1_apply (v14 : FVec Ideal S10000x32 .f32) (v16 : FVec Ideal S32x32 .f32) (p : Fin 10000) (q : Fin 32) :
    Gen.k1_pay1 (F := Ideal) v14 v16 (ix2 p q) = ∑ c : Fin 32, v14 (ix2 p c) * v16 (ix2 c q) := by
  unfold Gen.k1_pay1
  rw [shapeCast_self, shapeCast_self]
  exact DotIdx.matmul_plain_zero_apply _ none v14 v16 p q

/-- The second layer: the block of the operator against the projected features, plus the bias, rectified. -/
theorem k1_pay2_apply (v3 : FVec Ideal S80x10000 .bf16) (v5 : FVec Ideal S10000x32 .bf16) (v7 : FVec Ideal S1x32 .f32)
    (p : Fin 80) (q : Fin 32) :
    Gen.k1_pay2 (F := Ideal) v3 v5 v7 (ix2 p q)
      = max ((∑ n : Fin 10000, v3 (ix2 p n) * v5 (ix2 n q)) + v7 (ix2 (0 : Fin 1) q)) 0 := by
  unfold Gen.k1_pay2
  rw [shapeCast_self, shapeCast_self]
  show max (matmul _ none v3 v5 (constant S80x32 .f32 0x00000000#32) (ix2 p q)
      + broadcastTo S80x32 v7 Gen.broadcasts_S1x32_S80x32 (ix2 p q)) (Ideal.ofBits .f32 0x00000000#32) = _
  rw [Ideal.ofBits_zero_f32, broadcastTo_1n_mn_apply]
  refine congrArg (fun t => max (t + v7 (ix2 (0 : Fin 1) q)) 0) ?_
  exact DotIdx.matmul_plain_zero_apply _ none v3 v5 p q

/-! ## The third kernel -/

/-- The projected features of the third layer. -/
theorem k2_pay2_apply (v42 : FVec Ideal S10000x32 .f32) (v44 : FVec Ideal S32x32 .f32) (p : Fin 10000) (q : Fin 32) :
    Gen.k2_pay2 (F := Ideal) v42 v44 (ix2 p q) = ∑ c : Fin 32, v42 (ix2 p c) * v44 (ix2 c q) := by
  unfold Gen.k2_pay2
  rw [shapeCast_self, shapeCast_self]
  exact DotIdx.matmul_plain_zero_apply _ none v42 v44 p q

/-- The logits: the three blocks of the final weights against the two earlier layers' rows and the third layer's
    (unrectified) row, plus the final bias. -/
theorem k2_pay3_apply (v3 : FVec Ideal S80x10000 .bf16) (v5 : FVec Ideal S10000x32 .bf16) (v7 : FVec Ideal S1x32 .f32)
    (v13 v17 : FVec Ideal S80x32 .f32) (v19 v21 v24 : FVec Ideal S32x40 .f32) (v27 : FVec Ideal S1x40 .f32)
    (p : Fin 80) (j : Fin 40) :
    Gen.k2_pay3 (F := Ideal) v3 v5 v7 v13 v17 v19 v21 v24 v27 (ix2 p j)
      = (((∑ k : Fin 32, v13 (ix2 p k) * v19 (ix2 k j)) + (∑ k : Fin 32, v17 (ix2 p k) * v21 (ix2 k j)))
          + (∑ k : Fin 32, ((∑ n : Fin 10000, v3 (ix2 p n) * v5 (ix2 n k)) + v7 (ix2 (0 : Fin 1) k)) * v24 (ix2 k j)))
        + v27 (ix2 (0 : Fin 1) j) := by
  unfold Gen.k2_pay3
  simp only [shapeCast_self]
  show ((matmul dot_S80x32_S32x40_S80x40_1_0_0_1_n_n none v13 v19 (constant S80x40 .f32 0x00000000#32) (ix2 p j)
        + matmul dot_S80x32_S32x40_S80x40_1_0_0_1_n_n none v17 v21 (constant S80x40 .f32 0x00000000#32) (ix2 p j))
      + matmul dot_S80x32_S32x40_S80x40_1_0_0_1_n_n none
          (addf (matmul dot_S80x10000_S10000x32_S80x32_1_0_0_1_n_n none v3 v5 (constant S80x32 .f32 0x00000000#32))
            (broadcastTo S80x32 v7 Gen.broadcasts_S1x32_S80x32))
          v24 (constant S80x40 .f32 0x00000000#32) (ix2 p j))
    + broadcastTo S80x40 v27 Gen.broadcasts_S1x40_S80x40 (ix2 p j) = _
  refine congrArg₂ (· + ·) (congrArg₂ (· + ·) (congrArg₂ (· + ·) ?_ ?_) ?_) (broadcastTo_1n_mn_apply _ _ p j)
  · exact DotIdx.matmul_plain_zero_apply _ none v13 v19 p j
  · exact DotIdx.matmul_plain_zero_apply _ none v17 v21 p j
  · refine (DotIdx.matmul_plain_zero_apply _ none _ v24 p j).trans ?_
    refine Finset.sum_congr rfl fun k _ => congrArg (· * v24 (ix2 k j)) ?_
    show matmul _ none v3 v5 (constant S80x32 .f32 0x00000000#32) (ix2 p k)
        + broadcastTo S80x32 v7 Gen.broadcasts_S1x32_S80x32 (ix2 p k) = _
    exact congrArg₂ (· + ·) (DotIdx.matmul_plain_zero_apply _ none v3 v5 p k) (broadcastTo_1n_mn_apply _ _ p k)

/-- The row maximum of the logits: a fold of `max` from minus infinity over the row, the supremum of the row. -/
theorem k2_pay4_apply (v3 : FVec Ideal S80x10000 .bf16) (v5 : FVec Ideal S10000x32 .bf16) (v7 : FVec Ideal S1x32 .f32)
    (v13 v17 : FVec Ideal S80x32 .f32) (v19 v21 v24 : FVec Ideal S32x40 .f32) (v27 : FVec Ideal S1x40 .f32)
    (p : Fin 80) :
    Gen.k2_pay4 (F := Ideal) v3 v5 v7 v13 v17 v19 v21 v24 v27 (ix2 p (0 : Fin 1))
      = Finset.univ.sup (fun j : Fin 40 => Gen.k2_pay3 (F := Ideal) v3 v5 v7 v13 v17 v19 v21 v24 v27 (ix2 p j)) := by
  unfold Gen.k2_pay4
  refine (Cert.SupCon.Ker.shapeCast_a_a1_apply _ _ p (0 : Fin 1)).trans ?_
  refine (Cert.LibRowOps.rowMax_kernel_apply _ _ _ (.inl rfl) rfl p).trans ?_
  show Finset.univ.fold max (Ideal.ofBits .f32 0xFF800000#32) _ = _
  rw [Cert.SupCon.Ker.ofBits_negInf]
  exact Cert.SupCon.Ker.fold_max_bot _ _

/-- The log-softmax of a row, given the row and its maximum: the shifted entry minus the logarithm of the sum of
    the exponentials of the shifted row. -/
theorem k2_pay1_apply (v30 : FVec Ideal S80x40 .f32) (v32 : FVec Ideal S80x1 .f32) (p : Fin 80) (j : Fin 40) :
    Gen.k2_pay1 (F := Ideal) v30 v32 (ix2 p j)
      = (v30 (ix2 p j) - v32 (ix2 p (0 : Fin 1)))
        - Ideal.log (∑ j' : Fin 40, Ideal.exp (v30 (ix2 p j') - v32 (ix2 p (0 : Fin 1)))) := by
  unfold Gen.k2_pay1
  have hs : ∀ j' : Fin 40, subf v30 (broadcastTo S80x40 v32 Gen.broadcasts_S80x1_S80x40) (ix2 p j')
      = v30 (ix2 p j') - v32 (ix2 p (0 : Fin 1)) := fun j' =>
    (subf_apply _ _ _).trans (congrArg (v30 (ix2 p j') - ·) (Cert.SupCon.Ker.broadcastTo_a1_ab_apply _ _ p j'))
  refine (subf_apply _ _ _).trans (congrArg₂ (· - ·) (hs j) ?_)
  refine (Cert.SupCon.Ker.broadcastTo_a1_ab_apply _ _ p j).trans ?_
  refine (Cert.LibRowOps.log_apply _ _).trans (congrArg Ideal.log ?_)
  refine (Cert.SupCon.Ker.shapeCast_a_a1_apply _ _ p (0 : Fin 1)).trans ?_
  refine (Cert.LibRowOps.rowSum_kernel_apply _ _ _ (.inl rfl) rfl p).trans ?_
  exact Finset.sum_congr rfl fun j' _ => (Cert.LibRowOps.exp_apply _ _).trans (congrArg Ideal.exp (hs j'))

end Cert.KernelIdeal.PayIdx

end
-- ==== Proof.Spec.lean ====
/-
  The function both programs compute, on the exact extended reals: a three-layer graph convolution over a dense
  adjacency matrix followed by a linear classifier on the three layers' features side by side and a row-wise
  log-softmax.  Everything is written over plain coordinates (`Fin` rows and columns); arrays enter through `m2` / `m1`.
-/
import Idealize.ShloMosaic.Lib.ValueIdx
import Idealize.ShloMosaic.PureOps.Ideal

noncomputable section

namespace Cert.Spec

open Idealize.ShloMosaic Idealize.ShloMosaic.ValueIdx

/-- A rank-2 array as a function of its row and its column. -/
def m2 {a b : ℕ} (X : (⟨2, ![a, b]⟩ : Shape).Idx → EReal) : Fin a → Fin b → EReal := fun p q => X (ix2 p q)

/-- A vector as a function of its coordinate. -/
def m1 {a : ℕ} (v : (⟨1, ![a]⟩ : Shape).Idx → EReal) : Fin a → EReal := fun q => v (ix1 q)

/-- The matrix product: row `p` of `X` against column `q` of `W`. -/
def mm {a k n : ℕ} (X : Fin a → Fin k → EReal) (W : Fin k → Fin n → EReal) : Fin a → Fin n → EReal :=
  fun p q => ∑ c : Fin k, X p c * W c q

/-- A bias vector added to every row. -/
def addRow {a n : ℕ} (X : Fin a → Fin n → EReal) (b : Fin n → EReal) : Fin a → Fin n → EReal :=
  fun p q => X p q + b q

/-- The rectifier, entry by entry. -/
def relu {a n : ℕ} (X : Fin a → Fin n → EReal) : Fin a → Fin n → EReal := fun p q => max (X p q) 0

/-- One graph convolution: the adjacency matrix times the features' linear image, plus the bias. -/
def conv {a k n : ℕ} (A : Fin a → Fin a → EReal) (X : Fin a → Fin k → EReal) (W : Fin k → Fin n → EReal)
    (b : Fin n → EReal) : Fin a → Fin n → EReal :=
  addRow (mm A (mm X W)) b

/-- The three row bands of the classifier's weight matrix. -/
def lo (k : Fin 32) : Fin 96 := ⟨k.val, by omega⟩
def mid (k : Fin 32) : Fin 96 := ⟨32 + k.val, by omega⟩
def hi (k : Fin 32) : Fin 96 := ⟨64 + k.val, by omega⟩

/-- The classifier on the three layers' features side by side: each layer against its band of the weights. -/
def logits {a n : ℕ} (X1 X2 X3 : Fin a → Fin 32 → EReal) (Wl : Fin 96 → Fin n → EReal) (bl : Fin n → EReal) :
    Fin a → Fin n → EReal :=
  fun p j => ((∑ k : Fin 32, X1 p k * Wl (lo k) j) + (∑ k : Fin 32, X2 p k * Wl (mid k) j)
    + (∑ k : Fin 32, X3 p k * Wl (hi k) j)) + bl j

/-- The row-wise log-softmax, relative to the row's largest entry. -/
def logSoftmax {a n : ℕ} (L : Fin a → Fin n → EReal) : Fin a → Fin n → EReal :=
  fun p q => (L p q - Finset.univ.sup (L p)) - Ideal.log (∑ j : Fin n, Ideal.exp (L p j - Finset.univ.sup (L p)))

/-- The first layer's features. -/
def X1 (x : Fin 10000 → Fin 128 → EReal) (A : Fin 10000 → Fin 10000 → EReal) (W1 : Fin 128 → Fin 32 → EReal)
    (b1 : Fin 32 → EReal) : Fin 10000 → Fin 32 → EReal := relu (conv A x W1 b1)

/-- The whole network over coordinates. -/
def net (x : Fin 10000 → Fin 128 → EReal) (A : Fin 10000 → Fin 10000 → EReal) (W1 : Fin 128 → Fin 32 → EReal)
    (b1 : Fin 32 → EReal) (W2 : Fin 32 → Fin 32 → EReal) (b2 : Fin 32 → EReal) (W3 : Fin 32 → Fin 32 → EReal)
    (b3 : Fin 32 → EReal) (Wl : Fin 96 → Fin 40 → EReal) (bl : Fin 40 → EReal) : Fin 10000 → Fin 40 → EReal :=
  logSoftmax (logits (X1 x A W1 b1) (relu (conv A (X1 x A W1 b1) W2 b2))
    (conv A (relu (conv A (X1 x A W1 b1) W2 b2)) W3 b3) Wl bl)

/-- The result array as one function of the ten argument arrays. -/
def G (x : (⟨2, ![10000, 128]⟩ : Shape).Idx → EReal) (adj : (⟨2, ![10000, 10000]⟩ : Shape).Idx → EReal)
    (W1 : (⟨2, ![128, 32]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (Wl : (⟨2, ![96, 40]⟩ : Shape).Idx → EReal) (bl : (⟨1, ![40]⟩ : Shape).Idx → EReal) :
    (⟨2, ![10000, 40]⟩ : Shape).Idx → EReal :=
  fun i => net (m2 x) (m2 adj) (m2 W1) (m1 b1) (m2 W2) (m1 b2) (m2 W3) (m1 b3) (m2 Wl) (m1 bl) (i 0) (i 1)

theorem G_apply (x : (⟨2, ![10000, 128]⟩ : Shape).Idx → EReal) (adj : (⟨2, ![10000, 10000]⟩ : Shape).Idx → EReal)
    (W1 : (⟨2, ![128, 32]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (Wl : (⟨2, ![96, 40]⟩ : Shape).Idx → EReal) (bl : (⟨1, ![40]⟩ : Shape).Idx → EReal) (p : Fin 10000) (q : Fin 40) :
    G x adj W1 b1 W2 b2 W3 b3 Wl bl (ix2 p q)
      = net (m2 x) (m2 adj) (m2 W1) (m1 b1) (m2 W2) (m1 b2) (m2 W3) (m1 b3) (m2 Wl) (m1 bl) p q := rfl

end Cert.Spec

end
-- ==== Proof.ValDefs.lean ====
/-
  The two whole-array functions the regions' output arrays are compared with: one rectified graph-convolution layer, and
  the classifier head (the third convolution, the dense layer on the three layers' features, the row-wise log-softmax).
  Both are the specification's functions read at the arrays' entries; biases come entry by entry.
-/
import proofs.«117827_g33741263077612_cont_sun_m_882_2_alg».proof.Proof.Spec

noncomputable section

namespace Cert.Val

open Idealize.ShloMosaic Idealize.ShloMosaic.ValueIdx

/-- One rectified graph-convolution layer as a function of whole arrays. -/
def layer {k : ℕ} (A : (⟨2, ![10000, 10000]⟩ : Shape).Idx → EReal) (X : (⟨2, ![10000, k]⟩ : Shape).Idx → EReal) (W : (⟨2, ![k, 32]⟩ : Shape).Idx → EReal)
    (b : Fin 32 → EReal) : (⟨2, ![10000, 32]⟩ : Shape).Idx → EReal :=
  fun i => Cert.Spec.relu (Cert.Spec.addRow (Cert.Spec.mm (Cert.Spec.m2 A) (Cert.Spec.mm (Cert.Spec.m2 X) (Cert.Spec.m2 W))) b) (i 0) (i 1)

theorem layer_apply {k : ℕ} (A : (⟨2, ![10000, 10000]⟩ : Shape).Idx → EReal) (X : (⟨2, ![10000, k]⟩ : Shape).Idx → EReal) (W : (⟨2, ![k, 32]⟩ : Shape).Idx → EReal)
    (b : Fin 32 → EReal) (p : Fin 10000) (q : Fin 32) :
    layer A X W b (ix2 p q) = max ((∑ n : Fin 10000, A (ix2 p n) * ∑ c : Fin k, X (ix2 n c) * W (ix2 c q)) + b q) 0 := rfl

theorem m2_layer {k : ℕ} (A : (⟨2, ![10000, 10000]⟩ : Shape).Idx → EReal) (X : (⟨2, ![10000, k]⟩ : Shape).Idx → EReal) (W : (⟨2, ![k, 32]⟩ : Shape).Idx → EReal)
    (b : Fin 32 → EReal) :
    Cert.Spec.m2 (layer A X W b) = Cert.Spec.relu (Cert.Spec.conv (Cert.Spec.m2 A) (Cert.Spec.m2 X) (Cert.Spec.m2 W) b) := rfl

/-- The logits of the classifier head at row `p`: each layer's features against its band of the weights, plus the bias. -/
def headLogits (A : (⟨2, ![10000, 10000]⟩ : Shape).Idx → EReal) (X1 X2 : (⟨2, ![10000, 32]⟩ : Shape).Idx → EReal)
    (W3 : (⟨2, ![32, 32]⟩ : Shape).Idx → EReal) (b3 : Fin 32 → EReal) (Wl : (⟨2, ![96, 40]⟩ : Shape).Idx → EReal) (bl : Fin 40 → EReal) :
    Fin 10000 → Fin 40 → EReal :=
  Cert.Spec.logits (Cert.Spec.m2 X1) (Cert.Spec.m2 X2) (Cert.Spec.conv (Cert.Spec.m2 A) (Cert.Spec.m2 X2) (Cert.Spec.m2 W3) b3) (Cert.Spec.m2 Wl) bl

theorem headLogits_apply (A : (⟨2, ![10000, 10000]⟩ : Shape).Idx → EReal) (X1 X2 : (⟨2, ![10000, 32]⟩ : Shape).Idx → EReal)
    (W3 : (⟨2, ![32, 32]⟩ : Shape).Idx → EReal) (b3 : Fin 32 → EReal) (Wl : (⟨2, ![96, 40]⟩ : Shape).Idx → EReal) (bl : Fin 40 → EReal)
    (p : Fin 10000) (j : Fin 40) :
    headLogits A X1 X2 W3 b3 Wl bl p j
      = (((∑ k : Fin 32, X1 (ix2 p k) * Wl (ix2 (Cert.Spec.lo k) j)) + (∑ k : Fin 32, X2 (ix2 p k) * Wl (ix2 (Cert.Spec.mid k) j)))
          + (∑ k : Fin 32, ((∑ n : Fin 10000, A (ix2 p n) * ∑ l : Fin 32, X2 (ix2 n l) * W3 (ix2 l k)) + b3 k) * Wl (ix2 (Cert.Spec.hi k) j)))
        + bl j := rfl

/-- The classifier head as a function of whole arrays. -/
def head (A : (⟨2, ![10000, 10000]⟩ : Shape).Idx → EReal) (X1 X2 : (⟨2, ![10000, 32]⟩ : Shape).Idx → EReal)
    (W3 : (⟨2, ![32, 32]⟩ : Shape).Idx → EReal) (b3 : Fin 32 → EReal) (Wl : (⟨2, ![96, 40]⟩ : Shape).Idx → EReal) (bl : Fin 40 → EReal) :
    (⟨2, ![10000, 40]⟩ : Shape).Idx → EReal :=
  fun i => Cert.Spec.logSoftmax (headLogits A X1 X2 W3 b3 Wl bl) (i 0) (i 1)

theorem head_apply (A : (⟨2, ![10000, 10000]⟩ : Shape).Idx → EReal) (X1 X2 : (⟨2, ![10000, 32]⟩ : Shape).Idx → EReal)
    (W3 : (⟨2, ![32, 32]⟩ : Shape).Idx → EReal) (b3 : Fin 32 → EReal) (Wl : (⟨2, ![96, 40]⟩ : Shape).Idx → EReal) (bl : Fin 40 → EReal)
    (p : Fin 10000) (j : Fin 40) :
    head A X1 X2 W3 b3 Wl bl (ix2 p j)
      = (headLogits A X1 X2 W3 b3 Wl bl p j - Finset.univ.sup (headLogits A X1 X2 W3 b3 Wl bl p))
        - Ideal.log (∑ j' : Fin 40, Ideal.exp (headLogits A X1 X2 W3 b3 Wl bl p j' - Finset.univ.sup (headLogits A X1 X2 W3 b3 Wl bl p))) := rfl

/-- The three stages composed are the specification. -/
theorem compose (x : (⟨2, ![10000, 128]⟩ : Shape).Idx → EReal) (adj : (⟨2, ![10000, 10000]⟩ : Shape).Idx → EReal)
    (W1 : (⟨2, ![128, 32]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (Wl : (⟨2, ![96, 40]⟩ : Shape).Idx → EReal) (bl : (⟨1, ![40]⟩ : Shape).Idx → EReal) :
    head adj (layer adj x W1 (Cert.Spec.m1 b1)) (layer adj (layer adj x W1 (Cert.Spec.m1 b1)) W2 (Cert.Spec.m1 b2)) W3 (Cert.Spec.m1 b3) Wl (Cert.Spec.m1 bl)
      = Cert.Spec.G x adj W1 b1 W2 b2 W3 b3 Wl bl := rfl

end Cert.Val

end
-- ==== Proof.KIVal0.lean ====
/-
  What the first two regions leave in their output arrays, at the exact extended reals, as whole-array functions of the
  arrays each region finds.  Region 0 writes, row block by row block, the rectified graph convolution
  max (A · (X · W) + b, 0) and a copy of the adjacency matrix (a change of float format is the identity on the extended
  reals); region 1 writes the same convolution of the first layer's features.  The product X · W is computed once, at the
  first grid point, into the scratch buffer, from windows that hold the whole arrays at every point; so every row block
  sees the same product.
-/
import proofs.«117827_g33741263077612_cont_sun_m_882_2_alg».proof.Proof.KIBlocks
import proofs.«117827_g33741263077612_cont_sun_m_882_2_alg».proof.Proof.KIPieces
import proofs.«117827_g33741263077612_cont_sun_m_882_2_alg».proof.Proof.PayIdx
import proofs.«117827_g33741263077612_cont_sun_m_882_2_alg».proof.Proof.ValDefs
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.KernelIdeal.PayIdx
open Idealize.ShloMosaic Idealize.ShloMosaic.TcCoe Idealize.ShloMosaic.ValueIdx
open Idealize.SL Idealize.SL.Sem
open Idealize.ShloMosaic.Pipeline (Dat Cfg Window)

open Cert.Val

section R0
variable (V : (c : Dev nD) → (b : Ref sig .tc) → Buf (Elt Ideal) ((c : Thread nD τ).loc b))

/-- The feature and weight arrays the region finds, as arrays of extended reals. -/
abbrev arrX (c : Dev nD) : FVec Ideal S10000x128 .f32 := V c main_arg0
abbrev arrW (c : Dev nD) : FVec Ideal S128x32 .f32 := V c main_arg2

/-- The scratch's product, read at an entry: the whole feature matrix against the whole weight matrix, whichever point's
    windows it is read through. -/
theorem h0_apply (c : Dev nD) (t' : Fin cfg0.N) (n : Fin 10000) (q : Fin 32) :
    k0_pay1 (F := Ideal) (iblk0 V c 1 t') (iblk0 V c 2 t') (ix2 n q) = ∑ c' : Fin 128, arrX V c (ix2 n c') * arrW V c (ix2 c' q) :=
  (k0_pay1_apply (iblk0 V c 1 t') (iblk0 V c 2 t') n q).trans
    (Finset.sum_congr rfl fun c' _ => congrArg₂ (fun (a b : EReal) => a * b) (iblk0_1_apply V c t' n c') (iblk0_2_apply V c t' c' q))

/-- A row block of the first layer, given the scratch's contents entry by entry. -/
theorem blk0_4 (c : Dev nD) (t : Fin cfg0.N) (xs : FVec Ideal S10000x32 .bf16)
    (hxs : ∀ n q, xs (ix2 n q) = ∑ c' : Fin 128, arrX V c (ix2 n c') * arrW V c (ix2 c' q)) (p : Fin 80) (q : Fin 32) :
    k0_pay3 (F := Ideal) (iblk0 V c 0 t) xs (iblk0 V c 3 t) (ix2 p q)
      = layer (V c main_arg1) (V c main_arg0) (V c main_arg2) (fun q => V c main_v0 (ix2 (0 : Fin 1) q)) (ix2 (rowAt t.val (tlt0 t) p) q) := by
  refine (k0_pay3_apply (iblk0 V c 0 t) xs (iblk0 V c 3 t) p q).trans ?_
  rw [layer_apply]
  refine congrArg (fun z : EReal => max z 0) ?_
  refine congrArg₂ (fun (a b : EReal) => a + b) (Finset.sum_congr rfl fun n _ => congrArg₂ (fun (a b : EReal) => a * b) (iblk0_0_apply V c t p n) (hxs n q)) (iblk0_3_apply V c t 0 q)

/-- What point `t` writes back through output window 4 is block `t` of the first layer. -/
theorem flushed0_4_eq (c : Dev nD) (t : Fin cfg0.N) :
    (dat0 (F := Ideal) V c).flushed 4 t
      = ((cfg0.win 4).blk t).view.read (Elt Ideal) (layer (V c main_arg1) (V c main_arg0) (V c main_arg2) (fun q => V c main_v0 (ix2 (0 : Fin 1) q))) := by
  show (cfg0.win 4).cut (grid0.coords t) ((dat0 V c).after 4 t) = _
  rw [after0_4]
  funext y
  obtain ⟨p, q, rfl⟩ : ∃ (p : Fin 80) (q : Fin 32), y = ix2 p q := ⟨y 0, y 1, eq_ix2 y⟩
  show o0_4 V c t (ix2 p q) = layer (V c main_arg1) (V c main_arg0) (V c main_arg2) (fun q => V c main_v0 (ix2 (0 : Fin 1) q)) (((cfg0.win 4).blk t).view.emb (ix2 p q))
  rw [emb0_4 t p q]
  by_cases hz : t.val = 0
  · rw [o0_4_zero V c t hz, out0_Z_4_eq]
    exact blk0_4 V c t _ (fun n q => h0_apply V c t n q) p q
  · rw [o0_4_pos V c t hz, out0_N_4_eq]
    refine blk0_4 V c t _ (fun n q => ?_) p q
    unfold S0; rw [sout0_Z_eq]
    exact h0_apply V c t0_0 n q

/-- After the region the first output array holds the first layer. -/
theorem final0_4 (c : Dev nD) :
    (dat0 (F := Ideal) V c).arrAt 4 cfg0.N = layer (V c main_arg1) (V c main_arg0) (V c main_arg2) (fun q => V c main_v0 (ix2 (0 : Fin 1) q)) :=
  (dat0 V c).arrAt_eq_of_cover 4 _ (fun t _ => flushed0_4_eq V c t) blocks_cover0_4

/-- What point `t` writes back through output window 5 is block `t` of the adjacency matrix itself. -/
theorem flushed0_5_eq (c : Dev nD) (t : Fin cfg0.N) :
    (dat0 (F := Ideal) V c).flushed 5 t = ((cfg0.win 5).blk t).view.read (Elt Ideal) (V c main_arg1) := by
  show (cfg0.win 5).cut (grid0.coords t) ((dat0 V c).after 5 t) = _
  rw [after0_5]
  funext y
  obtain ⟨p, q, rfl⟩ : ∃ (p : Fin 80) (q : Fin 10000), y = ix2 p q := ⟨y 0, y 1, eq_ix2 y⟩
  show o0_5 V c t (ix2 p q) = V c main_arg1 (((cfg0.win 5).blk t).view.emb (ix2 p q))
  rw [emb0_5 t p q]
  by_cases hz : t.val = 0
  · rw [o0_5_zero V c t hz, out0_Z_5_eq]
    exact (k0_pay2_apply (iblk0 V c 0 t) (ix2 p q)).trans (iblk0_0_apply V c t p q)
  · rw [o0_5_pos V c t hz, out0_N_5_eq]
    exact (k0_pay2_apply (iblk0 V c 0 t) (ix2 p q)).trans (iblk0_0_apply V c t p q)

/-- After the region the second output array holds the adjacency matrix. -/
theorem final0_5 (c : Dev nD) : (dat0 (F := Ideal) V c).arrAt 5 cfg0.N = V c main_arg1 :=
  (dat0 V c).arrAt_eq_of_cover 5 _ (fun t _ => flushed0_5_eq V c t) blocks_cover0_5

end R0

end Cert.KernelIdeal.Val

end
-- ==== Proof.KIVal1.lean ====
/-
  What the second region leaves in its output array, at the exact extended reals: row block by row block, the rectified
  graph convolution of the first layer's features, max (A · (X₁ · W₂) + b₂, 0), the product X₁ · W₂ computed once into the
  scratch buffer at the first grid point.
-/
import proofs.«117827_g33741263077612_cont_sun_m_882_2_alg».proof.Proof.KIBlocks
import proofs.«117827_g33741263077612_cont_sun_m_882_2_alg».proof.Proof.KIPieces
import proofs.«117827_g33741263077612_cont_sun_m_882_2_alg».proof.Proof.PayIdx
import proofs.«117827_g33741263077612_cont_sun_m_882_2_alg».proof.Proof.ValDefs
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.KernelIdeal.PayIdx
open Idealize.ShloMosaic Idealize.ShloMosaic.TcCoe Idealize.ShloMosaic.ValueIdx
open Idealize.SL Idealize.SL.Sem
open Idealize.ShloMosaic.Pipeline (Dat Cfg Window)

open Cert.Val

section R1
variable (V : (c : Dev nD) → (b : Ref sig .tc) → Buf (Elt Ideal) ((c : Thread nD τ).loc b))

/-- The feature and weight arrays the region finds, as arrays of extended reals. -/
abbrev arrX1 (c : Dev nD) : FVec Ideal S10000x32 .f32 := V c main_v1_0
abbrev arrW2 (c : Dev nD) : FVec Ideal S32x32 .f32 := V c main_arg4

/-- The scratch's product, read at an entry, whichever point's windows it is read through. -/
theorem h1_apply (c : Dev nD) (t' : Fin cfg1.N) (n : Fin 10000) (q : Fin 32) :
    k1_pay1 (F := Ideal) (iblk1 V c 1 t') (iblk1 V c 2 t') (ix2 n q) = ∑ c' : Fin 32, arrX1 V c (ix2 n c') * arrW2 V c (ix2 c' q) :=
  (k1_pay1_apply (iblk1 V c 1 t') (iblk1 V c 2 t') n q).trans
    (Finset.sum_congr rfl fun c' _ => congrArg₂ (fun (a b : EReal) => a * b) (iblk1_1_apply V c t' n c') (iblk1_2_apply V c t' c' q))

/-- A row block of the second layer, given the scratch's contents entry by entry. -/
theorem blk1_4 (c : Dev nD) (t : Fin cfg1.N) (xs : FVec Ideal S10000x32 .bf16)
    (hxs : ∀ n q, xs (ix2 n q) = ∑ c' : Fin 32, arrX1 V c (ix2 n c') * arrW2 V c (ix2 c' q)) (p : Fin 80) (q : Fin 32) :
    k1_pay2 (F := Ideal) (iblk1 V c 0 t) xs (iblk1 V c 3 t) (ix2 p q)
      = layer (V c main_v1_1) (V c main_v1_0) (V c main_arg4) (fun q => V c main_v2 (ix2 (0 : Fin 1) q)) (ix2 (rowAt t.val (tlt1 t) p) q) := by
  refine (k1_pay2_apply (iblk1 V c 0 t) xs (iblk1 V c 3 t) p q).trans ?_
  rw [layer_apply]
  refine congrArg (fun z : EReal => max z 0) ?_
  refine congrArg₂ (fun (a b : EReal) => a + b) (Finset.sum_congr rfl fun n _ => congrArg₂ (fun (a b : EReal) => a * b) (iblk1_0_apply V c t p n) (hxs n q)) (iblk1_3_apply V c t 0 q)

/-- What point `t` writes back through the output window is block `t` of the second layer. -/
theorem flushed1_4_eq (c : Dev nD) (t : Fin cfg1.N) :
    (dat1 (F := Ideal) V c).flushed 4 t
      = ((cfg1.win 4).blk t).view.read (Elt Ideal) (layer (V c main_v1_1) (V c main_v1_0) (V c main_arg4) (fun q => V c main_v2 (ix2 (0 : Fin 1) q))) := by
  show (cfg1.win 4).cut (grid1.coords t) ((dat1 V c).after 4 t) = _
  rw [after1_4]
  funext y
  obtain ⟨p, q, rfl⟩ : ∃ (p : Fin 80) (q : Fin 32), y = ix2 p q := ⟨y 0, y 1, eq_ix2 y⟩
  show o1_4 V c t (ix2 p q) = layer (V c main_v1_1) (V c main_v1_0) (V c main_arg4) (fun q => V c main_v2 (ix2 (0 : Fin 1) q)) (((cfg1.win 4).blk t).view.emb (ix2 p q))
  rw [emb1_4 t p q]
  by_cases hz : t.val = 0
  · rw [o1_4_zero V c t hz, out1_Z_4_eq]
    exact blk1_4 V c t _ (fun n q => h1_apply V c t n q) p q
  · rw [o1_4_pos V c t hz, out1_N_4_eq]
    refine blk1_4 V c t _ (fun n q => ?_) p q
    unfold S1; rw [sout1_Z_eq]
    exact h1_apply V c t0_1 n q

/-- After the region the output array holds the second layer. -/
theorem final1_4 (c : Dev nD) :
    (dat1 (F := Ideal) V c).arrAt 4 cfg1.N = layer (V c main_v1_1) (V c main_v1_0) (V c main_arg4) (fun q => V c main_v2 (ix2 (0 : Fin 1) q)) :=
  (dat1 V c).arrAt_eq_of_cover 4 _ (fun t _ => flushed1_4_eq V c t) blocks_cover1_4

end R1

end Cert.KernelIdeal.Val

end
-- ==== Proof.KISlices.lean ====
/-
  The slices the third kernel's body loads, read at an index: the point's 80 rows of a `[10000, 32]` array are the
  array's rows `80 t … 80 t + 79` at grid point `t`, and the three bands of the `[96, 40]` weights are its rows
  `0 … 31`, `32 … 63` and `64 … 95`.  Stated for every float model: these are facts about indices only.
-/
import proofs.«117827_g33741263077612_cont_sun_m_882_2_alg».proof.Proof.KIPieces
import proofs.«117827_g33741263077612_cont_sun_m_882_2_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

/-- The row offset of the third kernel's block at grid point `t` is `80 t`, its column offset `0`: decided over the grid. -/
theorem k2_off1_grid : ∀ t : Fin cfg2.N, k2_off1 (grid2.coords t) 0 = 80 * t.val ∧ k2_off1 (grid2.coords t) 1 = 0 :=
  (by decide +kernel : ∀ t : Fin grid2.N, k2_off1 (grid2.coords t) 0 = 80 * t.val ∧ k2_off1 (grid2.coords t) 1 = 0)

/-- Row `p` of the point's 80 rows of a `[10000, 32]` array is the array's row `80 t + p`. -/
theorem rows2_apply (t : Fin cfg2.N) (X : Vec F S10000x32 .f32) (p : Fin 80) (q : Fin 32) (h : 80 * t.val + p.val < 10000) :
    rows2 (grid2.coords t) X (ix2 p q) = X (ix2 (⟨80 * t.val + p.val, h⟩ : Fin 10000) q) := by
  show X ((Rect.unit (s := S10000x32) (k2_off1 (grid2.coords t)) S80x32.size (k2_off1_inb (grid2.coords t))).idx (ix2 p q)) = _
  refine congrArg X (funext fun a => Fin.ext ?_)
  have ho := k2_off1_grid t
  match a with
  | ⟨0, _⟩ =>
    show k2_off1 (grid2.coords t) 0 + 1 * p.val = 80 * t.val + p.val
    rw [ho.1, Nat.one_mul]
  | ⟨1, _⟩ =>
    show k2_off1 (grid2.coords t) 1 + 1 * q.val = q.val
    rw [ho.2, Nat.one_mul, Nat.zero_add]

/-- Row `r` of the first band of the `[96, 40]` weights is the weights' row `r`. -/
theorem band2_0_apply (W : Vec F S96x40 .f32) (r : Fin 32) (j : Fin 40) :
    band2_0 W (ix2 r j) = W (ix2 (Cert.Spec.lo r) j) := by
  show W ((Rect.unit (s := S96x40) ![0, 0] S32x40.size inb_S96x40_S32x40_0_0).idx (ix2 r j)) = _
  refine congrArg W (funext fun a => Fin.ext ?_)
  match a with
  | ⟨0, _⟩ => show 0 + 1 * r.val = r.val; omega
  | ⟨1, _⟩ => show 0 + 1 * j.val = j.val; omega

/-- Row `r` of the second band is the weights' row `32 + r`. -/
theorem band2_32_apply (W : Vec F S96x40 .f32) (r : Fin 32) (j : Fin 40) :
    band2_32 W (ix2 r j) = W (ix2 (Cert.Spec.mid r) j) := by
  show W ((Rect.unit (s := S96x40) ![32, 0] S32x40.size inb_S96x40_S32x40_32_0).idx (ix2 r j)) = _
  refine congrArg W (funext fun a => Fin.ext ?_)
  match a with
  | ⟨0, _⟩ => show 32 + 1 * r.val = 32 + r.val; omega
  | ⟨1, _⟩ => show 0 + 1 * j.val = j.val; omega

/-- Row `r` of the third band is the weights' row `64 + r`. -/
theorem band2_64_apply (W : Vec F S96x40 .f32) (r : Fin 32) (j : Fin 40) :
    band2_64 W (ix2 r j) = W (ix2 (Cert.Spec.hi r) j) := by
  show W ((Rect.unit (s := S96x40) ![64, 0] S32x40.size inb_S96x40_S32x40_64_0).idx (ix2 r j)) = _
  refine congrArg W (funext fun a => Fin.ext ?_)
  match a with
  | ⟨0, _⟩ => show 64 + 1 * r.val = 64 + r.val; omega
  | ⟨1, _⟩ => show 0 + 1 * j.val = j.val; omega

end Cert.KernelIdeal.Hand

end
-- ==== Proof.KIVal2.lean ====
/-
  What the third region leaves in its output array, at the exact extended reals: row block by row block, the classifier
  head — the third graph convolution A · (X₂ · W₃) + b₃ (not rectified), the dense layer on the three layers' features
  side by side (each layer's rows against its band of the weights), and the row-wise log-softmax relative to the row's
  largest logit.  The product X₂ · W₃ is computed once into the scratch buffer at the first grid point.
-/
import proofs.«117827_g33741263077612_cont_sun_m_882_2_alg».proof.Proof.KIBlocks
import proofs.«117827_g33741263077612_cont_sun_m_882_2_alg».proof.Proof.KIPieces
import proofs.«117827_g33741263077612_cont_sun_m_882_2_alg».proof.Proof.KISlices
import proofs.«117827_g33741263077612_cont_sun_m_882_2_alg».proof.Proof.PayIdx
import proofs.«117827_g33741263077612_cont_sun_m_882_2_alg».proof.Proof.ValDefs
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.KernelIdeal.PayIdx
open Idealize.ShloMosaic Idealize.ShloMosaic.TcCoe Idealize.ShloMosaic.ValueIdx
open Idealize.SL Idealize.SL.Sem
open Idealize.ShloMosaic.Pipeline (Dat Cfg Window)

open Cert.Val

section R2
variable (V : (c : Dev nD) → (b : Ref sig .tc) → Buf (Elt Ideal) ((c : Thread nD τ).loc b))

/-- The second layer's features and the third convolution's weights as the region finds them, as arrays of extended reals. -/
abbrev arrX2 (c : Dev nD) : FVec Ideal S10000x32 .f32 := V c main_v3
abbrev arrW3 (c : Dev nD) : FVec Ideal S32x32 .f32 := V c main_arg6

/-- The scratch's product, read at an entry, whichever point's windows it is read through. -/
theorem h2_apply (c : Dev nD) (t' : Fin cfg2.N) (n : Fin 10000) (q : Fin 32) :
    k2_pay2 (F := Ideal) (iblk2 V c 2 t') (iblk2 V c 3 t') (ix2 n q) = ∑ l : Fin 32, arrX2 V c (ix2 n l) * arrW3 V c (ix2 l q) :=
  (k2_pay2_apply (iblk2 V c 2 t') (iblk2 V c 3 t') n q).trans
    (Finset.sum_congr rfl fun l _ => congrArg₂ (fun (a b : EReal) => a * b) (iblk2_2_apply V c t' n l) (iblk2_3_apply V c t' l q))

/-- The logits the body computes at point `t`, given the scratch's contents entry by entry: row `80 t + p` of the
    head's logits. -/
theorem logits2 (c : Dev nD) (t : Fin cfg2.N) (xs : FVec Ideal S10000x32 .bf16)
    (hxs : ∀ n q, xs (ix2 n q) = ∑ l : Fin 32, arrX2 V c (ix2 n l) * arrW3 V c (ix2 l q)) (p : Fin 80) (j : Fin 40) :
    k2_pay3 (F := Ideal) (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t) (ix2 p j)
      = headLogits (V c main_v1_1) (V c main_v1_0) (V c main_v3) (V c main_arg6) (fun k => V c main_v4 (ix2 (0 : Fin 1) k)) (V c main_arg8) (fun j => V c main_v5 (ix2 (0 : Fin 1) j)) (rowAt t.val (tlt2 t) p) j := by
  refine (k2_pay3_apply (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t) p j).trans ?_
  refine Eq.trans ?_ (headLogits_apply (V c main_v1_1) (V c main_v1_0) (V c main_v3) (V c main_arg6) (fun k => V c main_v4 (ix2 (0 : Fin 1) k)) (V c main_arg8) (fun j => V c main_v5 (ix2 (0 : Fin 1) j)) (rowAt t.val (tlt2 t) p) j).symm
  refine congrArg₂ (fun (a b : EReal) => a + b) (congrArg₂ (fun (a b : EReal) => a + b) (congrArg₂ (fun (a b : EReal) => a + b) ?_ ?_) ?_) (iblk2_6_apply V c t 0 j)
  · exact Finset.sum_congr rfl fun k _ => congrArg₂ (fun (a b : EReal) => a * b)
      ((rows2_apply t (iblk2 V c 1 t) p k (rowAt t.val (tlt2 t) p).isLt).trans (iblk2_1_apply V c t (rowAt t.val (tlt2 t) p) k))
      ((band2_0_apply (iblk2 V c 5 t) k j).trans (iblk2_5_apply V c t (Cert.Spec.lo k) j))
  · exact Finset.sum_congr rfl fun k _ => congrArg₂ (fun (a b : EReal) => a * b)
      ((rows2_apply t (iblk2 V c 2 t) p k (rowAt t.val (tlt2 t) p).isLt).trans (iblk2_2_apply V c t (rowAt t.val (tlt2 t) p) k))
      ((band2_32_apply (iblk2 V c 5 t) k j).trans (iblk2_5_apply V c t (Cert.Spec.mid k) j))
  · exact Finset.sum_congr rfl fun k _ => congrArg₂ (fun (a b : EReal) => a * b)
      (congrArg₂ (fun (a b : EReal) => a + b) (Finset.sum_congr rfl fun n _ => congrArg₂ (fun (a b : EReal) => a * b) (iblk2_0_apply V c t p n) (hxs n k)) (iblk2_4_apply V c t 0 k))
      ((band2_64_apply (iblk2 V c 5 t) k j).trans (iblk2_5_apply V c t (Cert.Spec.hi k) j))

/-- A row block of the head, given the scratch's contents entry by entry: the log-softmax of the logits relative to
    their row maximum. -/
theorem blk2_7 (c : Dev nD) (t : Fin cfg2.N) (xs : FVec Ideal S10000x32 .bf16)
    (hxs : ∀ n q, xs (ix2 n q) = ∑ l : Fin 32, arrX2 V c (ix2 n l) * arrW3 V c (ix2 l q)) (p : Fin 80) (j : Fin 40) :
    k2_pay1 (F := Ideal) (k2_pay3 (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t)) (k2_pay4 (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t)) (ix2 p j)
      = head (V c main_v1_1) (V c main_v1_0) (V c main_v3) (V c main_arg6) (fun k => V c main_v4 (ix2 (0 : Fin 1) k)) (V c main_arg8) (fun j => V c main_v5 (ix2 (0 : Fin 1) j)) (ix2 (rowAt t.val (tlt2 t) p) j) := by
  have hL : ∀ j' : Fin 40, k2_pay3 (F := Ideal) (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t) (ix2 p j')
      = headLogits (V c main_v1_1) (V c main_v1_0) (V c main_v3) (V c main_arg6) (fun k => V c main_v4 (ix2 (0 : Fin 1) k)) (V c main_arg8) (fun j => V c main_v5 (ix2 (0 : Fin 1) j)) (rowAt t.val (tlt2 t) p) j' := fun j' => logits2 V c t xs hxs p j'
  have hM : k2_pay4 (F := Ideal) (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t) (ix2 p (0 : Fin 1))
      = Finset.univ.sup (headLogits (V c main_v1_1) (V c main_v1_0) (V c main_v3) (V c main_arg6) (fun k => V c main_v4 (ix2 (0 : Fin 1) k)) (V c main_arg8) (fun j => V c main_v5 (ix2 (0 : Fin 1) j)) (rowAt t.val (tlt2 t) p)) :=
    (k2_pay4_apply (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t) p).trans (congrArg (fun f : Fin 40 → EReal => Finset.univ.sup f) (funext hL))
  refine (k2_pay1_apply (k2_pay3 (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t)) (k2_pay4 (iblk2 V c 0 t) xs (iblk2 V c 4 t) (rows2 (grid2.coords t) (iblk2 V c 1 t)) (rows2 (grid2.coords t) (iblk2 V c 2 t)) (band2_0 (iblk2 V c 5 t)) (band2_32 (iblk2 V c 5 t)) (band2_64 (iblk2 V c 5 t)) (iblk2 V c 6 t)) p j).trans ?_
  refine Eq.trans ?_ (head_apply (V c main_v1_1) (V c main_v1_0) (V c main_v3) (V c main_arg6) (fun k => V c main_v4 (ix2 (0 : Fin 1) k)) (V c main_arg8) (fun j => V c main_v5 (ix2 (0 : Fin 1) j)) (rowAt t.val (tlt2 t) p) j).symm
  exact congrArg₂ (fun (a b : EReal) => a - b) (congrArg₂ (fun (a b : EReal) => a - b) (hL j) hM)
    (congrArg Ideal.log (Finset.sum_congr rfl fun j' _ => congrArg Ideal.exp (congrArg₂ (fun (a b : EReal) => a - b) (hL j') hM)))

/-- What point `t` writes back through the output window is block `t` of the head. -/
theorem flushed2_7_eq (c : Dev nD) (t : Fin cfg2.N) :
    (dat2 (F := Ideal) V c).flushed 7 t
      = ((cfg2.win 7).blk t).view.read (Elt Ideal) (head (V c main_v1_1) (V c main_v1_0) (V c main_v3) (V c main_arg6) (fun k => V c main_v4 (ix2 (0 : Fin 1) k)) (V c main_arg8) (fun j => V c main_v5 (ix2 (0 : Fin 1) j))) := by
  show (cfg2.win 7).cut (grid2.coords t) ((dat2 V c).after 7 t) = _
  rw [after2_7]
  funext y
  obtain ⟨p, q, rfl⟩ : ∃ (p : Fin 80) (q : Fin 40), y = ix2 p q := ⟨y 0, y 1, eq_ix2 y⟩
  show o2_7 V c t (ix2 p q) = head (V c main_v1_1) (V c main_v1_0) (V c main_v3) (V c main_arg6) (fun k => V c main_v4 (ix2 (0 : Fin 1) k)) (V c main_arg8) (fun j => V c main_v5 (ix2 (0 : Fin 1) j)) (((cfg2.win 7).blk t).view.emb (ix2 p q))
  rw [emb2_7 t p q]
  by_cases hz : t.val = 0
  · rw [o2_7_zero V c t hz, out2_Z_7_eq]
    exact blk2_7 V c t _ (fun n q => h2_apply V c t n q) p q
  · rw [o2_7_pos V c t hz, out2_N_7_eq]
    refine blk2_7 V c t _ (fun n q => ?_) p q
    unfold S2; rw [sout2_Z_eq]
    exact h2_apply V c t0_2 n q

/-- After the region the output array holds the head. -/
theorem final2_7 (c : Dev nD) :
    (dat2 (F := Ideal) V c).arrAt 7 cfg2.N = Cert.Val.head (V c main_v1_1) (V c main_v1_0) (V c main_v3) (V c main_arg6) (fun k => V c main_v4 (ix2 (0 : Fin 1) k)) (V c main_arg8) (fun j => V c main_v5 (ix2 (0 : Fin 1) j)) :=
  (dat2 V c).arrAt_eq_of_cover 7 _ (fun t _ => flushed2_7_eq V c t) blocks_cover2_7

end R2

end Cert.KernelIdeal.Val

end
-- ==== Proof.KIChain.lean ====
/-
  The three regions composed.  Each region's output array is a whole-array function of the arrays the region finds; the
  arrays a later region finds are the launch contents of the arguments, a bias vector laid out as one row by a host
  reshape, and the earlier regions' outputs (no host operation and no region in between changes them).  Substituting
  stage into stage, the last output array is the specification's function of the ten argument arrays.
-/
import proofs.«117827_g33741263077612_cont_sun_m_882_2_alg».proof.Proof.KIVal0
import proofs.«117827_g33741263077612_cont_sun_m_882_2_alg».proof.Proof.KIVal1
import proofs.«117827_g33741263077612_cont_sun_m_882_2_alg».proof.Proof.KIVal2
import proofs.«117827_g33741263077612_cont_sun_m_882_2_alg».proof.Proof.KIKeep
import proofs.«117827_g33741263077612_cont_sun_m_882_2_alg».proof.Proof.ValDefs
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Cert.KernelIdeal.PayIdx
open Idealize.ShloMosaic Idealize.ShloMosaic.TcCoe Idealize.ShloMosaic.ValueIdx
open Idealize.SL Idealize.SL.Sem
open Idealize.ShloMosaic.Pipeline (Dat Cfg Window)

open Cert.Val

variable (m : (ℓ : Loc nD τ sig) → Buf (Elt Ideal) ℓ) (ρ : Dev nD → PrngReg)

theorem layer_congr {k : ℕ} {A A' : (⟨2, ![10000, 10000]⟩ : Shape).Idx → EReal} {X X' : (⟨2, ![10000, k]⟩ : Shape).Idx → EReal}
    {W W' : (⟨2, ![k, 32]⟩ : Shape).Idx → EReal} {b b' : Fin 32 → EReal} (hA : A = A') (hX : X = X') (hW : W = W') (hb : ∀ q, b q = b' q) :
    layer A X W b = layer A' X' W' b' := by
  obtain rfl := hA; obtain rfl := hX; obtain rfl := hW; obtain rfl := funext hb; rfl

/-- A vector reshaped to one row reads, at column `q`, its entry `q`. -/
theorem row_apply {n : ℕ} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-! ## The bias rows the host lays out -/

theorem v0_row (c : Dev nD) (q : Fin 32) : W1 m ρ c (Proc.devRef .tc main_v0) (ix2 (0 : Fin 1) q) = (m ((c : Thread nD τ).loc main_arg3)) (ix1 q) := by
  have e : W1 m ρ c (Proc.devRef .tc main_v0) = fun i => shapeCast S1x32 (W0 m ρ c (Proc.devRef .tc main_arg3)) shapeCasts_S32_S1x32 i := by
    show StableHlo.after hostOps0 (W0 m ρ c) (Proc.devRef .tc main_v0) = _
    after_results; rfl
  rw [e]; exact row_apply _ _ q
theorem v2_row (c : Dev nD) (q : Fin 32) : W3 m ρ c (Proc.devRef .tc main_v2) (ix2 (0 : Fin 1) q) = (m ((c : Thread nD τ).loc main_arg5)) (ix1 q) := by
  have e : W3 m ρ c (Proc.devRef .tc main_v2) = fun i => shapeCast S1x32 (W2 m ρ c (Proc.devRef .tc main_arg5)) shapeCasts_S32_S1x32 i := by
    show StableHlo.after hostOps1 (W2 m ρ c) (Proc.devRef .tc main_v2) = _
    after_results; rfl
  rw [e, (W2_of_ne m ρ c main_arg5 (by decide)).trans ((StableHlo.after_of_writes_sub hostOps0 (W0 m ρ c) hostOps0_writes (by decide) : W1 m ρ c (Proc.devRef .tc main_arg5) = W0 m ρ c (Proc.devRef .tc main_arg5)))]; exact row_apply _ _ q
theorem v4_row (c : Dev nD) (q : Fin 32) : W5 m ρ c (Proc.devRef .tc main_v4) (ix2 (0 : Fin 1) q) = (m ((c : Thread nD τ).loc main_arg7)) (ix1 q) := by
  have e : W5 m ρ c (Proc.devRef .tc main_v4) = fun i => shapeCast S1x32 (W4 m ρ c (Proc.devRef .tc main_arg7)) shapeCasts_S32_S1x32 i := by
    show StableHlo.after hostOps2 (W4 m ρ c) (Proc.devRef .tc main_v4) = _
    after_results; rfl
  rw [e, (W4_of_ne m ρ c main_arg7 (by decide)).trans ((StableHlo.after_of_writes_sub hostOps1 (W2 m ρ c) hostOps1_writes (by decide) : W3 m ρ c (Proc.devRef .tc main_arg7) = W2 m ρ c (Proc.devRef .tc main_arg7)).trans ((W2_of_ne m ρ c main_arg7 (by decide)).trans ((StableHlo.after_of_writes_sub hostOps0 (W0 m ρ c) hostOps0_writes (by decide) : W1 m ρ c (Proc.devRef .tc main_arg7) = W0 m ρ c (Proc.devRef .tc main_arg7)))))]; exact row_apply _ _ q
theorem v5_row (c : Dev nD) (q : Fin 40) : W5 m ρ c (Proc.devRef .tc main_v5) (ix2 (0 : Fin 1) q) = (m ((c : Thread nD τ).loc main_arg9)) (ix1 q) := by
  have e : W5 m ρ c (Proc.devRef .tc main_v5) = fun i => shapeCast S1x40 (W4 m ρ c (Proc.devRef .tc main_arg9)) shapeCasts_S40_S1x40 i := by
    show StableHlo.after hostOps2 (W4 m ρ c) (Proc.devRef .tc main_v5) = _
    after_results; rfl
  rw [e, (W4_of_ne m ρ c main_arg9 (by decide)).trans ((StableHlo.after_of_writes_sub hostOps1 (W2 m ρ c) hostOps1_writes (by decide) : W3 m ρ c (Proc.devRef .tc main_arg9) = W2 m ρ c (Proc.devRef .tc main_arg9)).trans ((W2_of_ne m ρ c main_arg9 (by decide)).trans ((StableHlo.after_of_writes_sub hostOps0 (W0 m ρ c) hostOps0_writes (by decide) : W1 m ρ c (Proc.devRef .tc main_arg9) = W0 m ρ c (Proc.devRef .tc main_arg9)))))]; exact row_apply _ _ q

/-! ## The regions' outputs -/

/-- The first layer's features, of the argument arrays. -/
abbrev X1A (c : Dev nD) : (⟨2, ![10000, 32]⟩ : Shape).Idx → EReal :=
  layer (m ((c : Thread nD τ).loc main_arg1)) (m ((c : Thread nD τ).loc main_arg0)) (m ((c : Thread nD τ).loc main_arg2)) (Cert.Spec.m1 (m ((c : Thread nD τ).loc main_arg3)))
/-- The second layer's. -/
abbrev X2A (c : Dev nD) : (⟨2, ![10000, 32]⟩ : Shape).Idx → EReal :=
  layer (m ((c : Thread nD τ).loc main_arg1)) (X1A m c) (m ((c : Thread nD τ).loc main_arg4)) (Cert.Spec.m1 (m ((c : Thread nD τ).loc main_arg5)))

theorem x1_eq (c : Dev nD) : W2 m ρ c (Proc.devRef .tc main_v1_0) = X1A m c :=
  ((W2_arr m ρ c 4).trans (final0_4 (V1 m ρ) c)).trans
    (layer_congr ((StableHlo.after_of_writes_sub hostOps0 (W0 m ρ c) hostOps0_writes (by decide) : W1 m ρ c (Proc.devRef .tc main_arg1) = W0 m ρ c (Proc.devRef .tc main_arg1))) ((StableHlo.after_of_writes_sub hostOps0 (W0 m ρ c) hostOps0_writes (by decide) : W1 m ρ c (Proc.devRef .tc main_arg0) = W0 m ρ c (Proc.devRef .tc main_arg0))) ((StableHlo.after_of_writes_sub hostOps0 (W0 m ρ c) hostOps0_writes (by decide) : W1 m ρ c (Proc.devRef .tc main_arg2) = W0 m ρ c (Proc.devRef .tc main_arg2))) (fun q => v0_row m ρ c q))

theorem adjh_eq (c : Dev nD) : W2 m ρ c (Proc.devRef .tc main_v1_1) = (m ((c : Thread nD τ).loc main_arg1)) :=
  ((W2_arr m ρ c 5).trans (final0_5 (V1 m ρ) c)).trans ((StableHlo.after_of_writes_sub hostOps0 (W0 m ρ c) hostOps0_writes (by decide) : W1 m ρ c (Proc.devRef .tc main_arg1) = W0 m ρ c (Proc.devRef .tc main_arg1)))

theorem x2_eq (c : Dev nD) : W4 m ρ c (Proc.devRef .tc main_v3) = X2A m c :=
  ((W4_arr m ρ c 4).trans (final1_4 (V3 m ρ) c)).trans
    (layer_congr (((StableHlo.after_of_writes_sub hostOps1 (W2 m ρ c) hostOps1_writes (by decide) : W3 m ρ c (Proc.devRef .tc main_v1_1) = W2 m ρ c (Proc.devRef .tc main_v1_1))).trans (adjh_eq m ρ c)) (((StableHlo.after_of_writes_sub hostOps1 (W2 m ρ c) hostOps1_writes (by decide) : W3 m ρ c (Proc.devRef .tc main_v1_0) = W2 m ρ c (Proc.devRef .tc main_v1_0))).trans (x1_eq m ρ c)) ((StableHlo.after_of_writes_sub hostOps1 (W2 m ρ c) hostOps1_writes (by decide) : W3 m ρ c (Proc.devRef .tc main_arg4) = W2 m ρ c (Proc.devRef .tc main_arg4)).trans ((W2_of_ne m ρ c main_arg4 (by decide)).trans ((StableHlo.after_of_writes_sub hostOps0 (W0 m ρ c) hostOps0_writes (by decide) : W1 m ρ c (Proc.devRef .tc main_arg4) = W0 m ρ c (Proc.devRef .tc main_arg4))))) (fun q => v2_row m ρ c q))

theorem head_congr {A A' : (⟨2, ![10000, 10000]⟩ : Shape).Idx → EReal} {X1 X1' X2 X2' : (⟨2, ![10000, 32]⟩ : Shape).Idx → EReal}
    {W3 W3' : (⟨2, ![32, 32]⟩ : Shape).Idx → EReal} {b3 b3' : Fin 32 → EReal} {Wl Wl' : (⟨2, ![96, 40]⟩ : Shape).Idx → EReal} {bl bl' : Fin 40 → EReal}
    (hA : A = A') (h1 : X1 = X1') (h2 : X2 = X2') (hW : W3 = W3') (hb : ∀ q, b3 q = b3' q) (hWl : Wl = Wl') (hbl : ∀ q, bl q = bl' q) :
    head A X1 X2 W3 b3 Wl bl = head A' X1' X2' W3' b3' Wl' bl' := by
  obtain rfl := hA; obtain rfl := h1; obtain rfl := h2; obtain rfl := hW; obtain rfl := funext hb; obtain rfl := hWl; obtain rfl := funext hbl; rfl

/-- THE RESULT ARRAY at the end of the run is the specification's function of the argument arrays. -/
theorem out_eq (c : Dev nD) :
    W6 m ρ c (Proc.devRef .tc main_v6)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (((W6_arr m ρ c 7).trans (final2_7 (V5 m ρ) c)).trans
    (head_congr (((StableHlo.after_of_writes_sub hostOps2 (W4 m ρ c) hostOps2_writes (by decide) : W5 m ρ c (Proc.devRef .tc main_v1_1) = W4 m ρ c (Proc.devRef .tc main_v1_1)).trans (((W4_arr m ρ c 0).trans (((dat1 (V3 m ρ) c).arrAt_in 0 rfl _).trans (A_eq1 (V3 m ρ) c 0))).trans ((StableHlo.after_of_writes_sub hostOps1 (W2 m ρ c) hostOps1_writes (by decide) : W3 m ρ c (Proc.devRef .tc main_v1_1) = W2 m ρ c (Proc.devRef .tc main_v1_1))))).trans (adjh_eq m ρ c)) (((StableHlo.after_of_writes_sub hostOps2 (W4 m ρ c) hostOps2_writes (by decide) : W5 m ρ c (Proc.devRef .tc main_v1_0) = W4 m ρ c (Proc.devRef .tc main_v1_0)).trans (((W4_arr m ρ c 1).trans (((dat1 (V3 m ρ) c).arrAt_in 1 rfl _).trans (A_eq1 (V3 m ρ) c 1))).trans ((StableHlo.after_of_writes_sub hostOps1 (W2 m ρ c) hostOps1_writes (by decide) : W3 m ρ c (Proc.devRef .tc main_v1_0) = W2 m ρ c (Proc.devRef .tc main_v1_0))))).trans (x1_eq m ρ c))
      (((StableHlo.after_of_writes_sub hostOps2 (W4 m ρ c) hostOps2_writes (by decide) : W5 m ρ c (Proc.devRef .tc main_v3) = W4 m ρ c (Proc.devRef .tc main_v3))).trans (x2_eq m ρ c)) ((StableHlo.after_of_writes_sub hostOps2 (W4 m ρ c) hostOps2_writes (by decide) : W5 m ρ c (Proc.devRef .tc main_arg6) = W4 m ρ c (Proc.devRef .tc main_arg6)).trans ((W4_of_ne m ρ c main_arg6 (by decide)).trans ((StableHlo.after_of_writes_sub hostOps1 (W2 m ρ c) hostOps1_writes (by decide) : W3 m ρ c (Proc.devRef .tc main_arg6) = W2 m ρ c (Proc.devRef .tc main_arg6)).trans ((W2_of_ne m ρ c main_arg6 (by decide)).trans ((StableHlo.after_of_writes_sub hostOps0 (W0 m ρ c) hostOps0_writes (by decide) : W1 m ρ c (Proc.devRef .tc main_arg6) = W0 m ρ c (Proc.devRef .tc main_arg6))))))) (fun q => v4_row m ρ c q) ((StableHlo.after_of_writes_sub hostOps2 (W4 m ρ c) hostOps2_writes (by decide) : W5 m ρ c (Proc.devRef .tc main_arg8) = W4 m ρ c (Proc.devRef .tc main_arg8)).trans ((W4_of_ne m ρ c main_arg8 (by decide)).trans ((StableHlo.after_of_writes_sub hostOps1 (W2 m ρ c) hostOps1_writes (by decide) : W3 m ρ c (Proc.devRef .tc main_arg8) = W2 m ρ c (Proc.devRef .tc main_arg8)).trans ((W2_of_ne m ρ c main_arg8 (by decide)).trans ((StableHlo.after_of_writes_sub hostOps0 (W0 m ρ c) hostOps0_writes (by decide) : W1 m ρ c (Proc.devRef .tc main_arg8) = W0 m ρ c (Proc.devRef .tc main_arg8))))))) (fun q => v5_row m ρ c q))).trans
    (Cert.Val.compose _ _ _ _ _ _ _ _ _ _)

end Cert.KernelIdeal.Val

end
-- ==== Proof.LibNary3.lean ====
/-
  A host operation over a literal family of THREE operands (a concatenation of three arrays), read at its result
  buffer: the operation's function applied to each operand's contents at its own reference.  With the contents listed
  one by one, rather than as a function of the operand's position, the operands' contents can go on being rewritten
  when a fold of operations is read at a buffer in one pass.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of a three-operand operation at its own buffer: its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form a simplification pass matches (the result reference not indexed). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Reads a fold of host operations at a buffer in one pass, going through three-operand operations. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Cert.LibNary3

end
-- ==== Proof.LibAffine.lean ====
import Idealize.ShloMosaic.Lib.ValueIdx
import Idealize.ShloMosaic.Lib.Pipeline.Value
import Idealize.ShloMosaic.Lib.KernelVsHost
import Idealize.ShloMosaic.PureOps.Ideal.Laws

/-!
# An affine layer and a biased rectifier, row by row, at the exact extended reals

For a matrix `X` of `m` rows and `k` columns, a matrix `W` of `k` rows and `n` columns and a one-row matrix `Y`
of `n` entries, the affine layer is `(r, j) ↦ (∑ c, X (r, c) · W (c, j)) + Y (0, j)`; the biased rectifier is
`(r, j) ↦ max (X (r, j) + Y (0, j)) 0`.  Both are stated here as functions of whole arrays, together with their
spellings by the host's operations (a contraction, a broadcast of the row along both axes, a sum, a maximum with the
zero array), and with the fact that adding the zero row changes nothing: `x + 0 = x` for every extended real, the
infinities included.
-/

noncomputable section

namespace Cert.LibAffine

open Idealize.ShloMosaic Idealize.ShloMosaic.ValueIdx

variable {m k n : ℕ}

/-- The host's contraction of the second axis of `A` with the first of `B`, read at `(a, b)`: the sum over the
    contracted coordinate of the products of the entries. -/
theorem hostDot_plain_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The affine layer: row `r` of `X` against column `j` of `W`, plus entry `j` of the row `Y`. -/
def affine (X : (⟨2, ![m, k]⟩ : Shape).Idx → EReal) (W : (⟨2, ![k, n]⟩ : Shape).Idx → EReal)
    (Y : (⟨2, ![1, n]⟩ : Shape).Idx → EReal) : (⟨2, ![m, n]⟩ : Shape).Idx → EReal :=
  fun i => (∑ c : Fin k, X (ix2 (i 0) c) * W (ix2 c (i 1))) + Y (ix2 (0 : Fin 1) (i 1))

theorem affine_apply (X : (⟨2, ![m, k]⟩ : Shape).Idx → EReal) (W : (⟨2, ![k, n]⟩ : Shape).Idx → EReal)
    (Y : (⟨2, ![1, n]⟩ : Shape).Idx → EReal) (p : Fin m) (q : Fin n) :
    affine X W Y (ix2 p q) = (∑ c : Fin k, X (ix2 p c) * W (ix2 c q)) + Y (ix2 (0 : Fin 1) q) := rfl

/-- The biased rectifier: entry `(r, j)` of `X` plus entry `j` of the row `Y`, or zero if that is larger. -/
def biasRelu (X : (⟨2, ![m, n]⟩ : Shape).Idx → EReal) (Y : (⟨2, ![1, n]⟩ : Shape).Idx → EReal) :
    (⟨2, ![m, n]⟩ : Shape).Idx → EReal :=
  fun i => max (X i + Y (ix2 (0 : Fin 1) (i 1))) 0

theorem biasRelu_apply (X : (⟨2, ![m, n]⟩ : Shape).Idx → EReal) (Y : (⟨2, ![1, n]⟩ : Shape).Idx → EReal)
    (p : Fin m) (q : Fin n) : biasRelu X Y (ix2 p q) = max (X (ix2 p q) + Y (ix2 (0 : Fin 1) q)) 0 := rfl

/-- The affine layer in the host's spelling: the contraction, plus the row laid down every row. -/
theorem affine_eq_host
    (w : DotDims.WF ⟨2, ![m, k]⟩ ⟨2, ![k, n]⟩ ⟨2, ![m, n]⟩ [1] [0] [0] [1] [] [])
    (prec : Option ContractPrecision)
    (hd : (⟨2, ![1, n]⟩ : Shape).BroadcastsInDim ⟨2, ![m, n]⟩ ![0, 1])
    (X : FVec Ideal ⟨2, ![m, k]⟩ .f32) (W : FVec Ideal ⟨2, ![k, n]⟩ .f32) (Y : FVec Ideal ⟨2, ![1, n]⟩ .f32) :
    affine X W Y
      = addf (Host.dotGeneral (⟨[1], [0], [0], [1], [], [], w⟩ : DotDims _ _ _) prec X W)
          (broadcastInDim ⟨2, ![m, n]⟩ ![0, 1] hd Y) := by
  funext i
  obtain ⟨p, q, rfl⟩ : ∃ (p : Fin m) (q : Fin n), i = ix2 p q := ⟨i 0, i 1, eq_ix2 i⟩
  show _ = FloatOps.addf (Host.dotGeneral _ prec X W (ix2 p q)) (broadcastInDim _ ![0, 1] hd Y (ix2 p q))
  rw [hostDot_plain_apply, broadcastInDim_oneRow_apply]
  rfl

/-- The zero row adds nothing: the affine layer with the zero row is the contraction alone. -/
theorem affine_zero_eq_host
    (w : DotDims.WF ⟨2, ![m, k]⟩ ⟨2, ![k, n]⟩ ⟨2, ![m, n]⟩ [1] [0] [0] [1] [] [])
    (prec : Option ContractPrecision)
    (X : FVec Ideal ⟨2, ![m, k]⟩ .f32) (W : FVec Ideal ⟨2, ![k, n]⟩ .f32) (Y : FVec Ideal ⟨2, ![1, n]⟩ .f32)
    (hY : ∀ j, Y j = 0) :
    affine X W Y = Host.dotGeneral (⟨[1], [0], [0], [1], [], [], w⟩ : DotDims _ _ _) prec X W := by
  funext i
  obtain ⟨p, q, rfl⟩ : ∃ (p : Fin m) (q : Fin n), i = ix2 p q := ⟨i 0, i 1, eq_ix2 i⟩
  rw [hostDot_plain_apply, affine_apply, hY, add_zero]

/-- The biased rectifier in the host's spelling: the sum with the row laid down every row, then the maximum with the
    zero array. -/
theorem biasRelu_eq_host
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (Y : FVec Ideal ⟨2, ![1, n]⟩ .f32) :
    biasRelu X Y
      = maximumf (addf X (broadcastInDim ⟨2, ![m, n]⟩ ![0, 1] hd Y))
          (broadcastInDim ⟨2, ![m, n]⟩ ![] hz (constant ⟨0, ![]⟩ .f32 0x00000000#32)) := by
  funext i
  obtain ⟨p, q, rfl⟩ : ∃ (p : Fin m) (q : Fin n), i = ix2 p q := ⟨i 0, i 1, eq_ix2 i⟩
  show _ = FloatOps.maximumf (FloatOps.addf (X (ix2 p q)) (broadcastInDim _ ![0, 1] hd Y (ix2 p q)))
    (broadcastInDim _ ![] hz (constant ⟨0, ![]⟩ .f32 0x00000000#32) (ix2 p q))
  rw [broadcastInDim_oneRow_apply, broadcastInDim_apply ![] hz _ (ix2 p q) ix0 (fun a => a.elim0)]
  show _ = max (X (ix2 p q) + Y (ix2 (0 : Fin 1) q)) (Ideal.ofBits .f32 0x00000000#32)
  rw [Ideal.ofBits_zero_f32]
  rfl

end Cert.LibAffine

end
-- ==== Proof.RefSide.lean ====
/-
  The reference program's result as a function of its ten argument arrays.  The 41 host operations are read in six
  stages — the three graph-convolution layers, the three layers' features laid side by side, the classifier, and the
  row-wise log-softmax — each stage a small function of the arrays it reads, in the host's spelling; the stages are then
  read index by index: a contraction is a sum over the contracted coordinate, a vector laid along every row is its
  entry, the concatenation along the columns splits the classifier's sum into the three bands of its weight matrix,
  the maximum with minus infinity changes nothing, and the sum from the zero word is the plain sum.
-/
import proofs.«117827_g33741263077612_cont_sun_m_882_2_alg».proof.Proof.RefRun
import proofs.«117827_g33741263077612_cont_sun_m_882_2_alg».proof.Proof.LibNary3
import proofs.«117827_g33741263077612_cont_sun_m_882_2_alg».proof.Proof.Spec
import proofs.«117827_g33741263077612_cont_sun_m_882_2_alg».proof.Proof.LibAffine
import proofs.«117827_g33741263077612_cont_sun_m_882_2_alg».proof.Proof.LibRowOps
import proofs.«117827_g33741263077612_cont_sun_m_882_2_alg».proof.Proof.LibKeepdims

noncomputable section

namespace Cert.ReferenceIdeal.RefSide

open Cert.LibNary3 Cert.ReferenceIdeal Cert.ReferenceIdeal.Gen Cert.ReferenceIdeal.ValueP Idealize.ShloMosaic Idealize.ShloMosaic.TcCoe Idealize.SL.Sem Idealize.ShloMosaic.StableHlo

/-! ## The six stages of the list of operations -/

section Stages

variable {F : FTy → Type} [FloatOps F]

/-- The first layer: two contractions, the bias laid along the rows, the rectifier. -/
abbrev c1 : List (HloOp τ sig (Elt F)) :=
  [ binary main_arg0 main_arg2 main_v0 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    binary main_arg1 main_v0 main_v1 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_arg3 main_v2 (broadcastInDim S1x32 ![1] bcast_S32_S1x32_1 : (⟨S32, .f32⟩ : BufTy).Contents (Elt F) → (⟨S1x32, .f32⟩ : BufTy).Contents (Elt F)),
    unary main_v2 main_v3 (broadcastInDim S10000x32 ![0, 1] bcast_S1x32_S10000x32_0_1 : (⟨S1x32, .f32⟩ : BufTy).Contents (Elt F) → (⟨S10000x32, .f32⟩ : BufTy).Contents (Elt F)),
    binary main_v1 main_v3 main_v4 (addf : (⟨S10000x32, .f32⟩ : BufTy).Contents (Elt F) → (⟨S10000x32, .f32⟩ : BufTy).Contents (Elt F) → (⟨S10000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x32, .f32⟩) main_call0_v0) (broadcastInDim S10000x32 ![] bcast_S_S10000x32),
    TRef.binary (TRef.of (T := ⟨S10000x32, .f32⟩) main_v4) (TRef.of (T := ⟨S10000x32, .f32⟩) main_call0_v0) (TRef.of (T := ⟨S10000x32, .f32⟩) main_v5) maximumf ]
/-- The second layer. -/
abbrev c2 : List (HloOp τ sig (Elt F)) :=
  [ binary main_v5 main_arg4 main_v6 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    binary main_arg1 main_v6 main_v7 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_arg5 main_v8 (broadcastInDim S1x32 ![1] bcast_S32_S1x32_1 : (⟨S32, .f32⟩ : BufTy).Contents (Elt F) → (⟨S1x32, .f32⟩ : BufTy).Contents (Elt F)),
    unary main_v8 main_v9 (broadcastInDim S10000x32 ![0, 1] bcast_S1x32_S10000x32_0_1 : (⟨S1x32, .f32⟩ : BufTy).Contents (Elt F) → (⟨S10000x32, .f32⟩ : BufTy).Contents (Elt F)),
    binary main_v7 main_v9 main_v10 (addf : (⟨S10000x32, .f32⟩ : BufTy).Contents (Elt F) → (⟨S10000x32, .f32⟩ : BufTy).Contents (Elt F) → (⟨S10000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x32, .f32⟩) main_call1_v0) (broadcastInDim S10000x32 ![] bcast_S_S10000x32),
    TRef.binary (TRef.of (T := ⟨S10000x32, .f32⟩) main_v10) (TRef.of (T := ⟨S10000x32, .f32⟩) main_call1_v0) (TRef.of (T := ⟨S10000x32, .f32⟩) main_v11) maximumf ]
/-- The third layer (no rectifier). -/
abbrev c3 : List (HloOp τ sig (Elt F)) :=
  [ binary main_v11 main_arg6 main_v12 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    binary main_arg1 main_v12 main_v13 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_arg7 main_v14 (broadcastInDim S1x32 ![1] bcast_S32_S1x32_1 : (⟨S32, .f32⟩ : BufTy).Contents (Elt F) → (⟨S1x32, .f32⟩ : BufTy).Contents (Elt F)),
    unary main_v14 main_v15 (broadcastInDim S10000x32 ![0, 1] bcast_S1x32_S10000x32_0_1 : (⟨S1x32, .f32⟩ : BufTy).Contents (Elt F) → (⟨S10000x32, .f32⟩ : BufTy).Contents (Elt F)),
    binary main_v13 main_v15 main_v16 (addf : (⟨S10000x32, .f32⟩ : BufTy).Contents (Elt F) → (⟨S10000x32, .f32⟩ : BufTy).Contents (Elt F) → (⟨S10000x32, .f32⟩ : BufTy).Contents (Elt F)) ]
/-- The three layers' features side by side. -/
abbrev c4 : List (HloOp τ sig (Elt F)) :=
  [ nary ![main_v5, main_v11, main_v16] main_v17 (fun u => concatenate S10000x96 1 [⟨S10000x32, u 0⟩, ⟨S10000x32, u 1⟩, ⟨S10000x32, u 2⟩] concatenates_S10000x32_S10000x32_S10000x32_S10000x96_d1) ]
/-- The classifier. -/
abbrev c5 : List (HloOp τ sig (Elt F)) :=
  [ binary main_v17 main_arg8 main_v18 ((fun l r => Host.dotGeneral dot_S10000x96_S96x40_S10000x40_1_0_0_1_n_n none l r) : (⟨S10000x96, .f32⟩ : BufTy).Contents (Elt F) → (⟨S96x40, .f32⟩ : BufTy).Contents (Elt F) → (⟨S10000x40, .f32⟩ : BufTy).Contents (Elt F)),
    unary main_arg9 main_v19 (broadcastInDim S1x40 ![1] bcast_S40_S1x40_1 : (⟨S40, .f32⟩ : BufTy).Contents (Elt F) → (⟨S1x40, .f32⟩ : BufTy).Contents (Elt F)),
    unary main_v19 main_v20 (broadcastInDim S10000x40 ![0, 1] bcast_S1x40_S10000x40_0_1 : (⟨S1x40, .f32⟩ : BufTy).Contents (Elt F) → (⟨S10000x40, .f32⟩ : BufTy).Contents (Elt F)),
    binary main_v18 main_v20 main_v21 (addf : (⟨S10000x40, .f32⟩ : BufTy).Contents (Elt F) → (⟨S10000x40, .f32⟩ : BufTy).Contents (Elt F) → (⟨S10000x40, .f32⟩ : BufTy).Contents (Elt F)) ]
/-- The row-wise log-softmax. -/
abbrev c6 : List (HloOp τ sig (Elt F)) :=
  [ TRef.nullary (TRef.of (T := ⟨S_, .f32⟩) main_call2_cst) (constant S_ .f32 0xFF800000#32),
    TRef.binary (TRef.of (T := ⟨S10000x40, .f32⟩) main_v21) (TRef.of (T := ⟨S_, .f32⟩) main_call2_cst) (TRef.of (T := ⟨S10000, .f32⟩) main_call2_v0) (fun x v => Host.reduce FloatOps.maximumf x v reducesTo_S10000x40_S10000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S10000, .f32⟩) main_call2_v1) (broadcastInDim S10000 ![] bcast_S_S10000),
    TRef.binary (TRef.of (T := ⟨S10000, .f32⟩) main_call2_v1) (TRef.of (T := ⟨S10000, .f32⟩) main_call2_v0) (TRef.of (T := ⟨S10000, .f32⟩) main_call2_v2) maximumf,
    TRef.unary (TRef.of (T := ⟨S10000, .f32⟩) main_call2_v2) (TRef.of (T := ⟨S10000x1, .f32⟩) main_call2_v3) (broadcastInDim S10000x1 ![0] bcast_S10000_S10000x1_0),
    TRef.unary (TRef.of (T := ⟨S10000x1, .f32⟩) main_call2_v3) (TRef.of (T := ⟨S10000x40, .f32⟩) main_call2_v4) (broadcastInDim S10000x40 ![0, 1] bcast_S10000x1_S10000x40_0_1),
    TRef.binary (TRef.of (T := ⟨S10000x40, .f32⟩) main_v21) (TRef.of (T := ⟨S10000x40, .f32⟩) main_call2_v4) (TRef.of (T := ⟨S10000x40, .f32⟩) main_call2_v5) subf,
    TRef.unary (TRef.of (T := ⟨S10000x40, .f32⟩) main_call2_v5) (TRef.of (T := ⟨S10000x40, .f32⟩) main_call2_v6) Host.exp,
    TRef.nullary (TRef.of (T := ⟨S_, .f32⟩) main_call2_cst_1) (constant S_ .f32 0x00000000#32),
    TRef.binary (TRef.of (T := ⟨S10000x40, .f32⟩) main_call2_v6) (TRef.of (T := ⟨S_, .f32⟩) main_call2_cst_1) (TRef.of (T := ⟨S10000, .f32⟩) main_call2_v7) (fun x v => Host.reduceAdd x v reducesTo_S10000x40_S10000_d1 h_S_),
    TRef.unary (TRef.of (T := ⟨S10000, .f32⟩) main_call2_v7) (TRef.of (T := ⟨S10000x1, .f32⟩) main_call2_v8) (broadcastInDim S10000x1 ![0] bcast_S10000_S10000x1_0),
    TRef.unary (TRef.of (T := ⟨S10000x1, .f32⟩) main_call2_v8) (TRef.of (T := ⟨S10000x1, .f32⟩) main_call2_v9) Host.log,
    TRef.unary (TRef.of (T := ⟨S10000x1, .f32⟩) main_call2_v9) (TRef.of (T := ⟨S10000x40, .f32⟩) main_call2_v10) (broadcastInDim S10000x40 ![0, 1] bcast_S10000x1_S10000x40_0_1),
    TRef.binary (TRef.of (T := ⟨S10000x40, .f32⟩) main_call2_v5) (TRef.of (T := ⟨S10000x40, .f32⟩) main_call2_v10) (TRef.of (T := ⟨S10000x40, .f32⟩) main_v22) subf ]

set_option maxRecDepth 8192 in
theorem ops_split : (ops : List (HloOp τ sig (Elt F))) = c1 ++ (c2 ++ (c3 ++ (c4 ++ (c5 ++ c6)))) := rfl

/-- The contents after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### Each stage as a function of the arrays it reads, in the host's spelling -/

/-- The rectifier: the maximum with the zero array. -/
def hrelu (y : (⟨S10000x32, .f32⟩ : BufTy).Contents (Elt F)) : (⟨S10000x32, .f32⟩ : BufTy).Contents (Elt F) :=
  maximumf y (broadcastInDim S10000x32 ![] bcast_S_S10000x32 (constant S_ .f32 0x00000000#32))

/-- The first graph convolution (128 input features). -/
def hconv1 (x : (⟨S10000x128, .f32⟩ : BufTy).Contents (Elt F)) (adj : (⟨S10000x10000, .f32⟩ : BufTy).Contents (Elt F)) (W : (⟨S128x32, .f32⟩ : BufTy).Contents (Elt F)) (b : (⟨S32, .f32⟩ : BufTy).Contents (Elt F)) : (⟨S10000x32, .f32⟩ : BufTy).Contents (Elt F) :=
  addf (Host.dotGeneral dot_S10000x10000_S10000x32_S10000x32_1_0_0_1_n_n none adj
      (Host.dotGeneral dot_S10000x128_S128x32_S10000x32_1_0_0_1_n_n none x W))
    (broadcastInDim S10000x32 ![0, 1] bcast_S1x32_S10000x32_0_1 (broadcastInDim S1x32 ![1] bcast_S32_S1x32_1 b))

/-- A later graph convolution (32 input features). -/
def hconv2 (x : (⟨S10000x32, .f32⟩ : BufTy).Contents (Elt F)) (adj : (⟨S10000x10000, .f32⟩ : BufTy).Contents (Elt F)) (W : (⟨S32x32, .f32⟩ : BufTy).Contents (Elt F)) (b : (⟨S32, .f32⟩ : BufTy).Contents (Elt F)) : (⟨S10000x32, .f32⟩ : BufTy).Contents (Elt F) :=
  addf (Host.dotGeneral dot_S10000x10000_S10000x32_S10000x32_1_0_0_1_n_n none adj
      (Host.dotGeneral dot_S10000x32_S32x32_S10000x32_1_0_0_1_n_n none x W))
    (broadcastInDim S10000x32 ![0, 1] bcast_S1x32_S10000x32_0_1 (broadcastInDim S1x32 ![1] bcast_S32_S1x32_1 b))

/-- The three feature arrays side by side, along the columns. -/
def hcat (x1 x2 x3 : (⟨S10000x32, .f32⟩ : BufTy).Contents (Elt F)) : (⟨S10000x96, .f32⟩ : BufTy).Contents (Elt F) :=
  concatenate S10000x96 1 [⟨S10000x32, x1⟩, ⟨S10000x32, x2⟩, ⟨S10000x32, x3⟩] concatenates_S10000x32_S10000x32_S10000x32_S10000x96_d1

/-- The classifier: the features against the weights, plus the bias. -/
def hlin (x : (⟨S10000x96, .f32⟩ : BufTy).Contents (Elt F)) (Wl : (⟨S96x40, .f32⟩ : BufTy).Contents (Elt F)) (bl : (⟨S40, .f32⟩ : BufTy).Contents (Elt F)) : (⟨S10000x40, .f32⟩ : BufTy).Contents (Elt F) :=
  addf (Host.dotGeneral dot_S10000x96_S96x40_S10000x40_1_0_0_1_n_n none x Wl)
    (broadcastInDim S10000x40 ![0, 1] bcast_S1x40_S10000x40_0_1 (broadcastInDim S1x40 ![1] bcast_S40_S1x40_1 bl))

/-- Each row less its largest entry. -/
def hshift (L : (⟨S10000x40, .f32⟩ : BufTy).Contents (Elt F)) : (⟨S10000x40, .f32⟩ : BufTy).Contents (Elt F) :=
  subf L (broadcastInDim S10000x40 ![0, 1] bcast_S10000x1_S10000x40_0_1 (broadcastInDim S10000x1 ![0] bcast_S10000_S10000x1_0
    (maximumf (broadcastInDim S10000 ![] bcast_S_S10000 (constant S_ .f32 0xFF800000#32))
      (Host.reduce FloatOps.maximumf L (constant S_ .f32 0xFF800000#32) reducesTo_S10000x40_S10000_d1 h_S_))))

/-- The row-wise log-softmax. -/
def hlsm (L : (⟨S10000x40, .f32⟩ : BufTy).Contents (Elt F)) : (⟨S10000x40, .f32⟩ : BufTy).Contents (Elt F) :=
  subf (hshift L) (broadcastInDim S10000x40 ![0, 1] bcast_S10000x1_S10000x40_0_1 (Host.log (broadcastInDim S10000x1 ![0] bcast_S10000_S10000x1_0
    (Host.reduceAdd (Host.exp (hshift L)) (constant S_ .f32 0x00000000#32) reducesTo_S10000x40_S10000_d1 h_S_))))

/-! ### Each stage read at its result buffer, from any contents; and the buffers a stage leaves alone -/

variable (V : Valuation τ sig (Elt F))

set_option maxRecDepth 8192 in
theorem c1_v5 : after c1 V (Proc.devRef .tc main_v5)
    = hrelu (hconv1 (V (Proc.devRef .tc main_arg0)) (V (Proc.devRef .tc main_arg1)) (V (Proc.devRef .tc main_arg2)) (V (Proc.devRef .tc main_arg3))) := by
  after_results_simp3 <;> rfl

set_option maxRecDepth 8192 in
theorem c2_v11 : after c2 V (Proc.devRef .tc main_v11)
    = hrelu (hconv2 (V (Proc.devRef .tc main_v5)) (V (Proc.devRef .tc main_arg1)) (V (Proc.devRef .tc main_arg4)) (V (Proc.devRef .tc main_arg5))) := by
  after_results_simp3 <;> rfl

set_option maxRecDepth 8192 in
theorem c3_v16 : after c3 V (Proc.devRef .tc main_v16)
    = hconv2 (V (Proc.devRef .tc main_v11)) (V (Proc.devRef .tc main_arg1)) (V (Proc.devRef .tc main_arg6)) (V (Proc.devRef .tc main_arg7)) := by
  after_results_simp3 <;> rfl

set_option maxRecDepth 8192 in
theorem c4_v17 : after c4 V (Proc.devRef .tc main_v17)
    = hcat (V (Proc.devRef .tc main_v5)) (V (Proc.devRef .tc main_v11)) (V (Proc.devRef .tc main_v16)) := by
  after_results_simp3 <;> rfl

set_option maxRecDepth 8192 in
theorem c5_v21 : after c5 V (Proc.devRef .tc main_v21)
    = hlin (V (Proc.devRef .tc main_v17)) (V (Proc.devRef .tc main_arg8)) (V (Proc.devRef .tc main_arg9)) := by
  after_results_simp3 <;> rfl

theorem c6_v22 : after c6 V (Proc.devRef .tc main_v22) = hlsm (V (Proc.devRef .tc main_v21)) := by
  after_results_simp3
  simp only [cast_eq]
  rfl

theorem c1_keep_arg1 : after c1 V (Proc.devRef .tc main_arg1) = V (Proc.devRef .tc main_arg1) := by after_results_simp3
theorem c1_keep_arg4 : after c1 V (Proc.devRef .tc main_arg4) = V (Proc.devRef .tc main_arg4) := by after_results_simp3
theorem c1_keep_arg5 : after c1 V (Proc.devRef .tc main_arg5) = V (Proc.devRef .tc main_arg5) := by after_results_simp3
theorem c1_keep_arg6 : after c1 V (Proc.devRef .tc main_arg6) = V (Proc.devRef .tc main_arg6) := by after_results_simp3
theorem c1_keep_arg7 : after c1 V (Proc.devRef .tc main_arg7) = V (Proc.devRef .tc main_arg7) := by after_results_simp3
theorem c1_keep_arg8 : after c1 V (Proc.devRef .tc main_arg8) = V (Proc.devRef .tc main_arg8) := by after_results_simp3
theorem c1_keep_arg9 : after c1 V (Proc.devRef .tc main_arg9) = V (Proc.devRef .tc main_arg9) := by after_results_simp3
theorem c2_keep_v5 : after c2 V (Proc.devRef .tc main_v5) = V (Proc.devRef .tc main_v5) := by after_results_simp3
theorem c2_keep_arg1 : after c2 V (Proc.devRef .tc main_arg1) = V (Proc.devRef .tc main_arg1) := by after_results_simp3
theorem c2_keep_arg6 : after c2 V (Proc.devRef .tc main_arg6) = V (Proc.devRef .tc main_arg6) := by after_results_simp3
theorem c2_keep_arg7 : after c2 V (Proc.devRef .tc main_arg7) = V (Proc.devRef .tc main_arg7) := by after_results_simp3
theorem c2_keep_arg8 : after c2 V (Proc.devRef .tc main_arg8) = V (Proc.devRef .tc main_arg8) := by after_results_simp3
theorem c2_keep_arg9 : after c2 V (Proc.devRef .tc main_arg9) = V (Proc.devRef .tc main_arg9) := by after_results_simp3
theorem c3_keep_v5 : after c3 V (Proc.devRef .tc main_v5) = V (Proc.devRef .tc main_v5) := by after_results_simp3
theorem c3_keep_v11 : after c3 V (Proc.devRef .tc main_v11) = V (Proc.devRef .tc main_v11) := by after_results_simp3
theorem c3_keep_arg8 : after c3 V (Proc.devRef .tc main_arg8) = V (Proc.devRef .tc main_arg8) := by after_results_simp3
theorem c3_keep_arg9 : after c3 V (Proc.devRef .tc main_arg9) = V (Proc.devRef .tc main_arg9) := by after_results_simp3
theorem c4_keep_arg8 : after c4 V (Proc.devRef .tc main_arg8) = V (Proc.devRef .tc main_arg8) := by after_results_simp3
theorem c4_keep_arg9 : after c4 V (Proc.devRef .tc main_arg9) = V (Proc.devRef .tc main_arg9) := by after_results_simp3

/-- The result buffer after all 41 operations, from any contents: the stages composed. -/
theorem ops_v22 : after ops V (Proc.devRef .tc main_v22)
    = hlsm (hlin (hcat
        (hrelu (hconv1 (V (Proc.devRef .tc main_arg0)) (V (Proc.devRef .tc main_arg1)) (V (Proc.devRef .tc main_arg2)) (V (Proc.devRef .tc main_arg3))))
        (hrelu (hconv2 (hrelu (hconv1 (V (Proc.devRef .tc main_arg0)) (V (Proc.devRef .tc main_arg1)) (V (Proc.devRef .tc main_arg2)) (V (Proc.devRef .tc main_arg3))))
          (V (Proc.devRef .tc main_arg1)) (V (Proc.devRef .tc main_arg4)) (V (Proc.devRef .tc main_arg5))))
        (hconv2 (hrelu (hconv2 (hrelu (hconv1 (V (Proc.devRef .tc main_arg0)) (V (Proc.devRef .tc main_arg1)) (V (Proc.devRef .tc main_arg2)) (V (Proc.devRef .tc main_arg3))))
          (V (Proc.devRef .tc main_arg1)) (V (Proc.devRef .tc main_arg4)) (V (Proc.devRef .tc main_arg5))))
          (V (Proc.devRef .tc main_arg1)) (V (Proc.devRef .tc main_arg6)) (V (Proc.devRef .tc main_arg7))))
      (V (Proc.devRef .tc main_arg8)) (V (Proc.devRef .tc main_arg9))) := by
  rw [ops_split, after_app, after_app, after_app, after_app, after_app, c6_v22, c5_v21, c4_v17,
    c4_keep_arg8, c4_keep_arg9, c3_v16, c3_keep_v5, c3_keep_v11, c3_keep_arg8, c3_keep_arg9,
    c2_v11, c2_keep_v5, c2_keep_arg1, c2_keep_arg6, c2_keep_arg7, c2_keep_arg8, c2_keep_arg9,
    c1_v5, c1_keep_arg1, c1_keep_arg4, c1_keep_arg5, c1_keep_arg6, c1_keep_arg7, c1_keep_arg8, c1_keep_arg9]

end Stages

/-! ## The stages read index by index, at the exact extended reals -/

section Math

open Idealize.ShloMosaic.ValueIdx Cert.Spec

variable {a k n : ℕ}

/-- The rectifier at an index: the larger of the entry and zero. -/
theorem relu_apply (hz : (⟨0, ![]⟩ : Shape).BroadcastsInDim ⟨2, ![a, n]⟩ ![])
    (y : FVec Ideal ⟨2, ![a, n]⟩ .f32) (p : Fin a) (q : Fin n) :
    maximumf y (broadcastInDim ⟨2, ![a, n]⟩ ![] hz (constant ⟨0, ![]⟩ .f32 0x00000000#32)) (ix2 p q)
      = max (y (ix2 p q)) 0 := by
  show FloatOps.maximumf (y (ix2 p q)) (broadcastInDim _ ![] hz (constant ⟨0, ![]⟩ .f32 0x00000000#32) (ix2 p q)) = _
  rw [broadcastInDim_apply ![] hz _ (ix2 p q) ix0 (fun a => a.elim0)]
  show max (y (ix2 p q)) (Ideal.ofBits .f32 0x00000000#32) = _
  rw [Ideal.ofBits_zero_f32]

/-- A graph convolution at an index: the adjacency row against the column of the features' linear image, plus the
    bias entry. -/
theorem conv_apply (w1 : DotDims.WF ⟨2, ![a, k]⟩ ⟨2, ![k, n]⟩ ⟨2, ![a, n]⟩ [1] [0] [0] [1] [] [])
    (w2 : DotDims.WF ⟨2, ![a, a]⟩ ⟨2, ![a, n]⟩ ⟨2, ![a, n]⟩ [1] [0] [0] [1] [] [])
    (hd1 : (⟨1, ![n]⟩ : Shape).BroadcastsInDim ⟨2, ![1, n]⟩ ![1])
    (hd : (⟨2, ![1, n]⟩ : Shape).BroadcastsInDim ⟨2, ![a, n]⟩ ![0, 1])
    (x : FVec Ideal ⟨2, ![a, k]⟩ .f32) (adj : FVec Ideal ⟨2, ![a, a]⟩ .f32) (W : FVec Ideal ⟨2, ![k, n]⟩ .f32)
    (b : FVec Ideal ⟨1, ![n]⟩ .f32) (p : Fin a) (q : Fin n) :
    addf (Host.dotGeneral (⟨[1], [0], [0], [1], [], [], w2⟩ : DotDims _ _ _) none adj
        (Host.dotGeneral (⟨[1], [0], [0], [1], [], [], w1⟩ : DotDims _ _ _) none x W))
      (broadcastInDim ⟨2, ![a, n]⟩ ![0, 1] hd (broadcastInDim ⟨2, ![1, n]⟩ ![1] hd1 b)) (ix2 p q)
      = conv (m2 adj) (m2 x) (m2 W) (m1 b) p q := by
  show FloatOps.addf (Host.dotGeneral _ none adj _ (ix2 p q))
    (broadcastInDim _ ![0, 1] hd (broadcastInDim _ ![1] hd1 b) (ix2 p q)) = _
  rw [Cert.LibAffine.hostDot_plain_apply, Cert.LibRowOps.rowVec_host_apply]
  show (∑ c, adj (ix2 p c) * Host.dotGeneral _ none x W (ix2 c q)) + b (ix1 q)
    = (∑ c, adj (ix2 p c) * ∑ j, x (ix2 c j) * W (ix2 j q)) + b (ix1 q)
  refine congrArg (· + b (ix1 q)) (Finset.sum_congr rfl fun c _ => ?_)
  rw [Cert.LibAffine.hostDot_plain_apply]

/-- A sum over 96 columns, band by band. -/
theorem sum96 (f : Fin 96 → EReal) :
    ∑ c, f c = ((∑ k : Fin 32, f (lo k)) + ∑ k : Fin 32, f (mid k)) + ∑ k : Fin 32, f (hi k) := by
  have h1 : ∑ c : Fin (64 + 32), f c = _ := Fin.sum_univ_add (a := 64) (b := 32) f
  have h2 : ∑ c : Fin (32 + 32), f (Fin.castAdd 32 c) = _ :=
    Fin.sum_univ_add (a := 32) (b := 32) (fun c : Fin (32 + 32) => f (Fin.castAdd 32 c))
  exact h1.trans (congrArg (· + ∑ k : Fin 32, f (hi k)) h2)

/-- The three arrays side by side, read in the first band: the first array. -/
theorem cat_lo (hc : Shape.Concatenates [(⟨2, ![a, 32]⟩ : Shape), ⟨2, ![a, 32]⟩, ⟨2, ![a, 32]⟩] ⟨2, ![a, 96]⟩ 1)
    (x1 x2 x3 : (⟨2, ![a, 32]⟩ : Shape).Idx → EReal) (p : Fin a) (c : Fin 32) :
    concatenate ⟨2, ![a, 96]⟩ 1 [⟨⟨2, ![a, 32]⟩, x1⟩, ⟨⟨2, ![a, 32]⟩, x2⟩, ⟨⟨2, ![a, 32]⟩, x3⟩] hc (ix2 p (lo c))
      = x1 (ix2 p c) :=
  concatenate_apply_piece (t := ⟨2, ![a, 96]⟩) 1 [⟨⟨2, ![a, 32]⟩, x1⟩, ⟨⟨2, ![a, 32]⟩, x2⟩, ⟨⟨2, ![a, 32]⟩, x3⟩] hc (ix2 p (lo c)) 0 (show 0 < 3 by omega) ⟨2, ![a, 32]⟩ x1 rfl rfl 0 rfl (ix2 p c)
    (fun b hb => by
      match b with
      | ⟨0, _⟩ => rfl
      | ⟨1, _⟩ => exact absurd rfl hb)
    (Nat.zero_add _)

/-- In the second band: the second array. -/
theorem cat_mid (hc : Shape.Concatenates [(⟨2, ![a, 32]⟩ : Shape), ⟨2, ![a, 32]⟩, ⟨2, ![a, 32]⟩] ⟨2, ![a, 96]⟩ 1)
    (x1 x2 x3 : (⟨2, ![a, 32]⟩ : Shape).Idx → EReal) (p : Fin a) (c : Fin 32) :
    concatenate ⟨2, ![a, 96]⟩ 1 [⟨⟨2, ![a, 32]⟩, x1⟩, ⟨⟨2, ![a, 32]⟩, x2⟩, ⟨⟨2, ![a, 32]⟩, x3⟩] hc (ix2 p (mid c))
      = x2 (ix2 p c) :=
  concatenate_apply_piece (t := ⟨2, ![a, 96]⟩) 1 [⟨⟨2, ![a, 32]⟩, x1⟩, ⟨⟨2, ![a, 32]⟩, x2⟩, ⟨⟨2, ![a, 32]⟩, x3⟩] hc (ix2 p (mid c)) 1 (show 1 < 3 by omega) ⟨2, ![a, 32]⟩ x2 rfl rfl 32 rfl (ix2 p c)
    (fun b hb => by
      match b with
      | ⟨0, _⟩ => rfl
      | ⟨1, _⟩ => exact absurd rfl hb)
    rfl

/-- In the third band: the third array. -/
theorem cat_hi (hc : Shape.Concatenates [(⟨2, ![a, 32]⟩ : Shape), ⟨2, ![a, 32]⟩, ⟨2, ![a, 32]⟩] ⟨2, ![a, 96]⟩ 1)
    (x1 x2 x3 : (⟨2, ![a, 32]⟩ : Shape).Idx → EReal) (p : Fin a) (c : Fin 32) :
    concatenate ⟨2, ![a, 96]⟩ 1 [⟨⟨2, ![a, 32]⟩, x1⟩, ⟨⟨2, ![a, 32]⟩, x2⟩, ⟨⟨2, ![a, 32]⟩, x3⟩] hc (ix2 p (hi c))
      = x3 (ix2 p c) :=
  concatenate_apply_piece (t := ⟨2, ![a, 96]⟩) 1 [⟨⟨2, ![a, 32]⟩, x1⟩, ⟨⟨2, ![a, 32]⟩, x2⟩, ⟨⟨2, ![a, 32]⟩, x3⟩] hc (ix2 p (hi c)) 2 (show 2 < 3 by omega) ⟨2, ![a, 32]⟩ x3 rfl rfl 64 rfl (ix2 p c)
    (fun b hb => by
      match b with
      | ⟨0, _⟩ => rfl
      | ⟨1, _⟩ => exact absurd rfl hb)
    rfl

/-- The classifier at an index: each layer's row against its band of the weight column, plus the bias entry. -/
theorem lin_apply (w : DotDims.WF ⟨2, ![a, 96]⟩ ⟨2, ![96, n]⟩ ⟨2, ![a, n]⟩ [1] [0] [0] [1] [] [])
    (hd1 : (⟨1, ![n]⟩ : Shape).BroadcastsInDim ⟨2, ![1, n]⟩ ![1])
    (hd : (⟨2, ![1, n]⟩ : Shape).BroadcastsInDim ⟨2, ![a, n]⟩ ![0, 1])
    (hc : Shape.Concatenates [(⟨2, ![a, 32]⟩ : Shape), ⟨2, ![a, 32]⟩, ⟨2, ![a, 32]⟩] ⟨2, ![a, 96]⟩ 1)
    (x1 x2 x3 : FVec Ideal ⟨2, ![a, 32]⟩ .f32) (Wl : FVec Ideal ⟨2, ![96, n]⟩ .f32) (bl : FVec Ideal ⟨1, ![n]⟩ .f32)
    (p : Fin a) (j : Fin n) :
    addf (Host.dotGeneral (⟨[1], [0], [0], [1], [], [], w⟩ : DotDims _ _ _) none
        (concatenate ⟨2, ![a, 96]⟩ 1 [⟨⟨2, ![a, 32]⟩, x1⟩, ⟨⟨2, ![a, 32]⟩, x2⟩, ⟨⟨2, ![a, 32]⟩, x3⟩] hc) Wl)
      (broadcastInDim ⟨2, ![a, n]⟩ ![0, 1] hd (broadcastInDim ⟨2, ![1, n]⟩ ![1] hd1 bl)) (ix2 p j)
      = logits (m2 x1) (m2 x2) (m2 x3) (m2 Wl) (m1 bl) p j := by
  show FloatOps.addf (Host.dotGeneral _ none _ Wl (ix2 p j))
    (broadcastInDim _ ![0, 1] hd (broadcastInDim _ ![1] hd1 bl) (ix2 p j)) = _
  rw [Cert.LibAffine.hostDot_plain_apply, Cert.LibRowOps.rowVec_host_apply, sum96]
  simp only [cat_lo hc, cat_mid hc, cat_hi hc]
  rfl

/-- A row less its largest entry, at an index.  The maximum with the array of minus infinities changes nothing, and
    the running maximum from minus infinity is the supremum of the row. -/
theorem shift_apply (hz : (⟨0, ![]⟩ : Shape).BroadcastsInDim ⟨1, ![a]⟩ ![])
    (hd0 : (⟨1, ![a]⟩ : Shape).BroadcastsInDim ⟨2, ![a, 1]⟩ ![0])
    (hd : (⟨2, ![a, 1]⟩ : Shape).BroadcastsInDim ⟨2, ![a, n]⟩ ![0, 1])
    (h' : (⟨2, ![a, n]⟩ : Shape).ReducesTo [1] ⟨1, ![a]⟩) (hR : (⟨2, ![a, n]⟩ : Shape).Reduces [1] ⟨1, ![a]⟩)
    (hu : 0 < (⟨0, ![]⟩ : Shape).numel)
    (L : FVec Ideal ⟨2, ![a, n]⟩ .f32) (p : Fin a) (q : Fin n) :
    subf L (broadcastInDim ⟨2, ![a, n]⟩ ![0, 1] hd (broadcastInDim ⟨2, ![a, 1]⟩ ![0] hd0
      (maximumf (broadcastInDim ⟨1, ![a]⟩ ![] hz (constant ⟨0, ![]⟩ .f32 0xFF800000#32))
        (Host.reduce FloatOps.maximumf L (constant ⟨0, ![]⟩ .f32 0xFF800000#32) h' hu)))) (ix2 p q)
      = L (ix2 p q) - Finset.univ.sup (m2 L p) := by
  show FloatOps.subf (L (ix2 p q)) _ = _
  rw [Cert.LibRowOps.colVec_host_apply]
  show L (ix2 p q) - max (broadcastInDim (s := ⟨0, ![]⟩) ⟨1, ![a]⟩ ![] hz (constant ⟨0, ![]⟩ .f32 0xFF800000#32) (ix1 p))
    (Host.reduce FloatOps.maximumf L (constant ⟨0, ![]⟩ .f32 0xFF800000#32) h' hu (ix1 p)) = _
  rw [broadcastInDim_apply ![] hz _ (ix1 p) ix0 (fun a => a.elim0), Cert.LibRowOps.rowMax_host_apply L _ h' hR hu p]
  show L (ix2 p q) - max (Ideal.ofBits .f32 0xFF800000#32)
    (Finset.fold max (Ideal.ofBits .f32 0xFF800000#32) (fun c => L (ix2 p c)) Finset.univ) = _
  rw [Cert.SupCon.Ker.ofBits_negInf, Cert.SupCon.Ker.fold_max_bot, max_bot_left]
  rfl

/-- The row-wise log-softmax at an index, for ANY way of writing each row less its largest entry as an array `S`:
    the shifted entry less the logarithm of the sum of the shifted row's exponentials (the sum starts from the zero
    word, which adds nothing). -/
theorem lsm_apply (hd0 : (⟨1, ![a]⟩ : Shape).BroadcastsInDim ⟨2, ![a, 1]⟩ ![0])
    (hd : (⟨2, ![a, 1]⟩ : Shape).BroadcastsInDim ⟨2, ![a, n]⟩ ![0, 1])
    (h' : (⟨2, ![a, n]⟩ : Shape).ReducesTo [1] ⟨1, ![a]⟩) (hR : (⟨2, ![a, n]⟩ : Shape).Reduces [1] ⟨1, ![a]⟩)
    (hu : 0 < (⟨0, ![]⟩ : Shape).numel)
    (S : FVec Ideal ⟨2, ![a, n]⟩ .f32) (p : Fin a) (q : Fin n) :
    subf S (broadcastInDim ⟨2, ![a, n]⟩ ![0, 1] hd (Host.log (broadcastInDim ⟨2, ![a, 1]⟩ ![0] hd0
      (Host.reduceAdd (Host.exp S) (constant ⟨0, ![]⟩ .f32 0x00000000#32) h' hu)))) (ix2 p q)
      = S (ix2 p q) - Ideal.log (∑ j : Fin n, Ideal.exp (S (ix2 p j))) := by
  show FloatOps.subf (S (ix2 p q)) _ = _
  rw [Cert.LibRowOps.colBcast_host_apply, Cert.LibRowOps.hostLog_apply, Cert.LibRowOps.col1_host_apply,
    Cert.LibRowOps.rowSum_host_apply _ _ h' hR hu p]
  show S (ix2 p q) - Ideal.log (Ideal.ofBits .f32 0x00000000#32 + ∑ j : Fin n, Ideal.exp (S (ix2 p j))) = _
  rw [Ideal.ofBits_zero_f32, zero_add]

/-! ### The stages as the specification's functions of rows and columns -/

theorem m2_hrelu (y : (⟨S10000x32, .f32⟩ : BufTy).Contents (Elt Ideal)) : m2 (a := 10000) (b := 32) (hrelu y) = relu (m2 (a := 10000) (b := 32) y) :=
  funext fun p => funext fun q => relu_apply bcast_S_S10000x32 y p q

theorem m2_hconv1 (x : (⟨S10000x128, .f32⟩ : BufTy).Contents (Elt Ideal)) (adj : (⟨S10000x10000, .f32⟩ : BufTy).Contents (Elt Ideal)) (W : (⟨S128x32, .f32⟩ : BufTy).Contents (Elt Ideal)) (b : (⟨S32, .f32⟩ : BufTy).Contents (Elt Ideal)) :
    m2 (a := 10000) (b := 32) (hconv1 x adj W b)
      = conv (m2 (a := 10000) (b := 10000) adj) (m2 (a := 10000) (b := 128) x) (m2 (a := 128) (b := 32) W) (m1 (a := 32) b) :=
  funext fun p => funext fun q =>
    conv_apply dot_S10000x128_S128x32_S10000x32_1_0_0_1_n_n_wf dot_S10000x10000_S10000x32_S10000x32_1_0_0_1_n_n_wf
      bcast_S32_S1x32_1 bcast_S1x32_S10000x32_0_1 x adj W b p q

theorem m2_hconv2 (x : (⟨S10000x32, .f32⟩ : BufTy).Contents (Elt Ideal)) (adj : (⟨S10000x10000, .f32⟩ : BufTy).Contents (Elt Ideal)) (W : (⟨S32x32, .f32⟩ : BufTy).Contents (Elt Ideal)) (b : (⟨S32, .f32⟩ : BufTy).Contents (Elt Ideal)) :
    m2 (a := 10000) (b := 32) (hconv2 x adj W b)
      = conv (m2 (a := 10000) (b := 10000) adj) (m2 (a := 10000) (b := 32) x) (m2 (a := 32) (b := 32) W) (m1 (a := 32) b) :=
  funext fun p => funext fun q =>
    conv_apply dot_S10000x32_S32x32_S10000x32_1_0_0_1_n_n_wf dot_S10000x10000_S10000x32_S10000x32_1_0_0_1_n_n_wf
      bcast_S32_S1x32_1 bcast_S1x32_S10000x32_0_1 x adj W b p q

theorem m2_hlin_hcat (x1 x2 x3 : (⟨S10000x32, .f32⟩ : BufTy).Contents (Elt Ideal)) (Wl : (⟨S96x40, .f32⟩ : BufTy).Contents (Elt Ideal)) (bl : (⟨S40, .f32⟩ : BufTy).Contents (Elt Ideal)) :
    m2 (a := 10000) (b := 40) (hlin (hcat x1 x2 x3) Wl bl)
      = logits (m2 (a := 10000) (b := 32) x1) (m2 (a := 10000) (b := 32) x2) (m2 (a := 10000) (b := 32) x3)
          (m2 (a := 96) (b := 40) Wl) (m1 (a := 40) bl) :=
  funext fun p => funext fun j =>
    lin_apply dot_S10000x96_S96x40_S10000x40_1_0_0_1_n_n_wf bcast_S40_S1x40_1 bcast_S1x40_S10000x40_0_1
      concatenates_S10000x32_S10000x32_S10000x32_S10000x96_d1 x1 x2 x3 Wl bl p j

theorem hshift_apply (L : (⟨S10000x40, .f32⟩ : BufTy).Contents (Elt Ideal)) (p : Fin 10000) (q : Fin 40) :
    hshift L (ix2 p q) = m2 (a := 10000) (b := 40) L p q - Finset.univ.sup (m2 (a := 10000) (b := 40) L p) :=
  shift_apply bcast_S_S10000 bcast_S10000_S10000x1_0 bcast_S10000x1_S10000x40_0_1 reducesTo_S10000x40_S10000_d1
    (by decide) h_S_ L p q

theorem m2_hlsm (L : (⟨S10000x40, .f32⟩ : BufTy).Contents (Elt Ideal)) :
    m2 (a := 10000) (b := 40) (hlsm L) = logSoftmax (m2 (a := 10000) (b := 40) L) := by
  funext p q
  refine (lsm_apply bcast_S10000_S10000x1_0 bcast_S10000x1_S10000x40_0_1 reducesTo_S10000x40_S10000_d1
    (by decide) h_S_ (hshift L) p q).trans ?_
  simp only [hshift_apply]
  rfl

/-- The composed stages are the specification's function of the ten argument arrays. -/
theorem stages_eq_G (x : (⟨S10000x128, .f32⟩ : BufTy).Contents (Elt Ideal)) (adj : (⟨S10000x10000, .f32⟩ : BufTy).Contents (Elt Ideal)) (W1 : (⟨S128x32, .f32⟩ : BufTy).Contents (Elt Ideal)) (b1 : (⟨S32, .f32⟩ : BufTy).Contents (Elt Ideal))
    (W2 : (⟨S32x32, .f32⟩ : BufTy).Contents (Elt Ideal)) (b2 : (⟨S32, .f32⟩ : BufTy).Contents (Elt Ideal)) (W3 : (⟨S32x32, .f32⟩ : BufTy).Contents (Elt Ideal)) (b3 : (⟨S32, .f32⟩ : BufTy).Contents (Elt Ideal))
    (Wl : (⟨S96x40, .f32⟩ : BufTy).Contents (Elt Ideal)) (bl : (⟨S40, .f32⟩ : BufTy).Contents (Elt Ideal)) :
    hlsm (hlin (hcat
        (hrelu (hconv1 x adj W1 b1))
        (hrelu (hconv2 (hrelu (hconv1 x adj W1 b1)) adj W2 b2))
        (hconv2 (hrelu (hconv2 (hrelu (hconv1 x adj W1 b1)) adj W2 b2)) adj W3 b3))
      Wl bl)
      = Cert.Spec.G x adj W1 b1 W2 b2 W3 b3 Wl bl := by
  funext i
  obtain ⟨p, q, rfl⟩ : ∃ (p : Fin 10000) (q : Fin 40), i = ix2 p q := ⟨i 0, i 1, eq_ix2 i⟩
  rw [Cert.Spec.G_apply]
  show m2 (a := 10000) (b := 40) (hlsm (F := Ideal) _) p q = _
  simp only [m2_hlsm, m2_hlin_hcat, m2_hrelu, m2_hconv1, m2_hconv2]
  rfl

end Math

/-! ## The run -/

/-- On every device, from any memory with zero counters: every weakly fair execution of the reference program
    terminates with the result buffer at the specification's function of the ten argument arrays, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
        = Cert.Spec.G (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v22).trans ((ops_v22 (launchContents m c)).trans (stages_eq_G _ _ _ _ _ _ _ _ _ _)),
      (h c main_arg0).trans (by after_results_simp3 <;> rfl),
      (h c main_arg1).trans (by after_results_simp3 <;> rfl),
      (h c main_arg2).trans (by after_results_simp3 <;> rfl),
      (h c main_arg3).trans (by after_results_simp3 <;> rfl),
      (h c main_arg4).trans (by after_results_simp3 <;> rfl),
      (h c main_arg5).trans (by after_results_simp3 <;> rfl),
      (h c main_arg6).trans (by after_results_simp3 <;> rfl),
      (h c main_arg7).trans (by after_results_simp3 <;> rfl),
      (h c main_arg8).trans (by after_results_simp3 <;> rfl),
      (h c main_arg9).trans (by after_results_simp3 <;> rfl)⟩)
    (run_seq scopedRefs_eq scopedSems_eq defs main (fun _ => ops) main_eq (fun _ => ops_sub) m ρ)

end Cert.ReferenceIdeal.RefSide

end
-- ==== Proof.lean ====
/-
  Three graph-convolution layers over a dense adjacency matrix, a linear classifier on the three layers' features and a
  row-wise log-softmax: a kernel program of three pipelined regions against the plain array program.

  Each region walks the row blocks of the adjacency matrix (80 rows per grid point).  At its first point it computes the
  small product "features times weights" into a scratch buffer, which every later point only reads; at every point it
  multiplies the adjacency block with that product, adds the bias and (in the first two regions) rectifies.  The first region
  also writes out a copy of the adjacency matrix in a narrower float format, which the later regions read; on the extended
  reals a change of format is the identity.  The last region adds the classifier — each layer's features against its band of
  the weight matrix — and the log-softmax of each row.

  The frames: each region is run case by case (first point / later point) on whole staging buffers, the scratch buffer's
  contents carried in the region's invariant from the first point on; the program is the chain of its host operations and
  its three regions, the buffers' contents followed from the launch to the end, where every argument holds what it was
  launched with.  The values, on the extended reals: a row block written back is the block of one whole-array function of the
  arrays the region found, the blocks tile the output array, and the three functions composed are the specification
  (Spec.lean), which the array program's operations compute too: a sum over the 96 concatenated features splits into the
  three bands' sums, and both log-softmaxes subtract the row's largest entry.  Only associativity and commutativity of the
  sum are used, so the inputs' finiteness is never needed.
-/
import proofs.«117827_g33741263077612_cont_sun_m_882_2_alg».proof.Defs
import proofs.«117827_g33741263077612_cont_sun_m_882_2_alg».proof.Proof.Gen.Kernel
import proofs.«117827_g33741263077612_cont_sun_m_882_2_alg».proof.Proof.Gen.KernelIdeal
import proofs.«117827_g33741263077612_cont_sun_m_882_2_alg».proof.Proof.Gen.ReferenceIdeal
import proofs.«117827_g33741263077612_cont_sun_m_882_2_alg».proof.Proof.Gen.Pre_finite_inputs
import proofs.«117827_g33741263077612_cont_sun_m_882_2_alg».proof.Proof.KKeep
import proofs.«117827_g33741263077612_cont_sun_m_882_2_alg».proof.Proof.KIKeep
import proofs.«117827_g33741263077612_cont_sun_m_882_2_alg».proof.Proof.KIChain
import proofs.«117827_g33741263077612_cont_sun_m_882_2_alg».proof.Proof.RefSide
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.keep_main_arg0 m ρ c),
      (h c _ (Cert.Kernel.Hand.mem_uc Cert.Kernel.main_arg1 (by decide))).trans (Cert.Kernel.Hand.keep_main_arg1 m ρ c),
      (h c _ (Cert.Kernel.Hand.mem_uc Cert.Kernel.main_arg2 (by decide))).trans (Cert.Kernel.Hand.keep_main_arg2 m ρ c),
      (h c _ (Cert.Kernel.Hand.mem_uc Cert.Kernel.main_arg3 (by decide))).trans (Cert.Kernel.Hand.keep_main_arg3 m ρ c),
      (h c _ (Cert.Kernel.Hand.mem_uc Cert.Kernel.main_arg4 (by decide))).trans (Cert.Kernel.Hand.keep_main_arg4 m ρ c),
      (h c _ (Cert.Kernel.Hand.mem_uc Cert.Kernel.main_arg5 (by decide))).trans (Cert.Kernel.Hand.keep_main_arg5 m ρ c),
      (h c _ (Cert.Kernel.Hand.mem_uc Cert.Kernel.main_arg6 (by decide))).trans (Cert.Kernel.Hand.keep_main_arg6 m ρ c),
      (h c _ (Cert.Kernel.Hand.mem_uc Cert.Kernel.main_arg7 (by decide))).trans (Cert.Kernel.Hand.keep_main_arg7 m ρ c),
      (h c _ (Cert.Kernel.Hand.mem_uc Cert.Kernel.main_arg8 (by decide))).trans (Cert.Kernel.Hand.keep_main_arg8 m ρ c),
      (h c _ (Cert.Kernel.Hand.mem_uc Cert.Kernel.main_arg9 (by decide))).trans (Cert.Kernel.Hand.keep_main_arg9 m ρ c)⟩)
    (Cert.Kernel.Hand.run_main (F := Bits) m ρ)

/-- So does the program read on the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.keep_main_arg0 m ρ c),
      (h c _ (Cert.KernelIdeal.Hand.mem_uc Cert.KernelIdeal.main_arg1 (by decide))).trans (Cert.KernelIdeal.Hand.keep_main_arg1 m ρ c),
      (h c _ (Cert.KernelIdeal.Hand.mem_uc Cert.KernelIdeal.main_arg2 (by decide))).trans (Cert.KernelIdeal.Hand.keep_main_arg2 m ρ c),
      (h c _ (Cert.KernelIdeal.Hand.mem_uc Cert.KernelIdeal.main_arg3 (by decide))).trans (Cert.KernelIdeal.Hand.keep_main_arg3 m ρ c),
      (h c _ (Cert.KernelIdeal.Hand.mem_uc Cert.KernelIdeal.main_arg4 (by decide))).trans (Cert.KernelIdeal.Hand.keep_main_arg4 m ρ c),
      (h c _ (Cert.KernelIdeal.Hand.mem_uc Cert.KernelIdeal.main_arg5 (by decide))).trans (Cert.KernelIdeal.Hand.keep_main_arg5 m ρ c),
      (h c _ (Cert.KernelIdeal.Hand.mem_uc Cert.KernelIdeal.main_arg6 (by decide))).trans (Cert.KernelIdeal.Hand.keep_main_arg6 m ρ c),
      (h c _ (Cert.KernelIdeal.Hand.mem_uc Cert.KernelIdeal.main_arg7 (by decide))).trans (Cert.KernelIdeal.Hand.keep_main_arg7 m ρ c),
      (h c _ (Cert.KernelIdeal.Hand.mem_uc Cert.KernelIdeal.main_arg8 (by decide))).trans (Cert.KernelIdeal.Hand.keep_main_arg8 m ρ c),
      (h c _ (Cert.KernelIdeal.Hand.mem_uc Cert.KernelIdeal.main_arg9 (by decide))).trans (Cert.KernelIdeal.Hand.keep_main_arg9 m ρ c)⟩)
    (Cert.KernelIdeal.Hand.run_main (F := Ideal) m ρ)

/-- And the array program. -/
theorem frame_ri : Cert.frame_ReferenceIdeal := fun m ρ _ =>
  (θ_run Cert.ReferenceIdeal.defs _ _).mono (fun _ h c => (h c).2) (Cert.ReferenceIdeal.RefSide.run m ρ)

/-- The idealization rewrote nothing. -/
theorem preserves : Cert.preserves_Kernel_KernelIdeal := trivial

/-- On the extended reals both programs end with the specification's function of the arguments in their result array. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Hand.mem_uc Cert.KernelIdeal.main_v6 (by decide))).trans (Cert.KernelIdeal.Val.out_eq m ρ c),
      (h c _ (Cert.KernelIdeal.Hand.mem_uc Cert.KernelIdeal.main_arg0 (by decide))).trans (Cert.KernelIdeal.Hand.keep_main_arg0 m ρ c),
      (h c _ (Cert.KernelIdeal.Hand.mem_uc Cert.KernelIdeal.main_arg1 (by decide))).trans (Cert.KernelIdeal.Hand.keep_main_arg1 m ρ c),
      (h c _ (Cert.KernelIdeal.Hand.mem_uc Cert.KernelIdeal.main_arg2 (by decide))).trans (Cert.KernelIdeal.Hand.keep_main_arg2 m ρ c),
      (h c _ (Cert.KernelIdeal.Hand.mem_uc Cert.KernelIdeal.main_arg3 (by decide))).trans (Cert.KernelIdeal.Hand.keep_main_arg3 m ρ c),
      (h c _ (Cert.KernelIdeal.Hand.mem_uc Cert.KernelIdeal.main_arg4 (by decide))).trans (Cert.KernelIdeal.Hand.keep_main_arg4 m ρ c),
      (h c _ (Cert.KernelIdeal.Hand.mem_uc Cert.KernelIdeal.main_arg5 (by decide))).trans (Cert.KernelIdeal.Hand.keep_main_arg5 m ρ c),
      (h c _ (Cert.KernelIdeal.Hand.mem_uc Cert.KernelIdeal.main_arg6 (by decide))).trans (Cert.KernelIdeal.Hand.keep_main_arg6 m ρ c),
      (h c _ (Cert.KernelIdeal.Hand.mem_uc Cert.KernelIdeal.main_arg7 (by decide))).trans (Cert.KernelIdeal.Hand.keep_main_arg7 m ρ c),
      (h c _ (Cert.KernelIdeal.Hand.mem_uc Cert.KernelIdeal.main_arg8 (by decide))).trans (Cert.KernelIdeal.Hand.keep_main_arg8 m ρ c),
      (h c _ (Cert.KernelIdeal.Hand.mem_uc Cert.KernelIdeal.main_arg9 (by decide))).trans (Cert.KernelIdeal.Hand.keep_main_arg9 m ρ c)⟩)
      (Cert.KernelIdeal.Hand.run_main (F := Ideal) m ρ)
  · refine (θ_run Cert.ReferenceIdeal.defs _ _).mono (fun r h c => ⟨?_, (h c).2⟩) (Cert.ReferenceIdeal.RefSide.run m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
